-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_25" .f32 0x3D23D70A#32 ((1 / 25 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S1024x10x256 : Shape := ⟨3, ![1024, 10, 256]⟩
abbrev S1024x10x25x256 : Shape := ⟨4, ![1024, 10, 25, 256]⟩
abbrev S256x128 : Shape := ⟨2, ![256, 128]⟩
abbrev S384x256 : Shape := ⟨2, ![384, 256]⟩
abbrev S256x50 : Shape := ⟨2, ![256, 50]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S1024x10x256 : S_.BroadcastsInDim S1024x10x256 (![] : Fin 0 → Fin S1024x10x256.rank)
  reducesTo_S1024x10x256_S_d0_1_2 : S1024x10x256.ReducesTo [0, 1, 2] S_
  bcast_S_S1024x10x25x256 : S_.BroadcastsInDim S1024x10x25x256 (![] : Fin 0 → Fin S1024x10x25x256.rank)
  reducesTo_S1024x10x25x256_S_d0_1_2_3 : S1024x10x25x256.ReducesTo [0, 1, 2, 3] S_
  bcast_S_S256x128 : S_.BroadcastsInDim S256x128 (![] : Fin 0 → Fin S256x128.rank)
  reducesTo_S256x128_S_d0_1 : S256x128.ReducesTo [0, 1] S_
  bcast_S_S384x256 : S_.BroadcastsInDim S384x256 (![] : Fin 0 → Fin S384x256.rank)
  reducesTo_S384x256_S_d0_1 : S384x256.ReducesTo [0, 1] S_
  bcast_S_S256x50 : S_.BroadcastsInDim S256x50 (![] : Fin 0 → Fin S256x50.rank)
  reducesTo_S256x50_S_d0_1 : S256x50.ReducesTo [0, 1] S_

variable [Facts]

def fn_part2 {F : FTy → Type} [FloatOps F] (main_arg7 : FVec F S256x50 .f32) (main_v33 : IVec S_ 1) : IVec S_ 1 :=
  let main_v34 : FVec F S256x50 .f32 := Host.absf main_arg7
  let main_cst_12 : FVec F S_ .f32 := constant S_ .f32 0x7F800000#32
  let main_v35 : FVec F S256x50 .f32 := broadcastInDim S256x50 ![] bcast_S_S256x50 main_cst_12
  let main_v36 : IVec S256x50 1 := cmpf .olt main_v34 main_v35
  let main_c_13 : IVec S_ 1 := constantI S_ 1 1#1
  let main_v37 : IVec S_ 1 := (fun x v => Host.reduce IntOp.andi x v reducesTo_S256x50_S_d0_1 h_S_) main_v36 main_c_13
  let main_v38 : IVec S_ 1 := andi main_v33 main_v37
  main_v38

def fn_part1 {F : FTy → Type} [FloatOps F] (main_arg4 : FVec F S256x128 .f32) (main_arg5 : FVec F S384x256 .f32) (main_arg6 : FVec F S384x256 .f32) (main_arg7 : FVec F S256x50 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S384x256 .f32 := Host.absf main_arg5
  let main_cst_8 : FVec F S_ .f32 := constant S_ .f32 0x7F800000#32
  let main_v25 : FVec F S384x256 .f32 := broadcastInDim S384x256 ![] bcast_S_S384x256 main_cst_8
  let main_v26 : IVec S384x256 1 := cmpf .olt main_v24 main_v25
  let main_c_9 : IVec S_ 1 := constantI S_ 1 1#1
  let main_v27 : IVec S_ 1 := (fun x v => Host.reduce IntOp.andi x v reducesTo_S384x256_S_d0_1 h_S_) main_v26 main_c_9
  let main_v28 : IVec S_ 1 := andi main_v23 main_v27
  let main_v29 : FVec F S384x256 .f32 := Host.absf main_arg6
  let main_cst_10 : FVec F S_ .f32 := constant S_ .f32 0x7F800000#32
  let main_v30 : FVec F S384x256 .f32 := broadcastInDim S384x256 ![] bcast_S_S384x256 main_cst_10
  let main_v31 : IVec S384x256 1 := cmpf .olt main_v29 main_v30
  let main_c_11 : IVec S_ 1 := constantI S_ 1 1#1
  let main_v32 : IVec S_ 1 := (fun x v => Host.reduce IntOp.andi x v reducesTo_S384x256_S_d0_1 h_S_) main_v31 main_c_11
  let main_v33 : IVec S_ 1 := andi main_v28 main_v32
  fn_part2 (F := F) main_arg7 main_v33

def fn {F : FTy → Type} [FloatOps F] (main_arg0 : FVec F S1024x256 .f32) (main_arg1 : FVec F S1024x10x256 .f32) (main_arg2 : FVec F S1024x10x25x256 .f32) (main_arg3 : FVec F S256x128 .f32) (main_arg4 : FVec F S256x128 .f32) (main_arg5 : FVec F S384x256 .f32) (main_arg6 : FVec F S384x256 .f32) (main_arg7 : FVec F S256x50 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x10x256 .f32 := Host.absf main_arg1
  let main_cst_0 : FVec F S_ .f32 := constant S_ .f32 0x7F800000#32
  let main_v5 : FVec F S1024x10x256 .f32 := broadcastInDim S1024x10x256 ![] bcast_S_S1024x10x256 main_cst_0
  let main_v6 : IVec S1024x10x256 1 := cmpf .olt main_v4 main_v5
  let main_c_1 : IVec S_ 1 := constantI S_ 1 1#1
  let main_v7 : IVec S_ 1 := (fun x v => Host.reduce IntOp.andi x v reducesTo_S1024x10x256_S_d0_1_2 h_S_) main_v6 main_c_1
  let main_v8 : IVec S_ 1 := andi main_v3 main_v7
  let main_v9 : FVec F S1024x10x25x256 .f32 := Host.absf main_arg2
  let main_cst_2 : FVec F S_ .f32 := constant S_ .f32 0x7F800000#32
  let main_v10 : FVec F S1024x10x25x256 .f32 := broadcastInDim S1024x10x25x256 ![] bcast_S_S1024x10x25x256 main_cst_2
  let main_v11 : IVec S1024x10x25x256 1 := cmpf .olt main_v9 main_v10
  let main_c_3 : IVec S_ 1 := constantI S_ 1 1#1
  let main_v12 : IVec S_ 1 := (fun x v => Host.reduce IntOp.andi x v reducesTo_S1024x10x25x256_S_d0_1_2_3 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_v13 main_v16
-- ==== Kernel.lean ====
abbrev S1024x256 : Shape := ⟨2, ![1024, 256]⟩
abbrev S1024x10x256 : Shape := ⟨3, ![1024, 10, 256]⟩
abbrev S1024x10x25x256 : Shape := ⟨4, ![1024, 10, 25, 256]⟩
abbrev S256x128 : Shape := ⟨2, ![256, 128]⟩
abbrev S384x256 : Shape := ⟨2, ![384, 256]⟩
abbrev S256x50 : Shape := ⟨2, ![256, 50]⟩
abbrev S256x256 : Shape := ⟨2, ![256, 256]⟩
abbrev S128x256 : Shape := ⟨2, ![128, 256]⟩
abbrev S256000x256 : Shape := ⟨2, ![256000, 256]⟩
abbrev S10240x256 : Shape := ⟨2, ![10240, 256]⟩
abbrev S8000 : Shape := ⟨1, ![8000]⟩
abbrev S1x8000 : Shape := ⟨2, ![1, 8000]⟩
abbrev S_ : Shape := ⟨0, ![]⟩
abbrev S320 : Shape := ⟨1, ![320]⟩
abbrev S320x1 : Shape := ⟨2, ![320, 1]⟩
abbrev S320x8000 : Shape := ⟨2, ![320, 8000]⟩
abbrev S1280 : Shape := ⟨1, ![1280]⟩
abbrev S1x1280 : Shape := ⟨2, ![1, 1280]⟩
abbrev S128 : Shape := ⟨1, ![128]⟩
abbrev S128x1 : Shape := ⟨2, ![128, 1]⟩
abbrev S128x1280 : Shape := ⟨2, ![128, 1280]⟩
abbrev S1024x50 : Shape := ⟨2, ![1024, 50]⟩
abbrev S8000x256 : Shape := ⟨2, ![8000, 256]⟩
abbrev S10240x128 : Shape := ⟨2, ![10240, 128]⟩
abbrev S8000x128 : Shape := ⟨2, ![8000, 128]⟩
abbrev S320x128 : Shape := ⟨2, ![320, 128]⟩
abbrev S1280x256 : Shape := ⟨2, ![1280, 256]⟩
abbrev S1280x128 : Shape := ⟨2, ![1280, 128]⟩
abbrev S1280x1 : Shape := ⟨2, ![1280, 1]⟩
abbrev S128x128 : Shape := ⟨2, ![128, 128]⟩
abbrev S128x50 : Shape := ⟨2, ![128, 50]⟩

abbrev nBuf : Space → Nat
  | .hbm => 71
  | .vmem => 15
  | .smem => 0
  | _ => 0

abbrev bufTy : (tb : Table) → Fin (tcTables nBuf tb) → BufTy
  | .hbm, ⟨0, _⟩ => ⟨S1024x256, .f32⟩
  | .hbm, ⟨1, _⟩ => ⟨S1024x10x256, .f32⟩
  | .hbm, ⟨2, _⟩ => ⟨S1024x10x25x256, .f32⟩
  | .hbm, ⟨3, _⟩ => ⟨S256x128, .f32⟩
  | .hbm, ⟨4, _⟩ => ⟨S256x128, .f32⟩
  | .hbm, ⟨5, _⟩ => ⟨S384x256, .f32⟩
  | .hbm, ⟨6, _⟩ => ⟨S384x256, .f32⟩
  | .hbm, ⟨7, _⟩ => ⟨S256x50, .f32⟩
  | .hbm, ⟨8, _⟩ => ⟨S256x256, .f32⟩
  | .hbm, ⟨9, _⟩ => ⟨S256x256, .bf16⟩
  | .hbm, ⟨10, _⟩ => ⟨S128x256, .f32⟩
  | .hbm, ⟨11, _⟩ => ⟨S128x256, .bf16⟩
  | .hbm, ⟨12, _⟩ => ⟨S256x256, .f32⟩
  | .hbm, ⟨13, _⟩ => ⟨S128x256, .f32⟩
  | .hbm, ⟨14, _⟩ => ⟨S256000x256, .f32⟩
  | .hbm, ⟨15, _⟩ => ⟨S10240x256, .f32⟩
  | .hbm, ⟨16, _⟩ => ⟨S8000, .i32⟩
  | .hbm, ⟨17, _⟩ => ⟨S1x8000, .i32⟩
  | .hbm, ⟨18, _⟩ => ⟨S_, .i32⟩
  | .hbm, ⟨19, _⟩ => ⟨S_, .i32⟩
  | .hbm, ⟨20, _⟩ => ⟨S1x8000, .i32⟩
  | .hbm, ⟨21, _⟩ => ⟨S1x8000, .i32⟩
  | .hbm, ⟨22, _⟩ => ⟨S1x8000, .i32⟩
  | .hbm, ⟨23, _⟩ => ⟨S_, .i32⟩
  | .hbm, ⟨24, _⟩ => ⟨S1x8000, .i32⟩
  | .hbm, ⟨25, _⟩ => ⟨S1x8000, .i1⟩
  | .hbm, ⟨26, _⟩ => ⟨S1x8000, .i32⟩
  | .hbm, ⟨27, _⟩ => ⟨S1x8000, .i32⟩
  | .hbm, ⟨28, _⟩ => ⟨S_, .i32⟩
  | .hbm, ⟨29, _⟩ => ⟨S1x8000, .i32⟩
  | .hbm, ⟨30, _⟩ => ⟨S1x8000, .i1⟩
  | .hbm, ⟨31, _⟩ => ⟨S1x8000, .i1⟩
  | .hbm, ⟨32, _⟩ => ⟨S_, .i32⟩
  | .hbm, ⟨33, _⟩ => ⟨S1x8000, .i32⟩
  | .hbm, ⟨34, _⟩ => ⟨S1x8000, .i32⟩
  | .hbm, ⟨35, _⟩ => ⟨S1x8000, .i32⟩
  | .hbm, ⟨36, _⟩ => ⟨S320, .i32⟩
  | .hbm, ⟨37, _⟩ => ⟨S320x1, .i32⟩
  | .hbm, ⟨38, _⟩ => ⟨S320x8000, .i32⟩
  | .hbm, ⟨39, _⟩ => ⟨S320x8000, .i32⟩
  | .hbm, ⟨40, _⟩ => ⟨S320x8000, .i1⟩
  | .hbm, ⟨41, _⟩ => ⟨S320x8000, .bf16⟩
  | .hbm, ⟨42, _⟩ => ⟨S1280, .i32⟩
  | .hbm, ⟨43, _⟩ => ⟨S1x1280, .i32⟩
  | .hbm, ⟨44, _⟩ => ⟨S_, .i32⟩
  | .hbm, ⟨45, _⟩ => ⟨S_, .i32⟩
  | .hbm, ⟨46, _⟩ => ⟨S1x1280, .i32⟩
  | .hbm, ⟨47, _⟩ => ⟨S1x1280, .i32⟩
  | .hbm, ⟨48, _⟩ => ⟨S1x1280, .i32⟩
  | .hbm, ⟨49, _⟩ => ⟨S_, .i32⟩
  | .hbm, ⟨50, _⟩ => ⟨S1x1280, .i32⟩
  | .hbm, ⟨51, _⟩ => ⟨S1x1280, .i1⟩
  | .hbm, ⟨52, _⟩ => ⟨S1x1280, .i32⟩
  | .hbm, ⟨53, _⟩ => ⟨S1x1280, .i32⟩
  | .hbm, ⟨54, _⟩ => ⟨S_, .i32⟩
  | .hbm, ⟨55, _⟩ => ⟨S1x1280, .i32⟩
  | .hbm, ⟨56, _⟩ => ⟨S1x1280, .i1⟩
  | .hbm, ⟨57, _⟩ => ⟨S1x1280, .i1⟩
  | .hbm, ⟨58, _⟩ => ⟨S_, .i32⟩
  | .hbm, ⟨59, _⟩ => ⟨S1x1280, .i32⟩
  | .hbm, ⟨60, _⟩ => ⟨S1x1280, .i32⟩
  | .hbm, ⟨61, _⟩ => ⟨S1x1280, .i32⟩
  | .hbm, ⟨62, _⟩ => ⟨S128, .i32⟩
  | .hbm, ⟨63, _⟩ => ⟨S128x1, .i32⟩
  | .hbm, ⟨64, _⟩ => ⟨S128x1280, .i32⟩
  | .hbm, ⟨65, _⟩ => ⟨S128x1280, .i32⟩
  | .hbm, ⟨66, _⟩ => ⟨S128x1280, .i1⟩
  | .hbm, ⟨67, _⟩ => ⟨S128x1280, .bf16⟩
  | .hbm, ⟨68, _⟩ => ⟨S256x128, .bf16⟩
  | .hbm, ⟨69, _⟩ => ⟨S256x128, .bf16⟩
  | .hbm, ⟨70, _⟩ => ⟨S1024x50, .f32⟩
  | .local _ .vmem, ⟨0, _⟩ => ⟨S1024x256, .f32⟩
  | .local _ .vmem, ⟨1, _⟩ => ⟨S10240x256, .f32⟩
  | .local _ .vmem, ⟨2, _⟩ => ⟨S8000x256, .f32⟩
  | .local _ .vmem, ⟨3, _⟩ => ⟨S8000x256, .f32⟩
  | .local _ .vmem, ⟨4, _⟩ => ⟨S320x8000, .bf16⟩
  | .local _ .vmem, ⟨5, _⟩ => ⟨S128x1280, .bf16⟩
  | .local _ .vmem, ⟨6, _⟩ => ⟨S256x128, .bf16⟩
  | .local _ .vmem, ⟨7, _⟩ => ⟨S256x256, .bf16⟩
  | .local _ .vmem, ⟨8, _⟩ => ⟨S128x256, .bf16⟩
  | .local _ .vmem, ⟨9, _⟩ => ⟨S256x128, .bf16⟩
  | .local _ .vmem, ⟨10, _⟩ => ⟨S256x256, .f32⟩
  | .local _ .vmem, ⟨11, _⟩ => ⟨S128x256, .f32⟩
  | .local _ .vmem, ⟨12, _⟩ => ⟨S256x50, .f32⟩
  | .local _ .vmem, ⟨13, _⟩ => ⟨S1024x50, .f32⟩
  | .local _ .vmem, ⟨14, _⟩ => ⟨S10240x128, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c320_i32 : BitVec 32 := 320#32
  let v15 : BitVec 32 := Scalar.muli arg0 c320_i32
  let v16 : Index := Scalar.indexCast v15
  let c0_8 : Index := 0#32
  ![v16.toNat, 0]
def k0_cond1 (i : grid0.Coords) : BitVec 1 :=
  let arg0 : BitVec 32 := BitVec.ofNat 32 (i 0).val
  let c31_i32 : BitVec 32 := 31#32
  let v20 : BitVec 1 := Scalar.cmpi .eq arg0 c31_i32
  let v21 : BitVec 32 := Scalar.extui v20
  let c0_i32 : BitVec 32 := 0#32
  let v22 : BitVec 1 := Scalar.cmpi .ne v21 c0_i32
  v22

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10240x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S320x8000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x50 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x50 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

class Facts₀ : Prop where
  slices_S384x256_S256x256_0_0 : S384x256.Slices ![0, 0] S256x256
  bitsLt_bf16_f32 : FTy.bits .bf16 < FTy.bits .f32
  slices_S384x256_S128x256_256_0 : S384x256.Slices ![256, 0] S128x256
  shapeCasts_S1024x10x25x256_S256000x256 : S1024x10x25x256.ShapeCasts S256000x256
  shapeCasts_S1024x10x256_S10240x256 : S1024x10x256.ShapeCasts S10240x256
  bcast_S8000_S1x8000_1 : S8000.BroadcastsInDim S1x8000 (![1] : Fin 1 → Fin S1x8000.rank)
  bcast_S_S1x8000 : S_.BroadcastsInDim S1x8000 (![] : Fin 0 → Fin S1x8000.rank)
  bcast_S320_S320x1_0 : S320.BroadcastsInDim S320x1 (![0] : Fin 1 → Fin S320x1.rank)
  bcast_S1x8000_S320x8000_0_1 : S1x8000.BroadcastsInDim S320x8000 (![0, 1] : Fin 2 → Fin S320x8000.rank)
  bcast_S320x1_S320x8000_0_1 : S320x1.BroadcastsInDim S320x8000 (![0, 1] : Fin 2 → Fin S320x8000.rank)
  bcast_S1280_S1x1280_1 : S1280.BroadcastsInDim S1x1280 (![1] : Fin 1 → Fin S1x1280.rank)
  bcast_S_S1x1280 : S_.BroadcastsInDim S1x1280 (![] : Fin 0 → Fin S1x1280.rank)
  bcast_S128_S128x1_0 : S128.BroadcastsInDim S128x1 (![0] : Fin 1 → Fin S128x1.rank)
  bcast_S1x1280_S128x1280_0_1 : S1x1280.BroadcastsInDim S128x1280 (![0, 1] : Fin 2 → Fin S128x1280.rank)
  bcast_S128x1_S128x1280_0_1 : S128x1.BroadcastsInDim S128x1280 (![0, 1] : Fin 2 → Fin S128x1280.rank)
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S320x8000_S320x8000_0_0 : ∀ a, (![0, 0] : Fin 2 → Nat) a + S320x8000.size a ≤ S320x8000.size a
  h_S320x8000 : 0 < S320x8000.numel
  shapeCasts_S320x8000_S320x8000 : S320x8000.ShapeCasts S320x8000
  h_S320x128 : 0 < S320x128.numel
  shapeCasts_S320x128_S320x128 : S320x128.ShapeCasts S320x128
  inb_S10240x256_S1280x256_0_0 : ∀ a, (![0, 0] : Fin 2 → Nat) a + S1280x256.size a ≤ S10240x256.size a
  h_S1280x256 : 0 < S1280x256.numel
  shapeCasts_S1280x256_S1280x256 : S1280x256.ShapeCasts S1280x256
  inb_S10240x128_S1280x128_0_0 : ∀ a, (![0, 0] : Fin 2 → Nat) a + S1280x128.size a ≤ S10240x128.size a
  h_S1280x128 : 0 < S1280x128.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  reduces_S1280x256_S1280 : S1280x256.Reduces [1] S1280
  shapeCasts_S1280_S1280x1 : S1280.ShapeCasts S1280x1
  broadcasts_S1280x1_S1280x256 : S1280x1.Broadcasts S1280x256
  inb_S128x1280_S128x1280_0_0 : ∀ a, (![0, 0] : Fin 2 → Nat) a + S128x1280.size a ≤ S128x1280.size a
  h_S128x1280 : 0 < S128x1280.numel
  shapeCasts_S128x1280_S128x1280 : S128x1280.ShapeCasts S128x1280
  inb_S1024x256_S128x256_0_0 : ∀ a, (![0, 0] : Fin 2 → Nat) a + S128x256.size a ≤ S1024x256.size a
  reduces_S128x256_S128 : S128x256.Reduces [1] S128
  shapeCasts_S128_S128x1 : S128.ShapeCasts S128x1
  broadcasts_S128x1_S128x256 : S128x1.Broadcasts S128x256
  inb_S256x50_S256x50_0_0 : ∀ a, (![0, 0] : Fin 2 → Nat) a + S256x50.size a ≤ S256x50.size a
  h_S256x50 : 0 < S256x50.numel
  inb_S1024x50_S128x50_0_0 : ∀ a, (![0, 0] : Fin 2 → Nat) a + S128x50.size a ≤ S1024x50.size a
  h_S128x50 : 0 < S128x50.numel
  inb_S10240x256_S1280x256_1280_0 : ∀ a, (![1280, 0] : Fin 2 → Nat) a + S1280x256.size a ≤ S10240x256.size a
  inb_S10240x128_S1280x128_1280_0 : ∀ a, (![1280, 0] : Fin 2 → Nat) a + S1280x128.size a ≤ S10240x128.size a
  inb_S1024x256_S128x256_128_0 : ∀ a, (![128, 0] : Fin 2 → Nat) a + S128x256.size a ≤ S1024x256.size a
  inb_S1024x50_S128x50_128_0 : ∀ a, (![128, 0] : Fin 2 → Nat) a + S128x50.size a ≤ S1024x50.size a
  inb_S10240x256_S1280x256_2560_0 : ∀ a, (![2560, 0] : Fin 2 → Nat) a + S1280x256.size a ≤ S10240x256.size a
  inb_S10240x128_S1280x128_2560_0 : ∀ a, (![2560, 0] : Fin 2 → Nat) a + S1280x128.size a ≤ S10240x128.size a
  inb_S1024x256_S128x256_256_0 : ∀ a, (![256, 0] : Fin 2 → Nat) a + S128x256.size a ≤ S1024x256.size a
  inb_S1024x50_S128x50_256_0 : ∀ a, (![256, 0] : Fin 2 → Nat) a + S128x50.size a ≤ S1024x50.size a
  inb_S10240x256_S1280x256_3840_0 : ∀ a, (![3840, 0] : Fin 2 → Nat) a + S1280x256.size a ≤ S10240x256.size a
  inb_S10240x128_S1280x128_3840_0 : ∀ a, (![3840, 0] : Fin 2 → Nat) a + S1280x128.size a ≤ S10240x128.size a
  inb_S1024x256_S128x256_384_0 : ∀ a, (![384, 0] : Fin 2 → Nat) a + S128x256.size a ≤ S1024x256.size a
  inb_S1024x50_S128x50_384_0 : ∀ a, (![384, 0] : Fin 2 → Nat) a + S128x50.size a ≤ S1024x50.size a
  inb_S10240x256_S1280x256_5120_0 : ∀ a, (![5120, 0] : Fin 2 → Nat) a + S1280x256.size a ≤ S10240x256.size a
  inb_S10240x128_S1280x128_5120_0 : ∀ a, (![5120, 0] : Fin 2 → Nat) a + S1280x128.size a ≤ S10240x128.size a
  inb_S1024x256_S128x256_512_0 : ∀ a, (![512, 0] : Fin 2 → Nat) a + S128x256.size a ≤ S1024x256.size a
  inb_S1024x50_S128x50_512_0 : ∀ a, (![512, 0] : Fin 2 → Nat) a + S128x50.size a ≤ S1024x50.size a
  inb_S10240x256_S1280x256_6400_0 : ∀ a, (![6400, 0] : Fin 2 → Nat) a + S1280x256.size a ≤ S10240x256.size a
  inb_S10240x128_S1280x128_6400_0 : ∀ a, (![6400, 0] : Fin 2 → Nat) a + S1280x128.size a ≤ S10240x128.size a
  inb_S1024x256_S128x256_640_0 : ∀ a, (![640, 0] : Fin 2 → Nat) a + S128x256.size a ≤ S1024x256.size a
  inb_S1024x50_S128x50_640_0 : ∀ a, (![640, 0] : Fin 2 → Nat) a + S128x50.size a ≤ S1024x50.size a
  inb_S10240x256_S1280x256_7680_0 : ∀ a, (![7680, 0] : Fin 2 → Nat) a + S1280x256.size a ≤ S10240x256.size a
  inb_S10240x128_S1280x128_7680_0 : ∀ a, (![7680, 0] : Fin 2 → Nat) a + S1280x128.size a ≤ S10240x128.size a
  inb_S1024x256_S128x256_768_0 : ∀ a, (![768, 0] : Fin 2 → Nat) a + S128x256.size a ≤ S1024x256.size a
  inb_S1024x50_S128x50_768_0 : ∀ a, (![768, 0] : Fin 2 → Nat) a + S128x50.size a ≤ S1024x50.size a
  inb_S10240x256_S1280x256_8960_0 : ∀ a, (![8960, 0] : Fin 2 → Nat) a + S1280x256.size a ≤ S10240x256.size a
  inb_S10240x128_S1280x128_8960_0 : ∀ a, (![8960, 0] : Fin 2 → Nat) a + S1280x128.size a ≤ S10240x128.size a
  inb_S1024x256_S128x256_896_0 : ∀ a, (![896, 0] : Fin 2 → Nat) a + S128x256.size a ≤ S1024x256.size a
  inb_S1024x50_S128x50_896_0 : ∀ a, (![896, 0] : Fin 2 → Nat) a + S128x50.size a ≤ S1024x50.size a
  dot_S8000x256_S256x128_S8000x128_1_0_0_1_n_n_wf : DotDims.WF S8000x256 S256x128 S8000x128 [1] [0] [0] [1] [] []
  dot_S320x8000_S8000x128_S320x128_1_0_0_1_n_n_wf : DotDims.WF S320x8000 S8000x128 S320x128 [1] [0] [0] [1] [] []
  dot_S1280x256_S256x256_S1280x256_1_0_0_1_n_n_wf : DotDims.WF S1280x256 S256x256 S1280x256 [1] [0] [0] [1] [] []
  dot_S1280x128_S128x256_S1280x256_1_0_0_1_n_n_wf : DotDims.WF S1280x128 S128x256 S1280x256 [1] [0] [0] [1] [] []
  dot_S1280x256_S256x128_S1280x128_1_0_0_1_n_n_wf : DotDims.WF S1280x256 S256x128 S1280x128 [1] [0] [0] [1] [] []
  dot_S128x1280_S1280x128_S128x128_1_0_0_1_n_n_wf : DotDims.WF S128x1280 S1280x128 S128x128 [1] [0] [0] [1] [] []
  dot_S128x256_S256x256_S128x256_1_0_0_1_n_n_wf : DotDims.WF S128x256 S256x256 S128x256 [1] [0] [0] [1] [] []
  dot_S128x128_S128x256_S128x256_1_0_0_1_n_n_wf : DotDims.WF S128x128 S128x256 S128x256 [1] [0] [0] [1] [] []
  dot_S128x256_S256x50_S128x50_1_0_0_1_n_n_wf : DotDims.WF S128x256 S256x50 S128x50 [1] [0] [0] [1] [] []
  hrank0 : 0 < grid0.rank
  k0_off1_inb : ∀ i : grid0.Coords, ∀ a, (k0_off1 i) a + S320x128.size a ≤ S10240x128.size a
  k0_off1_packedbf16 : ∀ i : grid0.Coords, (Rect.unit (s := S10240x128) (k0_off1 i) S320x128.size (k0_off1_inb i)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .f32 = 32 ∨ (Rect.block (s := S1024x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x256.size a ≤ S10240x256.size a
  hwx0_1 : ∀ i : grid0.Coords, EltTy.bits .f32 = 32 ∨ (Rect.block (s := S10240x256) S10240x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x256.size a ≤ S256000x256.size a
  hwx0_2 : ∀ i : grid0.Coords, EltTy.bits .f32 = 32 ∨ (Rect.block (s := S256000x256) S8000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x8000.size a ≤ S320x8000.size a
  hwx0_3 : ∀ i : grid0.Coords, EltTy.bits .bf16 = 32 ∨ (Rect.block (s := S320x8000) S320x8000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1280.size a ≤ S128x1280.size a
  hwx0_4 : ∀ i : grid0.Coords, EltTy.bits .bf16 = 32 ∨ (Rect.block (s := S128x1280) S128x1280.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .bf16 = 32 ∨ (Rect.block (s := S128x256) S128x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x256.size a ≤ S128x256.size a
  hwx0_10 : ∀ i : grid0.Coords, EltTy.bits .f32 = 32 ∨ (Rect.block (s := S128x256) S128x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x50.size a ≤ S256x50.size a
  hwx0_11 : ∀ i : grid0.Coords, EltTy.bits .f32 = 32 ∨ (Rect.block (s := S256x50) S256x50.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x50.size a ≤ S1024x50.size a
  hwx0_12 : ∀ i : grid0.Coords, EltTy.bits .f32 = 32 ∨ (Rect.block (s := S1024x50) S1024x50.size (cc0_transform_12 i) (hinb0_12 i)).WholeWords (EltTy.packing .f32)

variable [Facts₀]

def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf
def dot_S320x8000_S8000x128_S320x128_1_0_0_1_n_n : DotDims S320x8000 S8000x128 S320x128 where
  lhsContracting := [1]
  rhsContracting := [0]
  lhsNonContracting := [0]
  rhsNonContracting := [1]
  lhsBatch := []
  rhsBatch := []
  wf := dot_S320x8000_S8000x128_S320x128_1_0_0_1_n_n_wf
def dot_S1280x256_S256x256_S1280x256_1_0_0_1_n_n : DotDims S1280x256 S256x256 S1280x256 where
  lhsContracting := [1]
  rhsContracting := [0]
  lhsNonContracting := [0]
  rhsNonContracting := [1]
  lhsBatch := []
  rhsBatch := []
  wf := dot_S1280x256_S256x256_S1280x256_1_0_0_1_n_n_wf
def dot_S1280x128_S128x256_S1280x256_1_0_0_1_n_n : DotDims S1280x128 S128x256 S1280x256 where
  lhsContracting := [1]
  rhsContracting := [0]
  lhsNonContracting := [0]
  rhsNonContracting := [1]
  lhsBatch := []
  rhsBatch := []
  wf := dot_S1280x128_S128x256_S1280x256_1_0_0_1_n_n_wf
def dot_S1280x256_S256x128_S1280x128_1_0_0_1_n_n : DotDims S1280x256 S256x128 S1280x128 where
  lhsContracting := [1]
  rhsContracting := [0]
  lhsNonContracting := [0]
  rhsNonContracting := [1]
  lhsBatch := []
  rhsBatch := []
  wf := dot_S1280x256_S256x128_S1280x128_1_0_0_1_n_n_wf
def dot_S128x1280_S1280x128_S128x128_1_0_0_1_n_n : DotDims S128x1280 S1280x128 S128x128 where
  lhsContracting := [1]
  rhsContracting := [0]
  lhsNonContracting := [0]
  rhsNonContracting := [1]
  lhsBatch := []
  rhsBatch := []
  wf := dot_S128x1280_S1280x128_S128x128_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S128x256_S256x50_S128x50_1_0_0_1_n_n : DotDims S128x256 S256x50 S128x50 where
  lhsContracting := [1]
  rhsContracting := [0]
  lhsNonContracting := [0]
  rhsNonContracting := [1]
  lhsBatch := []
  rhsBatch := []
  wf := dot_S128x256_S256x50_S128x50_1_0_0_1_n_n_wf

abbrev win0_0 : Pipeline.Window sig grid0 :=
  Pipeline.Window.ofSpec (Memref.whole main_arg0) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S10240x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S320x8000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x1280.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S128x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg7) S256x50.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v28) S1024x50.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond1 i == 1#1) | ⟨_ + 13, h⟩ => absurd h (Nat.not_lt.2 (Nat.le_add_left _ _))

class Facts : Prop extends Facts₀ where

variable [Facts]
-- ==== ReferenceIdeal.lean ====
abbrev S1024x256 : Shape := ⟨2, ![1024, 256]⟩
abbrev S1024x10x256 : Shape := ⟨3, ![1024, 10, 256]⟩
abbrev S1024x10x25x256 : Shape := ⟨4, ![1024, 10, 25, 256]⟩
abbrev S256x128 : Shape := ⟨2, ![256, 128]⟩
abbrev S384x256 : Shape := ⟨2, ![384, 256]⟩
abbrev S256x50 : Shape := ⟨2, ![256, 50]⟩
abbrev S1024x10x25x128 : Shape := ⟨4, ![1024, 10, 25, 128]⟩
abbrev S_ : Shape := ⟨0, ![]⟩
abbrev S1024x10x128 : Shape := ⟨3, ![1024, 10, 128]⟩
abbrev S1024x10x384 : Shape := ⟨3, ![1024, 10, 384]⟩
abbrev S1024x10 : Shape := ⟨2, ![1024, 10]⟩
abbrev S1024x10x1 : Shape := ⟨3, ![1024, 10, 1]⟩
abbrev S1024x128 : Shape := ⟨2, ![1024, 128]⟩
abbrev S1024x384 : Shape := ⟨2, ![1024, 384]⟩
abbrev S1024 : Shape := ⟨1, ![1024]⟩
abbrev S1024x1 : Shape := ⟨2, ![1024, 1]⟩
abbrev S1024x50 : Shape := ⟨2, ![1024, 50]⟩

abbrev nBuf : Space → Nat
  | .hbm => 67
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x10x256, .f32⟩
  | .hbm, ⟨2, _⟩ => ⟨S1024x10x25x256, .f32⟩
  | .hbm, ⟨3, _⟩ => ⟨S256x128, .f32⟩
  | .hbm, ⟨4, _⟩ => ⟨S256x128, .f32⟩
  | .hbm, ⟨5, _⟩ => ⟨S384x256, .f32⟩
  | .hbm, ⟨6, _⟩ => ⟨S384x256, .f32⟩
  | .hbm, ⟨7, _⟩ => ⟨S256x50, .f32⟩
  | .hbm, ⟨8, _⟩ => ⟨S1024x10x25x128, .f32⟩
  | .hbm, ⟨9, _⟩ => ⟨S_, .f32⟩
  | .hbm, ⟨10, _⟩ => ⟨S1024x10x25x128, .f32⟩
  | .hbm, ⟨11, _⟩ => ⟨S1024x10x25x128, .f32⟩
  | .hbm, ⟨12, _⟩ => ⟨S_, .f32⟩
  | .hbm, ⟨13, _⟩ => ⟨S1024x10x128, .f32⟩
  | .hbm, ⟨14, _⟩ => ⟨S_, .f32⟩
  | .hbm, ⟨15, _⟩ => ⟨S1024x10x128, .f32⟩
  | .hbm, ⟨16, _⟩ => ⟨S1024x10x128, .f32⟩
  | .hbm, ⟨17, _⟩ => ⟨S1024x10x384, .f32⟩
  | .hbm, ⟨18, _⟩ => ⟨S1024x10x256, .f32⟩
  | .hbm, ⟨19, _⟩ => ⟨S_, .f32⟩
  | .hbm, ⟨20, _⟩ => ⟨S1024x10x256, .f32⟩
  | .hbm, ⟨21, _⟩ => ⟨S1024x10x256, .f32⟩
  | .hbm, ⟨22, _⟩ => ⟨S1024x10x256, .f32⟩
  | .hbm, ⟨23, _⟩ => ⟨S_, .f32⟩
  | .hbm, ⟨24, _⟩ => ⟨S1024x10, .f32⟩
  | .hbm, ⟨25, _⟩ => ⟨S1024x10x1, .f32⟩
  | .hbm, ⟨26, _⟩ => ⟨S_, .f32⟩
  | .hbm, ⟨27, _⟩ => ⟨S1024x10x1, .f32⟩
  | .hbm, ⟨28, _⟩ => ⟨S1024x10x1, .f32⟩
  | .hbm, ⟨29, _⟩ => ⟨S1024x10x1, .f32⟩
  | .hbm, ⟨30, _⟩ => ⟨S1024x10x256, .f32⟩
  | .hbm, ⟨31, _⟩ => ⟨S1024x10x256, .f32⟩
  | .hbm, ⟨32, _⟩ => ⟨S1024x10x128, .f32⟩
  | .hbm, ⟨33, _⟩ => ⟨S_, .f32⟩
  | .hbm, ⟨34, _⟩ => ⟨S1024x10x128, .f32⟩
  | .hbm, ⟨35, _⟩ => ⟨S1024x10x128, .f32⟩
  | .hbm, ⟨36, _⟩ => ⟨S_, .f32⟩
  | .hbm, ⟨37, _⟩ => ⟨S1024x128, .f32⟩
  | .hbm, ⟨38, _⟩ => ⟨S_, .f32⟩
  | .hbm, ⟨39, _⟩ => ⟨S1024x128, .f32⟩
  | .hbm, ⟨40, _⟩ => ⟨S1024x128, .f32⟩
  | .hbm, ⟨41, _⟩ => ⟨S1024x384, .f32⟩
  | .hbm, ⟨42, _⟩ => ⟨S1024x256, .f32⟩
  | .hbm, ⟨43, _⟩ => ⟨S1024x256, .f32⟩
  | .hbm, ⟨44, _⟩ => ⟨S_, .f32⟩
  | .hbm, ⟨45, _⟩ => ⟨S1024, .f32⟩
  | .hbm, ⟨46, _⟩ => ⟨S1024x1, .f32⟩
  | .hbm, ⟨47, _⟩ => ⟨S_, .f32⟩
  | .hbm, ⟨48, _⟩ => ⟨S1024x1, .f32⟩
  | .hbm, ⟨49, _⟩ => ⟨S1024x1, .f32⟩
  | .hbm, ⟨50, _⟩ => ⟨S1024x1, .f32⟩
  | .hbm, ⟨51, _⟩ => ⟨S1024x256, .f32⟩
  | .hbm, ⟨52, _⟩ => ⟨S1024x256, .f32⟩
  | .hbm, ⟨53, _⟩ => ⟨S1024x256, .f32⟩
  | .hbm, ⟨54, _⟩ => ⟨S_, .f32⟩
  | .hbm, ⟨55, _⟩ => ⟨S1024, .f32⟩
  | .hbm, ⟨56, _⟩ => ⟨S1024x1, .f32⟩
  | .hbm, ⟨57, _⟩ => ⟨S_, .f32⟩
  | .hbm, ⟨58, _⟩ => ⟨S1024x1, .f32⟩
  | .hbm, ⟨59, _⟩ => ⟨S1024x1, .f32⟩
  | .hbm, ⟨60, _⟩ => ⟨S1024x1, .f32⟩
  | .hbm, ⟨61, _⟩ => ⟨S1024x256, .f32⟩
  | .hbm, ⟨62, _⟩ => ⟨S1024x256, .f32⟩
  | .hbm, ⟨63, _⟩ => ⟨S1024x50, .f32⟩
  | .hbm, ⟨64, _⟩ => ⟨S_, .f32⟩
  | .hbm, ⟨65, _⟩ => ⟨S1024x50, .f32⟩
  | .hbm, ⟨66, _⟩ => ⟨S1024x50, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_cst : Ref sig .tc := ⟨.hbm, 9, rfl⟩
abbrev main_call0_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_cst : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call2_cst : Ref sig .tc := ⟨.hbm, 33, rfl⟩
abbrev main_call2_v0 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call3_cst : Ref sig .tc := ⟨.hbm, 64, rfl⟩
abbrev main_call3_v0 : Ref sig .tc := ⟨.hbm, 65, rfl⟩
abbrev main_v40 : Ref sig .tc := ⟨.hbm, 66, rfl⟩

abbrev nD : Nat := 1
abbrev τ : Topo := Topo.v7x

variable {F : FTy → Type} [FloatOps F]

class Facts₀ : Prop where
  bcast_S_S1024x10x25x128 : S_.BroadcastsInDim S1024x10x25x128 (![] : Fin 0 → Fin S1024x10x25x128.rank)
  reducesTo_S1024x10x25x128_S1024x10x128_d2 : S1024x10x25x128.ReducesTo [2] S1024x10x128
  h_S_ : 0 < S_.numel
  bcast_S_S1024x10x128 : S_.BroadcastsInDim S1024x10x128 (![] : Fin 0 → Fin S1024x10x128.rank)
  concatenates_S1024x10x256_S1024x10x128_S1024x10x384_d2 : Shape.Concatenates [S1024x10x256, S1024x10x128] S1024x10x384 2
  bcast_S_S1024x10x256 : S_.BroadcastsInDim S1024x10x256 (![] : Fin 0 → Fin S1024x10x256.rank)
  reducesTo_S1024x10x256_S1024x10_d2 : S1024x10x256.ReducesTo [2] S1024x10
  bcast_S1024x10_S1024x10x1_0_1 : S1024x10.BroadcastsInDim S1024x10x1 (![0, 1] : Fin 2 → Fin S1024x10x1.rank)
  bcast_S_S1024x10x1 : S_.BroadcastsInDim S1024x10x1 (![] : Fin 0 → Fin S1024x10x1.rank)
  bcast_S1024x10x1_S1024x10x256_0_1_2 : S1024x10x1.BroadcastsInDim S1024x10x256 (![0, 1, 2] : Fin 3 → Fin S1024x10x256.rank)
  reducesTo_S1024x10x128_S1024x128_d1 : S1024x10x128.ReducesTo [1] S1024x128
  bcast_S_S1024x128 : S_.BroadcastsInDim S1024x128 (![] : Fin 0 → Fin S1024x128.rank)
  concatenates_S1024x256_S1024x128_S1024x384_d1 : Shape.Concatenates [S1024x256, S1024x128] S1024x384 1
  reducesTo_S1024x256_S1024_d1 : S1024x256.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  bcast_S_S1024x50 : S_.BroadcastsInDim S1024x50 (![] : Fin 0 → Fin S1024x50.rank)
  dot_S1024x10x25x256_S256x128_S1024x10x25x128_3_0_012_1_n_n_wf : DotDims.WF S1024x10x25x256 S256x128 S1024x10x25x128 [3] [0] [0, 1, 2] [1] [] []
  dot_S1024x10x384_S384x256_S1024x10x256_2_0_01_1_n_n_wf : DotDims.WF S1024x10x384 S384x256 S1024x10x256 [2] [0] [0, 1] [1] [] []
  dot_S1024x10x256_S256x128_S1024x10x128_2_0_01_1_n_n_wf : DotDims.WF S1024x10x256 S256x128 S1024x10x128 [2] [0] [0, 1] [1] [] []
  dot_S1024x384_S384x256_S1024x256_1_0_0_1_n_n_wf : DotDims.WF S1024x384 S384x256 S1024x256 [1] [0] [0] [1] [] []
  dot_S1024x256_S256x50_S1024x50_1_0_0_1_n_n_wf : DotDims.WF S1024x256 S256x50 S1024x50 [1] [0] [0] [1] [] []

variable [Facts₀]

def dot_S1024x10x25x256_S256x128_S1024x10x25x128_3_0_012_1_n_n : DotDims S1024x10x25x256 S256x128 S1024x10x25x128 where
  lhsContracting := [3]
  rhsContracting := [0]
  lhsNonContracting := [0, 1, 2]
  rhsNonContracting := [1]
  lhsBatch := []
  rhsBatch := []
  wf := dot_S1024x10x25x256_S256x128_S1024x10x25x128_3_0_012_1_n_n_wf
def dot_S1024x10x384_S384x256_S1024x10x256_2_0_01_1_n_n : DotDims S1024x10x384 S384x256 S1024x10x256 where
  lhsContracting := [2]
  rhsContracting := [0]
  lhsNonContracting := [0, 1]
  rhsNonContracting := [1]
  lhsBatch := []
  rhsBatch := []
  wf := dot_S1024x10x384_S384x256_S1024x10x256_2_0_01_1_n_n_wf
def dot_S1024x10x256_S256x128_S1024x10x128_2_0_01_1_n_n : DotDims S1024x10x256 S256x128 S1024x10x128 where
  lhsContracting := [2]
  rhsContracting := [0]
  lhsNonContracting := [0, 1]
  rhsNonContracting := [1]
  lhsBatch := []
  rhsBatch := []
  wf := dot_S1024x10x256_S256x128_S1024x10x128_2_0_01_1_n_n_wf
def dot_S1024x384_S384x256_S1024x256_1_0_0_1_n_n : DotDims S1024x384 S384x256 S1024x256 where
  lhsContracting := [1]
  rhsContracting := [0]
  lhsNonContracting := [0]
  rhsNonContracting := [1]
  lhsBatch := []
  rhsBatch := []
  wf := dot_S1024x384_S384x256_S1024x256_1_0_0_1_n_n_wf
def dot_S1024x256_S256x50_S1024x50_1_0_0_1_n_n : DotDims S1024x256 S256x50 S1024x50 where
  lhsContracting := [1]
  rhsContracting := [0]
  lhsNonContracting := [0]
  rhsNonContracting := [1]
  lhsBatch := []
  rhsBatch := []
  wf := dot_S1024x256_S256x50_S1024x50_1_0_0_1_n_n_wf

class Facts : Prop extends Facts₀ where

variable [Facts]
-- ==== Proof.BodyShared.lean ====
/- The kernel body's control over the grid of 32 steps: the tail branch is taken at the last step only; the twelve input
   blocks are live at every step; the result block is idle, and not written back, at every step but the last. The staging
   buffers a step is called with, and the scratch carried between steps, by name. -/
import proofs.«122449_g16870631539387_cont_7to1_909_9_alg».proof.Proof.Gen.KernelIdeal.Frame
import proofs.«122449_g16870631539387_cont_7to1_909_9_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The tail's branch condition, from the grid coordinate. -/
abbrev lastStep (i : grid0.Coords) : Prop := k0_cond1 i = 1#1
/-- It holds at step 31 only. -/
theorem lastStep_iff : ∀ t : Fin cfg0.N, lastStep (grid0.coords t) ↔ t.val % 32 = 31 :=
  (by decide +kernel : ∀ t : Fin grid0.N, lastStep (grid0.coords t) ↔ t.val % 32 = 31)

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
theorem live_10 : ∀ t : Fin cfg0.N, cfg0.idle 10 (grid0.coords t) = false := by decide +kernel
theorem live_11 : ∀ t : Fin cfg0.N, cfg0.idle 11 (grid0.coords t) = false := by decide +kernel
/-- Before the last step the result block is idle and is not written back. -/
theorem out_idle : ∀ t : Fin cfg0.N, ¬lastStep (grid0.coords t) → cfg0.idle 12 (grid0.coords t) = true := by decide +kernel
theorem out_noFlush : ∀ t : Fin cfg0.N, ¬lastStep (grid0.coords t) → (cfg0.win 12).flush t = false := by decide +kernel
/-- At the last step it is live. -/
theorem out_live : ∀ t : Fin cfg0.N, lastStep (grid0.coords t) → cfg0.idle 12 (grid0.coords t) = false := by decide +kernel

abbrev ms_0 (t : Fin cfg0.N) : Memref sig .tc .vmem S1024x256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S10240x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S8000x256 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S320x8000 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S128x1280 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S256x128 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S256x256 .bf16 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S128x256 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S256x128 .bf16 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S256x256 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S128x256 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S256x50 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S1024x50 .f32 := win0_12.stage (cfg0.slots t 12)
abbrev hs_12 (t : Fin cfg0.N) : (ms_12 t).IsWhole := hstage0_12 ((cfg0.slots t 12).cast nbuf0_12)
/-- The scratch carried between steps: 10240 rows of 128, one row per one-hop node. -/
abbrev scM : Memref sig .tc .vmem S10240x128 .bf16 := Memref.whole cc0_scratch0
/-- One staging buffer of the result block, through which its contents are stated. -/
abbrev VO : View sig .tc .vmem S1024x50 .f32 := (Memref.whole cc0_stg12_0 : Memref sig .tc .vmem S1024x50 .f32).view

/-- What the launch hands the region and takes back: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.BodyRunA.lean ====
/- A step before the last. The body reads the step's 8000 two-hop rows, forms relu(x2 · Wagg0), sums each group of 25 rows
   through the 0/1 membership matrix, scales by 1/25, and stores the 320 resulting rows into the step's slice of the scratch;
   the tail is skipped. The twelve input blocks and the result block are left as they were; the scratch is what it was with
   that one slice written over it. -/
import proofs.«122449_g16870631539387_cont_7to1_909_9_alg».proof.Proof.BodyShared
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The piece a step before the last writes into the scratch, with the body's run: from the inputs at their blocks, the
    result buffer at any contents `xi` and the scratch at any contents `xs`, the body ends with the inputs and the result
    buffer untouched and the scratch at `xs` with the piece written. -/
noncomputable def runA (c : Dev nD) (i : grid0.Coords) (arg1 : Memref sig .tc .vmem S1024x256 .f32) (harg1 : arg1.IsWhole) (arg2 : Memref sig .tc .vmem S10240x256 .f32) (harg2 : arg2.IsWhole) (arg3 : Memref sig .tc .vmem S8000x256 .f32) (harg3 : arg3.IsWhole) (arg4 : Memref sig .tc .vmem S320x8000 .bf16) (harg4 : arg4.IsWhole) (arg5 : Memref sig .tc .vmem S128x1280 .bf16) (harg5 : arg5.IsWhole) (arg6 : Memref sig .tc .vmem S256x128 .bf16) (harg6 : arg6.IsWhole) (arg7 : Memref sig .tc .vmem S256x256 .bf16) (harg7 : arg7.IsWhole) (arg8 : Memref sig .tc .vmem S128x256 .bf16) (harg8 : arg8.IsWhole) (arg9 : Memref sig .tc .vmem S256x128 .bf16) (harg9 : arg9.IsWhole) (arg10 : Memref sig .tc .vmem S256x256 .f32) (harg10 : arg10.IsWhole) (arg11 : Memref sig .tc .vmem S128x256 .f32) (harg11 : arg11.IsWhole) (arg12 : Memref sig .tc .vmem S256x50 .f32) (harg12 : arg12.IsWhole) (arg13 : Memref sig .tc .vmem S1024x50 .f32) (harg13 : arg13.IsWhole) (arg14 : Memref sig .tc .vmem S10240x128 .bf16) (harg14 : arg14.IsWhole) (hc0 : ¬lastStep i)
    (x0 : Vec F S1024x256 .f32) (x1 : Vec F S10240x256 .f32) (x2 : Vec F S8000x256 .f32) (x3 : Vec F S320x8000 .bf16) (x4 : Vec F S128x1280 .bf16) (x5 : Vec F S256x128 .bf16) (x6 : Vec F S256x256 .bf16) (x7 : Vec F S128x256 .bf16) (x8 : Vec F S256x128 .bf16) (x9 : Vec F S256x256 .f32) (x10 : Vec F S128x256 .f32) (x11 : Vec F S256x50 .f32) :
    { LS : List (View.Piece (Elt F) S10240x128 .bf16) //
      ∀ (xi : Vec F S1024x50 .f32) (xs : Vec F S10240x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi ∗ owns (c : Thread nD τ) arg14 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi ∗ (arg14.view.loc (c : Thread nD τ) ↦[arg14.view.set]{fullShare} arg14.view.writes (Elt F) (harg14.unread xs) LS)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun xi xs E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    iexact HS

end Cert.KernelIdeal.Body

end
-- ==== Proof.BodyScratch.lean ====
/- The scratch, row by row. Row q of the scratch belongs to step q / 320, which writes it as row q % 320 of its slice:
   relu(x2 · Wagg0) of the step's 8000 rows, summed in groups of 25 and scaled by 1/25. A scratch that already holds these
   values on the rows of steps before t holds them on the rows of steps up to t once step t's slice is written over it. -/
import proofs.«122449_g16870631539387_cont_7to1_909_9_alg».proof.Proof.BodyRunA
import Idealize.ShloMosaic.Lib.Pipeline.FrameBody
import Idealize.ShloMosaic.Lib.ValueIdx
import Idealize.ShloMosaic.Lib.WritesUnit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- A step's slice starts at row 320 · t. -/
theorem off_eq : ∀ t : Fin cfg0.N, k0_off1 (grid0.coords t) = ![320 * t.val, 0] :=
  (by decide +kernel : ∀ t : Fin grid0.N, k0_off1 (grid0.coords t) = ![320 * t.val, 0])

/-- The last step. -/
abbrev tLast : Fin cfg0.N := ⟨31, by rw [show cfg0.N = 32 from N_0]; decide⟩

/-- The step that writes row `y 0` of the scratch. -/
def stepOf (y : S10240x128.Idx) : Fin cfg0.N :=
  ⟨(y 0).val / 320, by rw [show cfg0.N = 32 from N_0]; have := idx2_lt0 y; omega⟩

/-- What the scratch holds once every step has run. -/
def aggFull (c : Dev nD) : Vec F S10240x128 .bf16 := fun y =>
  k0_pay1 (iblk m c 2 (stepOf y)) (iblk m c 5 (stepOf y)) (iblk m c 3 (stepOf y))
    (ix2 ⟨(y 0).val % 320, Nat.mod_lt _ (by decide)⟩ ⟨(y 1).val, idx2_lt1 y⟩)

/-- The scratch holds its final values on the rows of the first `n` steps. -/
def Agrees (c : Dev nD) (n : ℕ) (xs : Vec F S10240x128 .bf16) : Prop :=
  ∀ y : S10240x128.Idx, (y 0).val < 320 * n → xs y = aggFull m c y

/-- The slice a step writes, as a piece of the scratch. -/
abbrev slicePiece (i : grid0.Coords) (w : Vec F S320x128 .bf16) : View.Piece (Elt F) S10240x128 .bf16 :=
  ⟨Rect.unit (s := S10240x128) (k0_off1 i) S320x128.size (k0_off1_inb i), w⟩

/-- Writing step t's slice extends the agreement by one step. -/
theorem agrees_step (c : Dev nD) (t : Fin cfg0.N) (xs : Vec F S10240x128 .bf16) (h : Agrees m c t.val xs) :
    Agrees m c (t.val + 1) (scM.view.read (Elt F) (scM.view.writes (Elt F) ((Memref.isWhole_whole cc0_scratch0).unread xs)
      [slicePiece (grid0.coords t) (k0_pay1 (iblk m c 2 t) (iblk m c 5 t) (iblk m c 3 t))])) := by
  intro y hy
  have h0 := idx2_lt0 y
  have h1 := idx2_lt1 y
  by_cases hrow : 320 * t.val ≤ (y 0).val
  · rw [View.read_writes_cons_rows_of_mem scM.view _ (k0_off1_inb (grid0.coords t)) _ [] y
      (ix2 ⟨(y 0).val - 320 * t.val, by omega⟩ ⟨(y 1).val, h1⟩) (off_eq t) (by show (y 0).val = 320 * t.val + ((y 0).val - 320 * t.val); omega) rfl]
    have hs : stepOf y = t := Fin.ext (by show (y 0).val / 320 = t.val; omega)
    unfold aggFull
    rw [hs]
    exact congrArg _ (congrArg (fun k => ix2 k (⟨(y 1).val, h1⟩ : Fin 128)) (Fin.ext (by show (y 0).val - 320 * t.val = (y 0).val % 320; omega)))
  · rw [View.read_writes_cons_rows_of_not_mem scM.view _ (k0_off1_inb (grid0.coords t)) _ [] y (off_eq t) rfl (Or.inl (by omega))]
    rw [View.writes_nil, (Memref.isWhole_whole cc0_scratch0).read_unread]
    exact h y (by omega)

end Cert.KernelIdeal.Body

end
-- ==== Proof.BodyRunB.lean ====
/- The last step. After storing its own slice of the scratch as at every step, the body runs the tail: for each of eight
   chunks of 128 root nodes it reads the chunk's 1280 one-hop rows of x1 and of the scratch (now complete), combines and
   normalises them, aggregates each root's 10 rows through the second membership matrix, scales by 1/10, combines with the
   roots' own features, normalises twice, applies the classifier and relu, and stores the 128 rows into the result block. -/
import proofs.«122449_g16870631539387_cont_7to1_909_9_alg».proof.Proof.BodyShared
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the last step writes into the result block and into the scratch, with the body's run: from the inputs at
    their blocks, the result buffer at anything and the scratch at `xs`, the body ends with the inputs untouched, the result
    buffer with its eight pieces written and the scratch at `xs` with the step's slice written. -/
noncomputable def runB (c : Dev nD) (i : grid0.Coords) (arg1 : Memref sig .tc .vmem S1024x256 .f32) (harg1 : arg1.IsWhole) (arg2 : Memref sig .tc .vmem S10240x256 .f32) (harg2 : arg2.IsWhole) (arg3 : Memref sig .tc .vmem S8000x256 .f32) (harg3 : arg3.IsWhole) (arg4 : Memref sig .tc .vmem S320x8000 .bf16) (harg4 : arg4.IsWhole) (arg5 : Memref sig .tc .vmem S128x1280 .bf16) (harg5 : arg5.IsWhole) (arg6 : Memref sig .tc .vmem S256x128 .bf16) (harg6 : arg6.IsWhole) (arg7 : Memref sig .tc .vmem S256x256 .bf16) (harg7 : arg7.IsWhole) (arg8 : Memref sig .tc .vmem S128x256 .bf16) (harg8 : arg8.IsWhole) (arg9 : Memref sig .tc .vmem S256x128 .bf16) (harg9 : arg9.IsWhole) (arg10 : Memref sig .tc .vmem S256x256 .f32) (harg10 : arg10.IsWhole) (arg11 : Memref sig .tc .vmem S128x256 .f32) (harg11 : arg11.IsWhole) (arg12 : Memref sig .tc .vmem S256x50 .f32) (harg12 : arg12.IsWhole) (arg13 : Memref sig .tc .vmem S1024x50 .f32) (harg13 : arg13.IsWhole) (arg14 : Memref sig .tc .vmem S10240x128 .bf16) (harg14 : arg14.IsWhole) (hc0 : lastStep i)
    (x0 : Vec F S1024x256 .f32) (x1 : Vec F S10240x256 .f32) (x2 : Vec F S8000x256 .f32) (x3 : Vec F S320x8000 .bf16) (x4 : Vec F S128x1280 .bf16) (x5 : Vec F S256x128 .bf16) (x6 : Vec F S256x256 .bf16) (x7 : Vec F S128x256 .bf16) (x8 : Vec F S256x128 .bf16) (x9 : Vec F S256x256 .f32) (x10 : Vec F S128x256 .f32) (x11 : Vec F S256x50 .f32) (xs : Vec F S10240x128 .bf16) :
    Σ' (LO : List (View.Piece (Elt F) S1024x50 .f32)), { LS : List (View.Piece (Elt F) S10240x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f LO) ∗ (arg14.view.loc (c : Thread nD τ) ↦[arg14.view.set]{fullShare} arg14.view.writes (Elt F) (harg14.unread xs) LS)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__fused_eq_skeleton]; unfold cc0__fused_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    iexact HS

end Cert.KernelIdeal.Body

end
-- ==== Proof.BodyData.lean ====
/- The region's invariant and proof data. Between steps the scratch holds its final values on the rows of the steps already
   run (and anything on the others); each step extends this by its own slice. At the last step the scratch is therefore
   complete once the step's slice is stored, so what the tail reads from it — and hence the result block it writes — does
   not depend on what the scratch held before the first step. The result block after the run is what the last step's tail
   computes from the complete scratch. -/
import proofs.«122449_g16870631539387_cont_7to1_909_9_alg».proof.Proof.BodyScratch
import proofs.«122449_g16870631539387_cont_7to1_909_9_alg».proof.Proof.BodyRunB
import Idealize.ShloMosaic.Lib.Pipeline.FrameBody
import Idealize.ShloMosaic.Lib.ValueIdx
import Idealize.ShloMosaic.Lib.WritesUnit
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem hz : (![0, 0] : Fin 2 → Nat) = fun _ => 0 := funext fun a => by fin_cases a <;> rfl

/-- The piece a step before the last stores: the step's slice, computed from the step's blocks. -/
theorem runA_piece (c : Dev nD) (i : grid0.Coords) (arg1 : Memref sig .tc .vmem S1024x256 .f32) (harg1 : arg1.IsWhole) (arg2 : Memref sig .tc .vmem S10240x256 .f32) (harg2 : arg2.IsWhole) (arg3 : Memref sig .tc .vmem S8000x256 .f32) (harg3 : arg3.IsWhole) (arg4 : Memref sig .tc .vmem S320x8000 .bf16) (harg4 : arg4.IsWhole) (arg5 : Memref sig .tc .vmem S128x1280 .bf16) (harg5 : arg5.IsWhole) (arg6 : Memref sig .tc .vmem S256x128 .bf16) (harg6 : arg6.IsWhole) (arg7 : Memref sig .tc .vmem S256x256 .bf16) (harg7 : arg7.IsWhole) (arg8 : Memref sig .tc .vmem S128x256 .bf16) (harg8 : arg8.IsWhole) (arg9 : Memref sig .tc .vmem S256x128 .bf16) (harg9 : arg9.IsWhole) (arg10 : Memref sig .tc .vmem S256x256 .f32) (harg10 : arg10.IsWhole) (arg11 : Memref sig .tc .vmem S128x256 .f32) (harg11 : arg11.IsWhole) (arg12 : Memref sig .tc .vmem S256x50 .f32) (harg12 : arg12.IsWhole) (arg13 : Memref sig .tc .vmem S1024x50 .f32) (harg13 : arg13.IsWhole) (arg14 : Memref sig .tc .vmem S10240x128 .bf16) (harg14 : arg14.IsWhole) (hc0 : ¬lastStep i)
    (x0 : Vec F S1024x256 .f32) (x1 : Vec F S10240x256 .f32) (x2 : Vec F S8000x256 .f32) (x3 : Vec F S320x8000 .bf16) (x4 : Vec F S128x1280 .bf16) (x5 : Vec F S256x128 .bf16) (x6 : Vec F S256x256 .bf16) (x7 : Vec F S128x256 .bf16) (x8 : Vec F S256x128 .bf16) (x9 : Vec F S256x256 .f32) (x10 : Vec F S128x256 .f32) (x11 : Vec F S256x50 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11).1 = [slicePiece i (k0_pay1 x2 x5 x3)] := by
  unfold runA; dsimp only
  simp only [View.readAt_eq_ld, harg3.read_unread, harg6.read_unread, harg4.read_unread,
    View.ld_unit_zero (S := S8000x256) hz, View.ld_unit_zero (S := S256x128) hz, View.ld_unit_zero (S := S320x8000) hz]

/-- The last step stores the same piece into the scratch. -/
theorem runB_slice (c : Dev nD) (i : grid0.Coords) (arg1 : Memref sig .tc .vmem S1024x256 .f32) (harg1 : arg1.IsWhole) (arg2 : Memref sig .tc .vmem S10240x256 .f32) (harg2 : arg2.IsWhole) (arg3 : Memref sig .tc .vmem S8000x256 .f32) (harg3 : arg3.IsWhole) (arg4 : Memref sig .tc .vmem S320x8000 .bf16) (harg4 : arg4.IsWhole) (arg5 : Memref sig .tc .vmem S128x1280 .bf16) (harg5 : arg5.IsWhole) (arg6 : Memref sig .tc .vmem S256x128 .bf16) (harg6 : arg6.IsWhole) (arg7 : Memref sig .tc .vmem S256x256 .bf16) (harg7 : arg7.IsWhole) (arg8 : Memref sig .tc .vmem S128x256 .bf16) (harg8 : arg8.IsWhole) (arg9 : Memref sig .tc .vmem S256x128 .bf16) (harg9 : arg9.IsWhole) (arg10 : Memref sig .tc .vmem S256x256 .f32) (harg10 : arg10.IsWhole) (arg11 : Memref sig .tc .vmem S128x256 .f32) (harg11 : arg11.IsWhole) (arg12 : Memref sig .tc .vmem S256x50 .f32) (harg12 : arg12.IsWhole) (arg13 : Memref sig .tc .vmem S1024x50 .f32) (harg13 : arg13.IsWhole) (arg14 : Memref sig .tc .vmem S10240x128 .bf16) (harg14 : arg14.IsWhole) (hc0 : lastStep i)
    (x0 : Vec F S1024x256 .f32) (x1 : Vec F S10240x256 .f32) (x2 : Vec F S8000x256 .f32) (x3 : Vec F S320x8000 .bf16) (x4 : Vec F S128x1280 .bf16) (x5 : Vec F S256x128 .bf16) (x6 : Vec F S256x256 .bf16) (x7 : Vec F S128x256 .bf16) (x8 : Vec F S256x128 .bf16) (x9 : Vec F S256x256 .f32) (x10 : Vec F S128x256 .f32) (x11 : Vec F S256x50 .f32) (xs : Vec F S10240x128 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs).2.1 = [slicePiece i (k0_pay1 x2 x5 x3)] := by
  unfold runB; dsimp only
  sl_unfold_run_names
  simp only [View.readAt_eq_ld, harg3.read_unread, harg6.read_unread, harg4.read_unread,
    View.ld_unit_zero (S := S8000x256) hz, View.ld_unit_zero (S := S256x128) hz, View.ld_unit_zero (S := S320x8000) hz]

set_option maxHeartbeats 1000000 in
/-- The result pieces of the last step depend on the scratch only through what it holds after the step's own store. -/
theorem runB_out_congr (c : Dev nD) (i : grid0.Coords) (arg1 : Memref sig .tc .vmem S1024x256 .f32) (harg1 : arg1.IsWhole) (arg2 : Memref sig .tc .vmem S10240x256 .f32) (harg2 : arg2.IsWhole) (arg3 : Memref sig .tc .vmem S8000x256 .f32) (harg3 : arg3.IsWhole) (arg4 : Memref sig .tc .vmem S320x8000 .bf16) (harg4 : arg4.IsWhole) (arg5 : Memref sig .tc .vmem S128x1280 .bf16) (harg5 : arg5.IsWhole) (arg6 : Memref sig .tc .vmem S256x128 .bf16) (harg6 : arg6.IsWhole) (arg7 : Memref sig .tc .vmem S256x256 .bf16) (harg7 : arg7.IsWhole) (arg8 : Memref sig .tc .vmem S128x256 .bf16) (harg8 : arg8.IsWhole) (arg9 : Memref sig .tc .vmem S256x128 .bf16) (harg9 : arg9.IsWhole) (arg10 : Memref sig .tc .vmem S256x256 .f32) (harg10 : arg10.IsWhole) (arg11 : Memref sig .tc .vmem S128x256 .f32) (harg11 : arg11.IsWhole) (arg12 : Memref sig .tc .vmem S256x50 .f32) (harg12 : arg12.IsWhole) (arg13 : Memref sig .tc .vmem S1024x50 .f32) (harg13 : arg13.IsWhole) (arg14 : Memref sig .tc .vmem S10240x128 .bf16) (harg14 : arg14.IsWhole) (hc0 : lastStep i)
    (x0 : Vec F S1024x256 .f32) (x1 : Vec F S10240x256 .f32) (x2 : Vec F S8000x256 .f32) (x3 : Vec F S320x8000 .bf16) (x4 : Vec F S128x1280 .bf16) (x5 : Vec F S256x128 .bf16) (x6 : Vec F S256x256 .bf16) (x7 : Vec F S128x256 .bf16) (x8 : Vec F S256x128 .bf16) (x9 : Vec F S256x256 .f32) (x10 : Vec F S128x256 .f32) (x11 : Vec F S256x50 .f32) (xs xs' : Vec F S10240x128 .bf16)
    (h : arg14.view.writes (Elt F) (harg14.unread xs) (runB c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs).2.1
       = arg14.view.writes (Elt F) (harg14.unread xs') (runB c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs').2.1) :
    (runB c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs).1 = (runB c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs').1 := by
  revert h
  unfold runB
  dsimp only
  sl_unfold_run_names
  intro h
  simp only [h]

/-- The eight result pieces tile the result block. -/
theorem runB_cover (c : Dev nD) (i : grid0.Coords) (arg1 : Memref sig .tc .vmem S1024x256 .f32) (harg1 : arg1.IsWhole) (arg2 : Memref sig .tc .vmem S10240x256 .f32) (harg2 : arg2.IsWhole) (arg3 : Memref sig .tc .vmem S8000x256 .f32) (harg3 : arg3.IsWhole) (arg4 : Memref sig .tc .vmem S320x8000 .bf16) (harg4 : arg4.IsWhole) (arg5 : Memref sig .tc .vmem S128x1280 .bf16) (harg5 : arg5.IsWhole) (arg6 : Memref sig .tc .vmem S256x128 .bf16) (harg6 : arg6.IsWhole) (arg7 : Memref sig .tc .vmem S256x256 .bf16) (harg7 : arg7.IsWhole) (arg8 : Memref sig .tc .vmem S128x256 .bf16) (harg8 : arg8.IsWhole) (arg9 : Memref sig .tc .vmem S256x128 .bf16) (harg9 : arg9.IsWhole) (arg10 : Memref sig .tc .vmem S256x256 .f32) (harg10 : arg10.IsWhole) (arg11 : Memref sig .tc .vmem S128x256 .f32) (harg11 : arg11.IsWhole) (arg12 : Memref sig .tc .vmem S256x50 .f32) (harg12 : arg12.IsWhole) (arg13 : Memref sig .tc .vmem S1024x50 .f32) (harg13 : arg13.IsWhole) (arg14 : Memref sig .tc .vmem S10240x128 .bf16) (harg14 : arg14.IsWhole) (hc0 : lastStep i)
    (x0 : Vec F S1024x256 .f32) (x1 : Vec F S10240x256 .f32) (x2 : Vec F S8000x256 .f32) (x3 : Vec F S320x8000 .bf16) (x4 : Vec F S128x1280 .bf16) (x5 : Vec F S256x128 .bf16) (x6 : Vec F S256x256 .bf16) (x7 : Vec F S128x256 .bf16) (x8 : Vec F S256x128 .bf16) (x9 : Vec F S256x256 .f32) (x10 : Vec F S128x256 .f32) (x11 : Vec F S256x50 .f32) (xs : Vec F S10240x128 .bf16) (y : S1024x50.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs).1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs).1 S128x50.size (by sl_kernel_rfl) y

/-- The result block after the run: what the last step's tail computes from the complete scratch. -/
def outFinal (c : Dev nD) : Vec F S1024x50 .f32 :=
  VO.read (Elt F) (VO.writes (Elt F) VO.junk
    (runB c (grid0.coords tLast) (ms_0 tLast) (hs_0 tLast) (ms_1 tLast) (hs_1 tLast) (ms_2 tLast) (hs_2 tLast) (ms_3 tLast) (hs_3 tLast) (ms_4 tLast) (hs_4 tLast) (ms_5 tLast) (hs_5 tLast) (ms_6 tLast) (hs_6 tLast) (ms_7 tLast) (hs_7 tLast) (ms_8 tLast) (hs_8 tLast) (ms_9 tLast) (hs_9 tLast) (ms_10 tLast) (hs_10 tLast) (ms_11 tLast) (hs_11 tLast) (ms_12 tLast) (hs_12 tLast) scM (Memref.isWhole_whole _) ((lastStep_iff tLast).mpr rfl) (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) (iblk m c 11 tLast) (aggFull m c)).1)

/-- The invariant before step `n`: the scratch agrees with its final values on the first `n` steps' rows. -/
def PhiS (c : Dev nD) (n : ℕ) : sProp 𝕄 :=
  iprop(iprop(∃ xs, ⌜Agrees m c n xs⌝ ∗ owns (c : Thread nD τ) scM fullShare xs) ∗ (∃ r, prngReg c r))

/-- The proof data: the arrays as the region finds them; each input's buffer at its block after every step; the result
    block at `outFinal`; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outFinal m c
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = outFinal m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 1000000 in
/-- Two scratch contents that agree on the rows before step 31 are equal once step 31's slice is written over them. -/
theorem writes_last_eq (c : Dev nD) (w : Vec F S320x128 .bf16) (xs xs' : Vec F S10240x128 .bf16)
    (h : ∀ y : S10240x128.Idx, (y 0).val < 320 * 31 → xs y = xs' y) :
    scM.view.writes (Elt F) ((Memref.isWhole_whole cc0_scratch0).unread xs) [slicePiece (grid0.coords tLast) w]
      = scM.view.writes (Elt F) ((Memref.isWhole_whole cc0_scratch0).unread xs') [slicePiece (grid0.coords tLast) w] := by
  apply (Memref.isWhole_whole cc0_scratch0).read_bijective.1
  funext y
  have h0 := idx2_lt0 y
  have h1 := idx2_lt1 y
  by_cases hrow : 320 * 31 ≤ (y 0).val
  · rw [View.read_writes_cons_rows_of_mem scM.view _ (k0_off1_inb (grid0.coords tLast)) _ [] y
      (ix2 ⟨(y 0).val - 320 * 31, by omega⟩ ⟨(y 1).val, h1⟩) (off_eq tLast) (by show (y 0).val = 320 * 31 + ((y 0).val - 320 * 31); omega) rfl,
      View.read_writes_cons_rows_of_mem scM.view _ (k0_off1_inb (grid0.coords tLast)) _ [] y
      (ix2 ⟨(y 0).val - 320 * 31, by omega⟩ ⟨(y 1).val, h1⟩) (off_eq tLast) (by show (y 0).val = 320 * 31 + ((y 0).val - 320 * 31); omega) rfl]
  · rw [View.read_writes_cons_rows_of_not_mem scM.view _ (k0_off1_inb (grid0.coords tLast)) _ [] y (off_eq tLast) rfl (Or.inl (by show (y 0).val < 320 * 31; omega)),
      View.read_writes_cons_rows_of_not_mem scM.view _ (k0_off1_inb (grid0.coords tLast)) _ [] y (off_eq tLast) rfl (Or.inl (by show (y 0).val < 320 * 31; omega)),
      View.writes_nil, View.writes_nil, (Memref.isWhole_whole cc0_scratch0).read_unread, (Memref.isWhole_whole cc0_scratch0).read_unread]
    exact h y (by omega)

end Cert.KernelIdeal.Body

end
-- ==== Proof.BodyFrame.lean ====
/- Every step keeps the invariant: the body's run at a step before the last extends the scratch's agreement by the step's
   slice and leaves the result block alone; at the last step the scratch becomes complete and the tail writes the result
   block, whose contents are then the closed term of the proof data. From this the whole region runs: every weakly fair
   execution terminates with the argument arrays unchanged and the result array at that term. -/
import proofs.«122449_g16870631539387_cont_7to1_909_9_alg».proof.Proof.BodyData
import Idealize.ShloMosaic.Lib.Pipeline.FrameBody
import Idealize.ShloMosaic.Lib.ValueIdx
import Idealize.ShloMosaic.Lib.WritesUnit
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ) (ρ : Dev nD → PrngReg)

set_option maxHeartbeats 4000000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  have hN : t.val < 32 := lt_of_lt_of_eq t.isLt (show cfg0.N = 32 from N_0)
  by_cases h0 : t.val % 32 = 31
  · have hl : lastStep (grid0.coords t) := (lastStep_iff t).mpr h0
    obtain rfl : t = tLast := Fin.ext (by show t.val = 31; omega)
    rw [show (dats m 0 c).leavesExact 0 tLast = owns (c : Thread nD τ) (ms_0 tLast) fullShare ((dats m 0 c).after 0 tLast) from by
      unfold Dat.leavesExact; rw [live_0 tLast], after_0]
    rw [show (dats m 0 c).leavesExact 1 tLast = owns (c : Thread nD τ) (ms_1 tLast) fullShare ((dats m 0 c).after 1 tLast) from by
      unfold Dat.leavesExact; rw [live_1 tLast], after_1]
    rw [show (dats m 0 c).leavesExact 2 tLast = owns (c : Thread nD τ) (ms_2 tLast) fullShare ((dats m 0 c).after 2 tLast) from by
      unfold Dat.leavesExact; rw [live_2 tLast], after_2]
    rw [show (dats m 0 c).leavesExact 3 tLast = owns (c : Thread nD τ) (ms_3 tLast) fullShare ((dats m 0 c).after 3 tLast) from by
      unfold Dat.leavesExact; rw [live_3 tLast], after_3]
    rw [show (dats m 0 c).leavesExact 4 tLast = owns (c : Thread nD τ) (ms_4 tLast) fullShare ((dats m 0 c).after 4 tLast) from by
      unfold Dat.leavesExact; rw [live_4 tLast], after_4]
    rw [show (dats m 0 c).leavesExact 5 tLast = owns (c : Thread nD τ) (ms_5 tLast) fullShare ((dats m 0 c).after 5 tLast) from by
      unfold Dat.leavesExact; rw [live_5 tLast], after_5]
    rw [show (dats m 0 c).leavesExact 6 tLast = owns (c : Thread nD τ) (ms_6 tLast) fullShare ((dats m 0 c).after 6 tLast) from by
      unfold Dat.leavesExact; rw [live_6 tLast], after_6]
    rw [show (dats m 0 c).leavesExact 7 tLast = owns (c : Thread nD τ) (ms_7 tLast) fullShare ((dats m 0 c).after 7 tLast) from by
      unfold Dat.leavesExact; rw [live_7 tLast], after_7]
    rw [show (dats m 0 c).leavesExact 8 tLast = owns (c : Thread nD τ) (ms_8 tLast) fullShare ((dats m 0 c).after 8 tLast) from by
      unfold Dat.leavesExact; rw [live_8 tLast], after_8]
    rw [show (dats m 0 c).leavesExact 9 tLast = owns (c : Thread nD τ) (ms_9 tLast) fullShare ((dats m 0 c).after 9 tLast) from by
      unfold Dat.leavesExact; rw [live_9 tLast], after_9]
    rw [show (dats m 0 c).leavesExact 10 tLast = owns (c : Thread nD τ) (ms_10 tLast) fullShare ((dats m 0 c).after 10 tLast) from by
      unfold Dat.leavesExact; rw [live_10 tLast], after_10]
    rw [show (dats m 0 c).leavesExact 11 tLast = owns (c : Thread nD τ) (ms_11 tLast) fullShare ((dats m 0 c).after 11 tLast) from by
      unfold Dat.leavesExact; rw [live_11 tLast], after_11]
    rw [show (dats m 0 c).leavesExact 12 tLast = owns (c : Thread nD τ) (ms_12 tLast) fullShare ((dats m 0 c).after 12 tLast) from by
      unfold Dat.leavesExact; rw [out_live tLast hl], after_12]
    iintro ⟨⟨⟨%xs, %hAg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB c (grid0.coords tLast) _ _ _ _ _ _ _ _ _ _ _ _ _ _ _ _ _ _ _ _ _ _ _ _ _ _ _ _ hl (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) (iblk m c 11 tLast) xs).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS]; · iexact HS
    iintro ⟨H0, H1, H2, H3, H4, H5, H6, H7, H8, H9, H10, H11, ⟨%e12, H12⟩, HS⟩
    isplitl [HS Hg]
    · isplitl [HS]
      · iexists _
        isplitr
        swap
        · unfold owns; iexists _; isplitr
          swap; · iexact HS
          ipureintro; rfl
        ipureintro
        rw [runB_slice]
        exact agrees_step m c tLast xs hAg
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro
    refine (View.read_writes_of_cover _ _ VO VO.junk _ (runB_cover c _ _ _ _ _ _ _ _ _ _ _ _ _ _ _ _ _ _ _ _ _ _ _ _ _ _ _ _ _ hl _ _ _ _ _ _ _ _ _ _ _ _ xs)).trans ?_
    unfold outFinal
    refine congrArg (fun L => VO.read (Elt F) (VO.writes (Elt F) VO.junk L)) ?_
    refine runB_out_congr c _ _ _ _ _ _ _ _ _ _ _ _ _ _ _ _ _ _ _ _ _ _ _ _ _ _ _ _ _ hl _ _ _ _ _ _ _ _ _ _ _ _ xs (aggFull m c) ?_
    rw [runB_slice, runB_slice]
    exact writes_last_eq c _ xs (aggFull m c) (fun y hy => hAg y hy)
  · have hl : ¬lastStep (grid0.coords t) := fun h => h0 ((lastStep_iff t).mp h)
    rw [show (dats m 0 c).leavesExact 0 t = owns (c : Thread nD τ) (ms_0 t) fullShare ((dats m 0 c).after 0 t) from by
      unfold Dat.leavesExact; rw [live_0 t], after_0]
    rw [show (dats m 0 c).leavesExact 1 t = owns (c : Thread nD τ) (ms_1 t) fullShare ((dats m 0 c).after 1 t) from by
      unfold Dat.leavesExact; rw [live_1 t], after_1]
    rw [show (dats m 0 c).leavesExact 2 t = owns (c : Thread nD τ) (ms_2 t) fullShare ((dats m 0 c).after 2 t) from by
      unfold Dat.leavesExact; rw [live_2 t], after_2]
    rw [show (dats m 0 c).leavesExact 3 t = owns (c : Thread nD τ) (ms_3 t) fullShare ((dats m 0 c).after 3 t) from by
      unfold Dat.leavesExact; rw [live_3 t], after_3]
    rw [show (dats m 0 c).leavesExact 4 t = owns (c : Thread nD τ) (ms_4 t) fullShare ((dats m 0 c).after 4 t) from by
      unfold Dat.leavesExact; rw [live_4 t], after_4]
    rw [show (dats m 0 c).leavesExact 5 t = owns (c : Thread nD τ) (ms_5 t) fullShare ((dats m 0 c).after 5 t) from by
      unfold Dat.leavesExact; rw [live_5 t], after_5]
    rw [show (dats m 0 c).leavesExact 6 t = owns (c : Thread nD τ) (ms_6 t) fullShare ((dats m 0 c).after 6 t) from by
      unfold Dat.leavesExact; rw [live_6 t], after_6]
    rw [show (dats m 0 c).leavesExact 7 t = owns (c : Thread nD τ) (ms_7 t) fullShare ((dats m 0 c).after 7 t) from by
      unfold Dat.leavesExact; rw [live_7 t], after_7]
    rw [show (dats m 0 c).leavesExact 8 t = owns (c : Thread nD τ) (ms_8 t) fullShare ((dats m 0 c).after 8 t) from by
      unfold Dat.leavesExact; rw [live_8 t], after_8]
    rw [show (dats m 0 c).leavesExact 9 t = owns (c : Thread nD τ) (ms_9 t) fullShare ((dats m 0 c).after 9 t) from by
      unfold Dat.leavesExact; rw [live_9 t], after_9]
    rw [show (dats m 0 c).leavesExact 10 t = owns (c : Thread nD τ) (ms_10 t) fullShare ((dats m 0 c).after 10 t) from by
      unfold Dat.leavesExact; rw [live_10 t], after_10]
    rw [show (dats m 0 c).leavesExact 11 t = owns (c : Thread nD τ) (ms_11 t) fullShare ((dats m 0 c).after 11 t) from by
      unfold Dat.leavesExact; rw [live_11 t], after_11]
    rw [Dat.leavesExact_idle (dats m 0 c) 12 t (out_idle t hl) (out_noFlush t hl)]
    iintro ⟨⟨⟨%xs, %hAg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runA c (grid0.coords t) _ _ _ _ _ _ _ _ _ _ _ _ _ _ _ _ _ _ _ _ _ _ _ _ _ _ _ _ hl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2 _ xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS]; · iexact HS
    iintro ⟨H0, H1, H2, H3, H4, H5, H6, H7, H8, H9, H10, H11, H12, HS⟩
    isplitl [HS Hg]
    · isplitl [HS]
      · iexists _
        isplitr
        swap
        · unfold owns; iexists _; isplitr
          swap; · iexact HS
          ipureintro; rfl
        ipureintro
        rw [runA_piece]
        exact agrees_step m c t xs hAg
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12

/-- The library's body obligation, at every step. -/
theorem body_obligation (c : Dev nD) : BodyObligation (dats (F := F) m 0 c) (defs₀ (F := F)) Variants.none () Set.univ := fun t => by
  rw [bigSep_W0, bigSep_W0]
  exact sound_body m c t

/-- What the launch hands the region is the invariant before the first step: no row is claimed yet. -/
theorem hin (c : Dev nD) : Pipeline.ΦA spec0 c ⊢ (dats m 0 c).Φ 0 := by
  rw [show (dats m 0 c).Φ 0 = PhiS m c 0 from rfl, PhiA_eq]
  unfold PhiS
  iintro ⟨⟨%d, HS⟩, Hg⟩
  isplitl [HS]
  · iexists d
    isplitr
    · ipureintro; intro y hy; exact absurd hy (by omega)
    iexact HS
  iexact Hg

/-- After the last step the invariant gives the scratch back, its contents forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%xs, -, HS⟩, Hg⟩
  isplitl [HS]
  · iexists _; iexact HS
  iexact Hg

set_option backward.isDefEq.respectTransparency.types false in
/-- Every weakly fair execution of @main terminates, with every array of the pipeline at what the proof data compute and
    every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run ends with the eight argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.FinalArray.lean ====
/- The result array after the run. The result block is written back once, at the last step, and that one block, at
   index (0, 0) with the array's own sizes, is the whole [1024, 50] array: so the array ends holding what the last
   step's tail leaves in the block. -/
import proofs.«122449_g16870631539387_cont_7to1_909_9_alg».proof.Proof.BodyData
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F] [Named F]

variable (m : (ℓ : Loc nD τ sig) → Buf (Elt F) ℓ)

/-- The one write-back, at step 31: block (0, 0) of the [1024, 50] array, read through zero offsets, is the array. -/
theorem flushed_out (c : Dev nD) (t : Fin cfg0.N) (hf : (cfg0.win 12).flush t = true) :
    (dats m 0 c).flushed 12 t
      = ((cfg0.win 12).blk t).view.read (Elt F) (outFinal m c : Buf (Elt F) ((c : Thread nD τ).loc main_v28)) := by
  have hN : cfg0.N = 32 := N_0
  have h31 : t.val = 31 := by have := (flush0_12 t).mp hf; have := t.isLt; omega
  obtain rfl : t = tLast := Fin.ext h31
  show (cfg0.win 12).cut (grid0.coords tLast) ((dats m 0 c).after 12 tLast) = _
  rw [after_12]
  have hz' : (fun a => win0_12.index tLast a * main_v28.ty.shape.size a) = fun _ => 0 :=
    funext fun a => by fin_cases a <;> decide +kernel
  exact (Memref.read_access_unit_zero (Elt F) main_v28 hz' (fun a => by rw [congrFun hz' a]; simp) (outFinal m c)).symm

/-- So the result array ends holding what the last step's tail computes from the complete scratch. -/
theorem final_out (c : Dev nD) : (dats m 0 c).arrAt 12 cfg0.N = outFinal m c :=
  (dats m 0 c).arrAt_eq_of_cover 12 (outFinal m c) (flushed_out m c) fun i =>
    ⟨tLast, (flush0_12 tLast).mpr rfl, by
      show i ∈ ((View.whole main_v28).slice (win0_12.rect tLast)).set
      rw [View.set_slice_whole, Rect.mem_set_unit]
      intro a
      have h0 : (i 0 : Nat) < 1024 := (i 0).isLt
      have h1 : (i 1 : Nat) < 50 := (i 1).isLt
      match a with
      | ⟨0, _⟩ =>
        show win0_12.index tLast 0 * win0_12.size 0 ≤ (i 0 : Nat)
          ∧ (i 0 : Nat) < win0_12.index tLast 0 * win0_12.size 0 + win0_12.xsize (grid0.coords tLast) 0
        rw [show win0_12.index tLast 0 * win0_12.size 0 = 0 from by decide +kernel,
          show win0_12.xsize (grid0.coords tLast) 0 = 1024 from by decide +kernel]
        omega
      | ⟨1, _⟩ =>
        show win0_12.index tLast 1 * win0_12.size 1 ≤ (i 1 : Nat)
          ∧ (i 1 : Nat) < win0_12.index tLast 1 * win0_12.size 1 + win0_12.xsize (grid0.coords tLast) 1
        rw [show win0_12.index tLast 1 * win0_12.size 1 = 0 from by decide +kernel,
          show win0_12.xsize (grid0.coords tLast) 1 = 50 from by decide +kernel]
        omega⟩

end Cert.KernelIdeal.Body

end
-- ==== Proof.KernelValue.lean ====
/- The region's run with the result named: every weakly fair execution terminates with the result array at what the last
   step's tail computes from the complete scratch, and the eight argument arrays unchanged. -/
import proofs.«122449_g16870631539387_cont_7to1_909_9_alg».proof.Proof.BodyFrame
import proofs.«122449_g16870631539387_cont_7to1_909_9_alg».proof.Proof.FinalArray
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem run_value : θ_run defs (onTc (τ := τ) (main (F := F))) ⟨m, fun _ => 0, ρ⟩ (fun r => ∀ c : Dev nD,
      r.2.mem ((c.tc : Thread nD τ).loc main_v28) = outFinal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 12).trans (final_out m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 11).trans (((dats m 0 c).arrAt_in 11 rfl _).trans ((A_eq m c 11).trans (V_main_arg7 m c)))⟩) (run_main m ρ)

end Cert.KernelIdeal.Body

end
-- ==== Proof.Spec.lean ====
/-
  The network both programs compute, written as mathematics on the extended reals, in two readings.

  A root node b (1024 of them) has 10 one-hop neighbours n, each with 25 two-hop neighbours j; features have width 256.
  Layer 0 aggregates: t = relu(x2 · Wagg0) per two-hop node, agg0 = mean over j, h1 = l2n(relu([x1, agg0] · Wcomb0)).
  Layer 1: g = relu(h1 · Wagg1), agg1 = mean over n, h0 = l2n(l2n([x0, agg1] · Wcomb1)), out = relu(h0 · Wcls).
  Here l2n h = h · rsqrt(max(Σ h², ε)) row by row.

  * the multi-axis reading ('r…'): arrays indexed by (b, n, j, ·); a mean is a sum divided by the count; a
    concatenation [u, v] · W is one sum over the 384 joined columns.
  * the flattened reading ('k…'): the one-hop nodes are rows q = 10·b + n of a [10240, ·] array and the two-hop nodes
    rows R = 25·q + j of a [256000, ·] array; a mean is a sum times a reciprocal (c25, c10); [u, v] · W is the sum of two
    products with the upper and lower row blocks of W.
-/
import Idealize.ShloMosaic.PureOps.Ideal
import Idealize.ShloMosaic.Lib.ValueIdx

noncomputable section

open Idealize.ShloMosaic
open scoped BigOperators

namespace Cert.Spec

/-- The floor under a row's squared norm (the f32 word of 1e-12, the same word in both programs). -/
abbrev eps : EReal := Ideal.ofBits .f32 0x2B8CBCCC#32

/-- Row normalisation: h · rsqrt(max(Σ h², ε)). -/
def l2n {n : ℕ} (h : Fin n → EReal) (o : Fin n) : EReal :=
  h o * Ideal.rsqrt (max (∑ o', h o' * h o') eps)

/-! ## The multi-axis reading -/
section Ref

variable (x0 : Fin 1024 → Fin 256 → EReal) (x1 : Fin 1024 → Fin 10 → Fin 256 → EReal)
  (x2 : Fin 1024 → Fin 10 → Fin 25 → Fin 256 → EReal)
  (wagg0 wagg1 : Fin 256 → Fin 128 → EReal) (wcomb0 wcomb1 : Fin 384 → Fin 256 → EReal) (wcls : Fin 256 → Fin 50 → EReal)

/-- relu(x2 · Wagg0) at a two-hop node. -/
def rT (b : Fin 1024) (n : Fin 10) (j : Fin 25) (a : Fin 128) : EReal := max (∑ f, x2 b n j f * wagg0 f a) 0
/-- Its mean over the 25 two-hop neighbours: the sum divided by 25. -/
def rAgg0 (b : Fin 1024) (n : Fin 10) (a : Fin 128) : EReal :=
  Ideal.div (∑ j, rT x2 wagg0 b n j a) (Ideal.ofBits .f32 0x41C80000#32)
/-- [x1, agg0] along the feature axis. -/
def rCat0 (b : Fin 1024) (n : Fin 10) (c : Fin 384) : EReal :=
  if h : c.val < 256 then x1 b n ⟨c.val, h⟩ else rAgg0 x2 wagg0 b n ⟨c.val - 256, by have := c.isLt; omega⟩
def rH1p (b : Fin 1024) (n : Fin 10) (o : Fin 256) : EReal := max (∑ c, rCat0 x1 x2 wagg0 b n c * wcomb0 c o) 0
def rH1 (b : Fin 1024) (n : Fin 10) (o : Fin 256) : EReal := l2n (rH1p x1 x2 wagg0 wcomb0 b n) o
def rG1 (b : Fin 1024) (n : Fin 10) (a : Fin 128) : EReal := max (∑ o, rH1 x1 x2 wagg0 wcomb0 b n o * wagg1 o a) 0
/-- The mean over the 10 one-hop neighbours: the sum divided by 10. -/
def rAgg1 (b : Fin 1024) (a : Fin 128) : EReal :=
  Ideal.div (∑ n, rG1 x1 x2 wagg0 wagg1 wcomb0 b n a) (Ideal.ofBits .f32 0x41200000#32)
def rCat1 (b : Fin 1024) (c : Fin 384) : EReal :=
  if h : c.val < 256 then x0 b ⟨c.val, h⟩ else rAgg1 x1 x2 wagg0 wagg1 wcomb0 b ⟨c.val - 256, by have := c.isLt; omega⟩
def rH0p (b : Fin 1024) (o : Fin 256) : EReal := ∑ c, rCat1 x0 x1 x2 wagg0 wagg1 wcomb0 b c * wcomb1 c o
def rOut (b : Fin 1024) (l : Fin 50) : EReal :=
  max (∑ o, l2n (l2n (rH0p x0 x1 x2 wagg0 wagg1 wcomb0 wcomb1 b)) o * wcls o l) 0

end Ref

/-! ## The flattened reading -/
section Ker

variable (x0 : Fin 1024 → Fin 256 → EReal) (x1r : Fin 10240 → Fin 256 → EReal) (x2r : Fin 256000 → Fin 256 → EReal)
  (wagg0 : Fin 256 → Fin 128 → EReal) (w0s : Fin 256 → Fin 256 → EReal) (w0a : Fin 128 → Fin 256 → EReal)
  (wagg1 : Fin 256 → Fin 128 → EReal) (w1s : Fin 256 → Fin 256 → EReal) (w1a : Fin 128 → Fin 256 → EReal)
  (wcls : Fin 256 → Fin 50 → EReal) (c25 c10 : EReal)

def kT (R : Fin 256000) (a : Fin 128) : EReal := max (∑ f, x2r R f * wagg0 f a) 0
/-- The mean over rows 25·q … 25·q + 24: their sum times c25. -/
def kAgg0 (q : Fin 10240) (a : Fin 128) : EReal :=
  (∑ j : Fin 25, kT x2r wagg0 ⟨25 * q.val + j.val, by have := q.isLt; have := j.isLt; omega⟩ a) * c25
def kH1p (q : Fin 10240) (o : Fin 256) : EReal :=
  max ((∑ f, x1r q f * w0s f o) + ∑ a, kAgg0 x2r wagg0 c25 q a * w0a a o) 0
def kH1 (q : Fin 10240) (o : Fin 256) : EReal := l2n (kH1p x1r x2r wagg0 w0s w0a c25 q) o
def kG1 (q : Fin 10240) (a : Fin 128) : EReal := max (∑ o, kH1 x1r x2r wagg0 w0s w0a c25 q o * wagg1 o a) 0
/-- The mean over rows 10·b … 10·b + 9: their sum times c10. -/
def kAgg1 (b : Fin 1024) (a : Fin 128) : EReal :=
  (∑ n : Fin 10, kG1 x1r x2r wagg0 w0s w0a wagg1 c25 ⟨10 * b.val + n.val, by have := b.isLt; have := n.isLt; omega⟩ a) * c10
def kH0p (b : Fin 1024) (o : Fin 256) : EReal :=
  (∑ f, x0 b f * w1s f o) + ∑ a, kAgg1 x1r x2r wagg0 w0s w0a wagg1 c25 c10 b a * w1a a o
def kOut (b : Fin 1024) (l : Fin 50) : EReal :=
  max (∑ o, l2n (l2n (kH0p x0 x1r x2r wagg0 w0s w0a wagg1 w1s w1a c25 c10 b)) o * wcls o l) 0

end Ker

end Cert.Spec

end
-- ==== Proof.BodyValue.lean ====
/-
  The arithmetic of the kernel body at the extended reals, as plain sums.

  Per grid step the body writes, for its block of 8000 two-hop rows, the 320 group means of relu(x2 · Wagg0)
  (a 0/1 membership matrix times the relu'd product, times 1/25). At the last step eight row chunks of 1280 one-hop
  nodes (128 root nodes) each run the rest of the network: h1 = l2n(relu(x1 · W0s + agg0 · W0a)), g = relu(h1 · Wagg1),
  agg1 = (S2 · g) · 1/10, h0 = l2n(l2n(x0 · W1s + agg1 · W1a)), out = relu(h0 · Wcls). The eight chunks are the same
  function `chunk` of the vectors they load; each stage of it is read at an index as a sum.
-/
import proofs.«122449_g16870631539387_cont_7to1_909_9_alg».proof.Proof.Gen.KernelIdeal.Skeleton
import proofs.«122449_g16870631539387_cont_7to1_909_9_alg».proof.Proof.Spec
import Idealize.ShloMosaic.PureOps.Ideal.Laws
import Idealize.ShloMosaic.Lib.ValueIdx
import Idealize.ShloMosaic.Lib.ValueLayout

set_option synthInstance.maxSize 4096

noncomputable section

open Cert.KernelIdeal Cert.KernelIdeal.Gen Idealize.ShloMosaic Idealize.ShloMosaic.ValueIdx
open scoped BigOperators

namespace Cert.KernelIdeal.BodyValue

/-! ## Generic readings: a plain matrix product, a row sum, the column forms of a cast and a broadcast -/

section Generic
variable {α : Type}

/-- A matrix product M×K by K×N into the zero accumulator reads, at (p, q), the sum over the contraction index. -/
theorem matmul_plain_apply {M K N : ℕ} {φ₁ φ₂ : FTy}
    (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ c : Fin K, lhs (ix2 p c) * rhs (ix2 c q) := by
  subst hD
  rw [Ideal.matmul_constant_zero_apply, ← Equiv.sum_comp (contrEquiv1 (DotDims.plain M K N) K rfl rfl).symm]
  refine Finset.sum_congr rfl fun c _ => ?_
  have hc := contrEquiv1_symm_val (DotDims.plain M K N) K rfl rfl c
  have el : (DotDims.plain M K N).lhsIdx (ix2 p q) ((contrEquiv1 (DotDims.plain M K N) K rfl rfl).symm c) = ix2 p c :=
    funext fun a => Fin.ext (by
      match a with
      | ⟨0, _⟩ =>
        show ((DotDims.plain M K N).lhsIdx (ix2 p q) _ 0).val = p.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 p q) _).trans hc)
  have er : (DotDims.plain M K N).rhsIdx (ix2 p q) ((contrEquiv1 (DotDims.plain M K N) K rfl rfl).symm c) = ix2 c q :=
    funext fun a => Fin.ext (by
      match a with
      | ⟨0, _⟩ => exact ((DotDims.plain M K N).rhsIdx_val_of_single rfl (ix2 p q) _).trans hc
      | ⟨1, _⟩ =>
        show ((DotDims.plain M K N).rhsIdx (ix2 p q) _ 1).val = q.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-- The sum over the columns of an [A, B] array, read at row r. -/
theorem rowSum_apply {A B : ℕ} (src : FVec Ideal ⟨2, ![A, B]⟩ .f32)
    (h : Shape.Reduces ⟨2, ![A, B]⟩ [1] ⟨1, ![A]⟩) (hφ : FKind.Formats .f32)
    (hacc : (0x00000000#32 : BitVec FTy.f32.bits) = FKind.add.neutral .f32 hφ) (r : Fin A) :
    multiReduction (F := Ideal) .add [1] ⟨1, ![A]⟩ src 0x00000000#32 h hφ hacc (ix1 r) = ∑ c : Fin B, src (ix2 r c) := by
  refine (Ideal.multiReduction_add_single src 0x00000000#32 h hφ hacc (ix1 r)).trans ?_
  show ∑ c : Fin B, src (h.lift (ix1 r) c) = _
  refine Finset.sum_congr rfl fun c _ => congrArg src (funext fun a => Fin.ext ?_)
  match a with
  | ⟨0, _⟩ => rfl
  | ⟨1, _⟩ => rfl

/-- An [A] array cast to the column [A, 1] reads, at (r, u), the operand at r. -/
theorem shapeCast_a_a1_apply {A : ℕ} (x : (⟨1, ![A]⟩ : Shape).Idx → α) (h : (⟨1, ![A]⟩ : Shape).ShapeCasts ⟨2, ![A, 1]⟩)
    (r : Fin A) (u : Fin 1) : shapeCast ⟨2, ![A, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [A, 1] broadcast to [A, B] reads, at (r, c), the column at r. -/
theorem broadcastTo_a1_ab_apply {A B : ℕ} (v : (⟨2, ![A, 1]⟩ : Shape).Idx → α)
    (h : (⟨2, ![A, 1]⟩ : Shape).Broadcasts ⟨2, ![A, B]⟩) (r : Fin A) (c : Fin B) :
    broadcastTo ⟨2, ![A, B]⟩ v h (ix2 r c) = v (ix2 r (0 : Fin 1)) := by
  refine broadcastTo_apply v h (ix2 r c) (ix2 r (0 : Fin 1)) fun ax => ?_
  match ax with
  | ⟨0, _⟩ =>
    show r.val = if A = 1 then 0 else r.val
    split
    · have := r.isLt; omega
    · rfl
  | ⟨1, _⟩ => rfl

/-- Row normalisation as the body writes it — the row's squares summed, kept as a column, floored at ε, rsqrt, broadcast back,
    times the row — is `l2n` of the row. -/
theorem l2nRows_apply {A B : ℕ} (v : FVec Ideal ⟨2, ![A, B]⟩ .f32)
    (hr : Shape.Reduces ⟨2, ![A, B]⟩ [1] ⟨1, ![A]⟩) (hφ : FKind.Formats .f32)
    (hacc : (0x00000000#32 : BitVec FTy.f32.bits) = FKind.add.neutral .f32 hφ)
    (hc : (⟨1, ![A]⟩ : Shape).ShapeCasts ⟨2, ![A, 1]⟩) (hb : (⟨2, ![A, 1]⟩ : Shape).Broadcasts ⟨2, ![A, B]⟩)
    (r : Fin A) (c : Fin B) :
    mulf v (broadcastTo ⟨2, ![A, B]⟩
        (rsqrt (maximumf (shapeCast ⟨2, ![A, 1]⟩ (multiReduction (F := Ideal) .add [1] ⟨1, ![A]⟩ (mulf v v) 0x00000000#32 hr hφ hacc) hc)
          (broadcast ⟨2, ![A, 1]⟩ (Scalar.ofBits (F := Ideal) .f32 0x2B8CBCCC#32)))) hb) (ix2 r c)
      = Cert.Spec.l2n (fun o => v (ix2 r o)) c := by
  rw [mulf_apply, broadcastTo_a1_ab_apply]
  show v (ix2 r c) * Ideal.rsqrt (max (shapeCast ⟨2, ![A, 1]⟩ (multiReduction (F := Ideal) .add [1] ⟨1, ![A]⟩ (mulf v v) 0x00000000#32 hr hφ hacc) hc (ix2 r (0 : Fin 1))) Cert.Spec.eps) = _
  rw [shapeCast_a_a1_apply, rowSum_apply]
  rfl

end Generic

/-! ## The stages of one chunk, as the operations the body applies -/

/-- relu(x1 · W0s + agg0 · W0a) on the chunk's 1280 rows. -/
def stH1p (x1c : Vec Ideal S1280x256 .f32) (a0c : Vec Ideal S1280x128 .bf16) (w0s : Vec Ideal S256x256 .bf16)
    (w0a : Vec Ideal S128x256 .bf16) : FVec Ideal S1280x256 .f32 :=
  have v24 : FVec Ideal S1280x256 .f32 := shapeCast S1280x256 x1c shapeCasts_S1280x256_S1280x256
  have v25 : FVec Ideal S1280x256 .bf16 := truncf .bf16 v24 bitsLt_bf16_f32
  have v28 : FVec Ideal S256x256 .bf16 := shapeCast S256x256 w0s shapeCasts_S256x256_S256x256
  have cst_15 : FVec Ideal S1280x256 .f32 := constant S1280x256 .f32 0x00000000#32
  have v29 : FVec Ideal S1280x256 .f32 := matmul dot_S1280x256_S256x256_S1280x256_1_0_0_1_n_n none v25 v28 cst_15
  have v31 : FVec Ideal S128x256 .bf16 := shapeCast S128x256 w0a shapeCasts_S128x256_S128x256
  have cst_18 : FVec Ideal S1280x256 .f32 := constant S1280x256 .f32 0x00000000#32
  have v32 : FVec Ideal S1280x256 .f32 := matmul (φ₁ := .bf16) dot_S1280x128_S128x256_S1280x256_1_0_0_1_n_n none a0c v31 cst_18
  have v33 : FVec Ideal S1280x256 .f32 := addf v29 v32
  have cst_19 : Ideal .f32 := Scalar.ofBits .f32 0x00000000#32
  have v34 : FVec Ideal S1280x256 .f32 := broadcast S1280x256 cst_19
  have v35 : FVec Ideal S1280x256 .f32 := maximumf v33 v34
  v35

/-- Row normalisation of a [1280, 256] array: h · rsqrt(max(Σ h², ε)). -/
def stL2nA (v35 : FVec Ideal S1280x256 .f32) : FVec Ideal S1280x256 .f32 :=
  have v36 : FVec Ideal S1280x256 .f32 := mulf v35 v35
  have v37 : FVec Ideal S1280 .f32 := multiReduction .add [1] S1280 v36 0x00000000#32 reduces_S1280x256_S1280 (.inl rfl) rfl
  have v38 : FVec Ideal S1280x1 .f32 := shapeCast S1280x1 v37 shapeCasts_S1280_S1280x1
  have cst_21 : Ideal .f32 := Scalar.ofBits .f32 0x2B8CBCCC#32
  have v39 : FVec Ideal S1280x1 .f32 := broadcast S1280x1 cst_21
  have v40 : FVec Ideal S1280x1 .f32 := maximumf v38 v39
  have v41 : FVec Ideal S1280x1 .f32 := rsqrt v40
  have v42 : FVec Ideal S1280x256 .f32 := broadcastTo S1280x256 v41 broadcasts_S1280x1_S1280x256
  have v43 : FVec Ideal S1280x256 .f32 := mulf v35 v42
  v43

/-- relu(h1 · Wagg1). -/
def stG (v43 : FVec Ideal S1280x256 .f32) (wagg1 : Vec Ideal S256x128 .bf16) : FVec Ideal S1280x128 .f32 :=
  have v44 : FVec Ideal S1280x256 .bf16 := truncf .bf16 v43 bitsLt_bf16_f32
  have v46 : FVec Ideal S256x128 .bf16 := shapeCast S256x128 wagg1 shapeCasts_S256x128_S256x128
  have cst_24 : FVec Ideal S1280x128 .f32 := constant S1280x128 .f32 0x00000000#32
  have v47 : FVec Ideal S1280x128 .f32 := matmul dot_S1280x256_S256x128_S1280x128_1_0_0_1_n_n none v44 v46 cst_24
  have cst_25 : Ideal .f32 := Scalar.ofBits .f32 0x00000000#32
  have v48 : FVec Ideal S1280x128 .f32 := broadcast S1280x128 cst_25
  have v49 : FVec Ideal S1280x128 .f32 := maximumf v47 v48
  v49

/-- The group means over ten rows: (S2 · g) · 1/10. -/
def stAgg1 (v49 : FVec Ideal S1280x128 .f32) (s2 : Vec Ideal S128x1280 .bf16) : FVec Ideal S128x128 .f32 :=
  have v51 : FVec Ideal S128x1280 .bf16 := shapeCast S128x1280 s2 shapeCasts_S128x1280_S128x1280
  have v52 : FVec Ideal S1280x128 .bf16 := truncf .bf16 v49 bitsLt_bf16_f32
  have cst_28 : FVec Ideal S128x128 .f32 := constant S128x128 .f32 0x00000000#32
  have v53 : FVec Ideal S128x128 .f32 := matmul dot_S128x1280_S1280x128_S128x128_1_0_0_1_n_n none v51 v52 cst_28
  have cst_29 : Ideal .f32 := Named.named κ "inv_10" 0x3DCCCCCD#32
  have v54 : FVec Ideal S128x128 .f32 := broadcast S128x128 cst_29
  have v55 : FVec Ideal S128x128 .f32 := mulf v53 v54
  v55

/-- x0 · W1s + agg1 · W1a. -/
def stH0p (v55 : FVec Ideal S128x128 .f32) (x0c : Vec Ideal S128x256 .f32) (w1s : Vec Ideal S256x256 .f32)
    (w1a : Vec Ideal S128x256 .f32) : FVec Ideal S128x256 .f32 :=
  have v58 : FVec Ideal S256x256 .f32 := shapeCast S256x256 w1s shapeCasts_S256x256_S256x256
  have cst_34 : FVec Ideal S128x256 .f32 := constant S128x256 .f32 0x00000000#32
  have v59 : FVec Ideal S128x256 .f32 := matmul (φ₁ := .f32) dot_S128x256_S256x256_S128x256_1_0_0_1_n_n none x0c v58 cst_34
  have v61 : FVec Ideal S128x256 .f32 := shapeCast S128x256 w1a shapeCasts_S128x256_S128x256
  have cst_37 : FVec Ideal S128x256 .f32 := constant S128x256 .f32 0x00000000#32
  have v62 : FVec Ideal S128x256 .f32 := matmul dot_S128x128_S128x256_S128x256_1_0_0_1_n_n none v55 v61 cst_37
  have v63 : FVec Ideal S128x256 .f32 := addf v59 v62
  v63

/-- Row normalisation of a [128, 256] array. -/
def stL2nB (v63 : FVec Ideal S128x256 .f32) : FVec Ideal S128x256 .f32 :=
  have v64 : FVec Ideal S128x256 .f32 := mulf v63 v63
  have v65 : FVec Ideal S128 .f32 := multiReduction .add [1] S128 v64 0x00000000#32 reduces_S128x256_S128 (.inl rfl) rfl
  have v66 : FVec Ideal S128x1 .f32 := shapeCast S128x1 v65 shapeCasts_S128_S128x1
  have cst_39 : Ideal .f32 := Scalar.ofBits .f32 0x2B8CBCCC#32
  have v67 : FVec Ideal S128x1 .f32 := broadcast S128x1 cst_39
  have v68 : FVec Ideal S128x1 .f32 := maximumf v66 v67
  have v69 : FVec Ideal S128x1 .f32 := rsqrt v68
  have v70 : FVec Ideal S128x256 .f32 := broadcastTo S128x256 v69 broadcasts_S128x1_S128x256
  have v71 : FVec Ideal S128x256 .f32 := mulf v63 v70
  v71

/-- relu(h0 · Wcls). -/
def stOut (v79 : FVec Ideal S128x256 .f32) (wcls : Vec Ideal S256x50 .f32) : FVec Ideal S128x50 .f32 :=
  have cst_44 : FVec Ideal S128x50 .f32 := constant S128x50 .f32 0x00000000#32
  have v81 : FVec Ideal S128x50 .f32 := matmul (φ₂ := .f32) dot_S128x256_S256x50_S128x50_1_0_0_1_n_n none v79 wcls cst_44
  have cst_45 : Ideal .f32 := Scalar.ofBits .f32 0x00000000#32
  have v82 : FVec Ideal S128x50 .f32 := broadcast S128x50 cst_45
  have v83 : FVec Ideal S128x50 .f32 := maximumf v81 v82
  v83

/-- One chunk: 1280 one-hop rows (x1c, their agg0 rows a0c) and 128 root rows (x0c) to the 128 × 50 output rows. -/
def chunk (x0c : Vec Ideal S128x256 .f32) (x1c : Vec Ideal S1280x256 .f32) (a0c : Vec Ideal S1280x128 .bf16)
    (w0s : Vec Ideal S256x256 .bf16) (w0a : Vec Ideal S128x256 .bf16) (wagg1 : Vec Ideal S256x128 .bf16)
    (s2 : Vec Ideal S128x1280 .bf16) (w1s : Vec Ideal S256x256 .f32) (w1a : Vec Ideal S128x256 .f32)
    (wcls : Vec Ideal S256x50 .f32) : FVec Ideal S128x50 .f32 :=
  stOut (stL2nB (stL2nB (stH0p (stAgg1 (stG (stL2nA (stH1p x1c a0c w0s w0a)) wagg1) s2) x0c w1s w1a))) wcls

/-! ## The eight chunks of the body are `chunk` -/

section Wiring
variable (x0c : Vec Ideal S128x256 .f32) (x1c : Vec Ideal S1280x256 .f32) (a0c : Vec Ideal S1280x128 .bf16)
  (w0s : Vec Ideal S256x256 .bf16) (w0a : Vec Ideal S128x256 .bf16) (wagg1 : Vec Ideal S256x128 .bf16)
  (s2 : Vec Ideal S128x1280 .bf16) (w1s : Vec Ideal S256x256 .f32) (w1a : Vec Ideal S128x256 .f32)
  (wcls : Vec Ideal S256x50 .f32)

theorem chunk0_eq :
    k0_pay4 (F := Ideal) (k0_pay3 x1c a0c w0s w0a wagg1 s2) x0c w1s w1a wcls
      = chunk x0c x1c a0c w0s w0a wagg1 s2 w1s w1a wcls := rfl

theorem chunk1_eq :
    k0_pay9 (F := Ideal)
        (k0_pay7 a0c (k0_pay5 x1c w0s) (k0_pay6 w0a) wagg1 s2 x0c w1s w1a)
        (k0_pay8 a0c (k0_pay5 x1c w0s) (k0_pay6 w0a) wagg1 s2 x0c w1s w1a) wcls
      = chunk x0c x1c a0c w0s w0a wagg1 s2 w1s w1a wcls := rfl

theorem chunk2_eq :
    k0_pay12 (F := Ideal) (k0_pay11 (k0_pay10 x1c a0c w0s w0a) wagg1 s2 x0c w1s w1a wcls)
        (Scalar.ofBits .f32 0x00000000#32)
      = chunk x0c x1c a0c w0s w0a wagg1 s2 w1s w1a wcls := rfl

theorem chunk3_eq :
    k0_pay14 (F := Ideal) (k0_pay13 x1c a0c w0s w0a wagg1 s2) x0c w1s w1a wcls
      = chunk x0c x1c a0c w0s w0a wagg1 s2 w1s w1a wcls := rfl

theorem chunk4_eq :
    k0_pay19 (F := Ideal)
        (k0_pay17 (k0_pay15 x1c) a0c (k0_pay16 w0s) w0a wagg1 s2 x0c w1s w1a)
        (k0_pay18 (k0_pay15 x1c) a0c (k0_pay16 w0s) w0a wagg1 s2 x0c w1s w1a) wcls
      = chunk x0c x1c a0c w0s w0a wagg1 s2 w1s w1a wcls := rfl

theorem chunk5_eq :
    k0_pay24 (F := Ideal)
        (k0_pay23 (k0_pay20 x1c a0c w0s w0a) (k0_pay21 x1c a0c w0s w0a) k0_pay22 wagg1 s2 x0c w1s w1a) wcls
      = chunk x0c x1c a0c w0s w0a wagg1 s2 w1s w1a wcls := rfl

theorem chunk6_eq :
    k0_pay27 (F := Ideal) (k0_pay25 x1c a0c w0s w0a wagg1) (k0_pay26 s2) x0c w1s w1a wcls
      = chunk x0c x1c a0c w0s w0a wagg1 s2 w1s w1a wcls := rfl

theorem chunk7_eq :
    k0_pay2 (F := Ideal) (k0_pay29 (k0_pay28 x1c) a0c w0s w0a wagg1 s2) (k0_pay30 x0c w1s) w1a wcls
      = chunk x0c x1c a0c w0s w0a wagg1 s2 w1s w1a wcls := rfl

end Wiring

/-! ## Each stage read at an index -/

section Stages

/-- The named reciprocals are the rationals the table gives them. -/
theorem inv_25 : Named.named (F := Ideal) κ "inv_25" (φ := .f32) 0x3D23D70A#32 = ((1 / 25 : ℝ) : EReal) :=
  IdealRules.named_const.ideal_named_scalar _ _ _ _ rfl

theorem inv_10 : Named.named (F := Ideal) κ "inv_10" (φ := .f32) 0x3DCCCCCD#32 = ((1 / 10 : ℝ) : EReal) :=
  IdealRules.named_const.ideal_named_scalar _ _ _ _ rfl

theorem stH1p_apply (x1c : Vec Ideal S1280x256 .f32) (a0c : Vec Ideal S1280x128 .bf16) (w0s : Vec Ideal S256x256 .bf16)
    (w0a : Vec Ideal S128x256 .bf16) (r : Fin 1280) (o : Fin 256) :
    stH1p x1c a0c w0s w0a (ix2 r o)
      = max ((∑ f : Fin 256, x1c (ix2 r f) * w0s (ix2 f o)) + ∑ a : Fin 128, a0c (ix2 r a) * w0a (ix2 a o)) 0 := by
  unfold stH1p
  simp only [shapeCast_self, matmul, maximumf_apply, addf_apply, broadcast_apply]
  rw [matmul_plain_apply dot_S1280x256_S256x256_S1280x256_1_0_0_1_n_n rfl,
    matmul_plain_apply dot_S1280x128_S128x256_S1280x256_1_0_0_1_n_n rfl]
  show max _ (Ideal.ofBits .f32 0x00000000#32) = _
  rw [Ideal.ofBits_zero_f32]
  rfl

theorem stL2nA_apply (v : FVec Ideal S1280x256 .f32) (r : Fin 1280) (c : Fin 256) :
    stL2nA v (ix2 r c) = Cert.Spec.l2n (fun o => v (ix2 r o)) c := by
  unfold stL2nA
  exact l2nRows_apply v _ _ _ _ _ r c

theorem stG_apply (v : FVec Ideal S1280x256 .f32) (wagg1 : Vec Ideal S256x128 .bf16) (r : Fin 1280) (a : Fin 128) :
    stG v wagg1 (ix2 r a) = max (∑ o : Fin 256, v (ix2 r o) * wagg1 (ix2 o a)) 0 := by
  unfold stG
  simp only [shapeCast_self, matmul, maximumf_apply, broadcast_apply]
  rw [matmul_plain_apply dot_S1280x256_S256x128_S1280x128_1_0_0_1_n_n rfl]
  show max _ (Ideal.ofBits .f32 0x00000000#32) = _
  rw [Ideal.ofBits_zero_f32]
  rfl

theorem stAgg1_apply (g : FVec Ideal S1280x128 .f32) (s2 : Vec Ideal S128x1280 .bf16) (p : Fin 128) (a : Fin 128) :
    stAgg1 g s2 (ix2 p a) = (∑ r : Fin 1280, s2 (ix2 p r) * g (ix2 r a)) * ((1 / 10 : ℝ) : EReal) := by
  unfold stAgg1
  simp only [shapeCast_self, matmul, mulf_apply, broadcast_apply]
  rw [matmul_plain_apply dot_S128x1280_S1280x128_S128x128_1_0_0_1_n_n rfl, inv_10]
  rfl

theorem stH0p_apply (agg : FVec Ideal S128x128 .f32) (x0c : Vec Ideal S128x256 .f32) (w1s : Vec Ideal S256x256 .f32)
    (w1a : Vec Ideal S128x256 .f32) (p : Fin 128) (o : Fin 256) :
    stH0p agg x0c w1s w1a (ix2 p o)
      = (∑ f : Fin 256, x0c (ix2 p f) * w1s (ix2 f o)) + ∑ a : Fin 128, agg (ix2 p a) * w1a (ix2 a o) := by
  unfold stH0p
  simp only [shapeCast_self, matmul, addf_apply]
  rw [matmul_plain_apply dot_S128x256_S256x256_S128x256_1_0_0_1_n_n rfl,
    matmul_plain_apply dot_S128x128_S128x256_S128x256_1_0_0_1_n_n rfl]

theorem stL2nB_apply (v : FVec Ideal S128x256 .f32) (p : Fin 128) (c : Fin 256) :
    stL2nB v (ix2 p c) = Cert.Spec.l2n (fun o => v (ix2 p o)) c := by
  unfold stL2nB
  exact l2nRows_apply v _ _ _ _ _ p c

theorem stOut_apply (h : FVec Ideal S128x256 .f32) (wcls : Vec Ideal S256x50 .f32) (p : Fin 128) (l : Fin 50) :
    stOut h wcls (ix2 p l) = max (∑ o : Fin 256, h (ix2 p o) * wcls (ix2 o l)) 0 := by
  unfold stOut
  simp only [matmul, maximumf_apply, broadcast_apply]
  rw [matmul_plain_apply dot_S128x256_S256x50_S128x50_1_0_0_1_n_n rfl]
  show max _ (Ideal.ofBits .f32 0x00000000#32) = _
  rw [Ideal.ofBits_zero_f32]

end Stages

/-! ## The chunk and the per-step slice as sums -/

/-- One chunk's output row p, class l: the network's two layers on the chunk's rows. -/
theorem chunk_apply (x0c : Vec Ideal S128x256 .f32) (x1c : Vec Ideal S1280x256 .f32) (a0c : Vec Ideal S1280x128 .bf16)
    (w0s : Vec Ideal S256x256 .bf16) (w0a : Vec Ideal S128x256 .bf16) (wagg1 : Vec Ideal S256x128 .bf16)
    (s2 : Vec Ideal S128x1280 .bf16) (w1s : Vec Ideal S256x256 .f32) (w1a : Vec Ideal S128x256 .f32)
    (wcls : Vec Ideal S256x50 .f32) (p : Fin 128) (l : Fin 50) :
    chunk x0c x1c a0c w0s w0a wagg1 s2 w1s w1a wcls (ix2 p l)
      = max (∑ o : Fin 256, Cert.Spec.l2n (Cert.Spec.l2n (fun o =>
          (∑ f : Fin 256, x0c (ix2 p f) * w1s (ix2 f o))
            + ∑ a : Fin 128, ((∑ r : Fin 1280, s2 (ix2 p r) * max (∑ o' : Fin 256, Cert.Spec.l2n (fun o'' =>
                max ((∑ f : Fin 256, x1c (ix2 r f) * w0s (ix2 f o'')) + ∑ a' : Fin 128, a0c (ix2 r a') * w0a (ix2 a' o'')) 0) o'
                  * wagg1 (ix2 o' a)) 0) * ((1 / 10 : ℝ) : EReal)) * w1a (ix2 a o))) o * wcls (ix2 o l)) 0 := by
  unfold chunk
  rw [stOut_apply]
  simp only [stL2nB_apply, stH0p_apply, stAgg1_apply, stG_apply, stL2nA_apply, stH1p_apply]

/-- The per-step slice: group g's mean over its 25 rows of relu(x2 · Wagg0), as the membership row times the relu'd
    products, times 1/25. -/
theorem slice_apply (v0 : Vec Ideal S8000x256 .f32) (v3 : Vec Ideal S256x128 .bf16) (v8 : Vec Ideal S320x8000 .bf16)
    (g : Fin 320) (a : Fin 128) :
    k0_pay1 (F := Ideal) v0 v3 v8 (ix2 g a)
      = (∑ r : Fin 8000, v8 (ix2 g r) * max (∑ f : Fin 256, v0 (ix2 r f) * v3 (ix2 f a)) 0) * ((1 / 25 : ℝ) : EReal) := by
  unfold k0_pay1
  simp only [shapeCast_self, matmul, mulf_apply, truncf_apply, broadcast_apply]
  rw [matmul_plain_apply dot_S320x8000_S8000x128_S320x128_1_0_0_1_n_n rfl, inv_25]
  simp only [truncf_apply, maximumf_apply, broadcast_apply,
    matmul_plain_apply dot_S8000x256_S256x128_S8000x128_1_0_0_1_n_n rfl, Ideal.ofBits_def, Ideal.ofBits_zero_f32]

end Cert.KernelIdeal.BodyValue

end
-- ==== Proof.SpecJoin.lean ====
/-
  The two readings of the specification agree, and two sums against 0/1 group matrices.

  Flatten the one-hop nodes to rows q = 10·b + n and the two-hop nodes to rows R = 25·q + j: the flattened arrays hold
  the multi-axis arrays' entries at those rows, the weight blocks are the upper 256 and the lower 128 rows of the
  joined weights, and the two means multiply by the exact reciprocals 1/25 and 1/10.  Then stage by stage the
  flattened reading is the multi-axis one.  Only two facts are used beyond rearranging finite sums in a commutative
  monoid: the quotient by the word of 25 (of 10) is the product with 1/25 (with 1/10) on every extended real, and a
  sum over the 384 joined columns is the sum over its first 256 plus the sum over its last 128, where the
  concatenation reads its first and its second operand.  No entry needs to be finite.

  The group sums: a sum over r weighted by the indicator of r / K = g keeps exactly the K consecutive terms
  K·g, …, K·g + K − 1 (0 · x = 0 and 1 · x = x for every extended real x).
-/
import proofs.«122449_g16870631539387_cont_7to1_909_9_alg».proof.Proof.Spec

noncomputable section

open Idealize.ShloMosaic
open scoped BigOperators

namespace Cert.Spec

/-! ## Sums against a 0/1 group matrix -/

/-- Of 8000 terms, those whose index divided by 25 is g are the 25 terms 25·g, …, 25·g + 24. -/
theorem group_sum25 (T : Fin 8000 → EReal) (g : Fin 320) :
    (∑ r : Fin 8000, (if r.val / 25 = g.val then (1 : EReal) else 0) * T r)
      = ∑ j : Fin 25, T ⟨25 * g.val + j.val, by have := g.isLt; have := j.isLt; omega⟩ := by
  have hg := g.isLt
  simp only [ite_mul, one_mul, zero_mul]
  rw [← Finset.sum_filter]
  symm
  refine Finset.sum_nbij' (fun j : Fin 25 => (⟨25 * g.val + j.val, by have := j.isLt; omega⟩ : Fin 8000))
    (fun r : Fin 8000 => (⟨r.val % 25, Nat.mod_lt _ (by norm_num)⟩ : Fin 25)) ?_ ?_ ?_ ?_ ?_
  · intro j _
    simp only [Finset.mem_filter, Finset.mem_univ, true_and]
    have := j.isLt
    omega
  · intro r _
    exact Finset.mem_univ _
  · intro j _
    apply Fin.ext
    show (25 * g.val + j.val) % 25 = j.val
    have := j.isLt
    omega
  · intro r hr
    simp only [Finset.mem_filter, Finset.mem_univ, true_and] at hr
    apply Fin.ext
    show 25 * g.val + r.val % 25 = r.val
    omega
  · intro j _
    rfl

/-- Of 1280 terms, those whose index divided by 10 is p are the 10 terms 10·p, …, 10·p + 9. -/
theorem group_sum10 (G : Fin 1280 → EReal) (p : Fin 128) :
    (∑ r : Fin 1280, (if r.val / 10 = p.val then (1 : EReal) else 0) * G r)
      = ∑ n : Fin 10, G ⟨10 * p.val + n.val, by have := p.isLt; have := n.isLt; omega⟩ := by
  have hp := p.isLt
  simp only [ite_mul, one_mul, zero_mul]
  rw [← Finset.sum_filter]
  symm
  refine Finset.sum_nbij' (fun n : Fin 10 => (⟨10 * p.val + n.val, by have := n.isLt; omega⟩ : Fin 1280))
    (fun r : Fin 1280 => (⟨r.val % 10, Nat.mod_lt _ (by norm_num)⟩ : Fin 10)) ?_ ?_ ?_ ?_ ?_
  · intro n _
    simp only [Finset.mem_filter, Finset.mem_univ, true_and]
    have := n.isLt
    omega
  · intro r _
    exact Finset.mem_univ _
  · intro n _
    apply Fin.ext
    show (10 * p.val + n.val) % 10 = n.val
    have := n.isLt
    omega
  · intro r hr
    simp only [Finset.mem_filter, Finset.mem_univ, true_and] at hr
    apply Fin.ext
    show 10 * p.val + r.val % 10 = r.val
    omega
  · intro n _
    rfl

/-! ## The flattened views -/

/-- The one-hop array by rows q = 10·b + n. -/
def flat1 (x1 : Fin 1024 → Fin 10 → Fin 256 → EReal) : Fin 10240 → Fin 256 → EReal :=
  fun q f => x1 ⟨q.val / 10, by have := q.isLt; omega⟩ ⟨q.val % 10, Nat.mod_lt _ (by norm_num)⟩ f

/-- The two-hop array by rows R = 25·(10·b + n) + j. -/
def flat2 (x2 : Fin 1024 → Fin 10 → Fin 25 → Fin 256 → EReal) : Fin 256000 → Fin 256 → EReal :=
  fun R f => x2 ⟨R.val / 250, by have := R.isLt; omega⟩ ⟨R.val / 25 % 10, Nat.mod_lt _ (by norm_num)⟩
    ⟨R.val % 25, Nat.mod_lt _ (by norm_num)⟩ f

/-- The first 256 rows of a joined weight matrix. -/
def upper (w : Fin 384 → Fin 256 → EReal) : Fin 256 → Fin 256 → EReal :=
  fun f o => w ⟨f.val, by have := f.isLt; omega⟩ o

/-- The last 128 rows of a joined weight matrix. -/
def lower (w : Fin 384 → Fin 256 → EReal) : Fin 128 → Fin 256 → EReal :=
  fun a o => w ⟨256 + a.val, by have := a.isLt; omega⟩ o

/-- Row 10·b + n of the flattened one-hop array. -/
abbrev row1 (b : Fin 1024) (n : Fin 10) : Fin 10240 :=
  ⟨10 * b.val + n.val, by have := b.isLt; have := n.isLt; omega⟩

/-- Row 25·(10·b + n) + j of the flattened two-hop array. -/
abbrev row2 (b : Fin 1024) (n : Fin 10) (j : Fin 25) : Fin 256000 :=
  ⟨25 * (10 * b.val + n.val) + j.val, by have := b.isLt; have := n.isLt; have := j.isLt; omega⟩

theorem flat1_row (x1 : Fin 1024 → Fin 10 → Fin 256 → EReal) (b : Fin 1024) (n : Fin 10) (f : Fin 256) :
    flat1 x1 (row1 b n) f = x1 b n f := by
  have hn := n.isLt
  have eb : (⟨(10 * b.val + n.val) / 10, by have := b.isLt; omega⟩ : Fin 1024) = b := Fin.ext (by show _ / 10 = b.val; omega)
  have en : (⟨(10 * b.val + n.val) % 10, Nat.mod_lt _ (by norm_num)⟩ : Fin 10) = n := Fin.ext (by show _ % 10 = n.val; omega)
  show x1 ⟨(10 * b.val + n.val) / 10, _⟩ ⟨(10 * b.val + n.val) % 10, _⟩ f = x1 b n f
  rw [eb, en]

theorem flat2_row (x2 : Fin 1024 → Fin 10 → Fin 25 → Fin 256 → EReal) (b : Fin 1024) (n : Fin 10) (j : Fin 25)
    (f : Fin 256) : flat2 x2 (row2 b n j) f = x2 b n j f := by
  have hn := n.isLt
  have hj := j.isLt
  have eb : (⟨(25 * (10 * b.val + n.val) + j.val) / 250, by have := b.isLt; omega⟩ : Fin 1024) = b :=
    Fin.ext (by show _ / 250 = b.val; omega)
  have en : (⟨(25 * (10 * b.val + n.val) + j.val) / 25 % 10, Nat.mod_lt _ (by norm_num)⟩ : Fin 10) = n :=
    Fin.ext (by show _ / 25 % 10 = n.val; omega)
  have ej : (⟨(25 * (10 * b.val + n.val) + j.val) % 25, Nat.mod_lt _ (by norm_num)⟩ : Fin 25) = j :=
    Fin.ext (by show _ % 25 = j.val; omega)
  show x2 ⟨(25 * (10 * b.val + n.val) + j.val) / 250, _⟩ ⟨(25 * (10 * b.val + n.val) + j.val) / 25 % 10, _⟩
    ⟨(25 * (10 * b.val + n.val) + j.val) % 25, _⟩ f = x2 b n j f
  rw [eb, en, ej]

/-! ## The two facts beyond rearrangement -/

/-- The word of 25.0 is the real 25. -/
theorem ofBits_25 : Ideal.ofBits .f32 0x41C80000#32 = ((25 : ℝ) : EReal) := by
  simp [Ideal.ofBits, Ideal.ieee, -EReal.coe_mul]; norm_num

/-- The word of 10.0 is the real 10. -/
theorem ofBits_10 : Ideal.ofBits .f32 0x41200000#32 = ((10 : ℝ) : EReal) := by
  simp [Ideal.ofBits, Ideal.ieee, -EReal.coe_mul]; norm_num

/-- A sum over 384 columns is the sum over the first 256 plus the sum over the last 128. -/
theorem sum_split (g : Fin 384 → EReal) :
    ∑ c, g c = (∑ f : Fin 256, g ⟨f.val, by have := f.isLt; omega⟩)
      + ∑ a : Fin 128, g ⟨256 + a.val, by have := a.isLt; omega⟩ :=
  Fin.sum_univ_add (a := 256) (b := 128) (f := (g : Fin (256 + 128) → EReal))

/-! ## The stages -/
section Join

variable (x0 : Fin 1024 → Fin 256 → EReal) (x1 : Fin 1024 → Fin 10 → Fin 256 → EReal)
  (x2 : Fin 1024 → Fin 10 → Fin 25 → Fin 256 → EReal)
  (wagg0 wagg1 : Fin 256 → Fin 128 → EReal) (wcomb0 wcomb1 : Fin 384 → Fin 256 → EReal) (wcls : Fin 256 → Fin 50 → EReal)

/-- relu(x2 · Wagg0) at row 25·(10·b + n) + j is the two-hop node (b, n, j)'s. -/
theorem kT_flat (b : Fin 1024) (n : Fin 10) (j : Fin 25) (a : Fin 128) :
    kT (flat2 x2) wagg0 (row2 b n j) a = rT x2 wagg0 b n j a := by
  unfold kT rT
  simp only [flat2_row]

/-- The mean over rows 25·q, …, 25·q + 24 with the reciprocal 1/25 is the sum over j divided by the word of 25. -/
theorem kAgg0_flat (b : Fin 1024) (n : Fin 10) (a : Fin 128) :
    kAgg0 (flat2 x2) wagg0 ((1 / 25 : ℝ) : EReal) (row1 b n) a = rAgg0 x2 wagg0 b n a := by
  unfold kAgg0 rAgg0
  rw [ofBits_25, Ideal.div_coe (by norm_num : (25 : ℝ) ≠ 0)]
  congr 1
  exact Finset.sum_congr rfl fun j _ => kT_flat x2 wagg0 b n j a

/-- The two products with the row blocks of Wcomb0 add up to the one sum over the 384 joined columns. -/
theorem kH1p_flat (b : Fin 1024) (n : Fin 10) :
    kH1p (flat1 x1) (flat2 x2) wagg0 (upper wcomb0) (lower wcomb0) ((1 / 25 : ℝ) : EReal) (row1 b n)
      = rH1p x1 x2 wagg0 wcomb0 b n := by
  funext o
  unfold kH1p rH1p
  rw [sum_split]
  congr 2
  · refine Finset.sum_congr rfl fun f _ => ?_
    rw [flat1_row]
    unfold rCat0 upper
    rw [dif_pos (show (⟨f.val, _⟩ : Fin 384).val < 256 from f.isLt)]
  · refine Finset.sum_congr rfl fun a _ => ?_
    rw [kAgg0_flat]
    unfold rCat0 lower
    rw [dif_neg (show ¬ (⟨256 + a.val, _⟩ : Fin 384).val < 256 from by simp)]
    congr 2
    exact Fin.ext (by simp)

/-- The row normalisation is the same function of the same row. -/
theorem kH1_flat (b : Fin 1024) (n : Fin 10) (o : Fin 256) :
    kH1 (flat1 x1) (flat2 x2) wagg0 (upper wcomb0) (lower wcomb0) ((1 / 25 : ℝ) : EReal) (row1 b n) o
      = rH1 x1 x2 wagg0 wcomb0 b n o := by
  unfold kH1 rH1
  rw [kH1p_flat]

theorem kG1_flat (b : Fin 1024) (n : Fin 10) (a : Fin 128) :
    kG1 (flat1 x1) (flat2 x2) wagg0 (upper wcomb0) (lower wcomb0) wagg1 ((1 / 25 : ℝ) : EReal) (row1 b n) a
      = rG1 x1 x2 wagg0 wagg1 wcomb0 b n a := by
  unfold kG1 rG1
  simp only [kH1_flat]

/-- The mean over rows 10·b, …, 10·b + 9 with the reciprocal 1/10 is the sum over n divided by the word of 10. -/
theorem kAgg1_flat (b : Fin 1024) (a : Fin 128) :
    kAgg1 (flat1 x1) (flat2 x2) wagg0 (upper wcomb0) (lower wcomb0) wagg1 ((1 / 25 : ℝ) : EReal) ((1 / 10 : ℝ) : EReal) b a
      = rAgg1 x1 x2 wagg0 wagg1 wcomb0 b a := by
  unfold kAgg1 rAgg1
  rw [ofBits_10, Ideal.div_coe (by norm_num : (10 : ℝ) ≠ 0)]
  congr 1
  exact Finset.sum_congr rfl fun n _ => kG1_flat x1 x2 wagg0 wagg1 wcomb0 b n a

/-- The two products with the row blocks of Wcomb1 add up to the one sum over the 384 joined columns. -/
theorem kH0p_flat (b : Fin 1024) :
    kH0p x0 (flat1 x1) (flat2 x2) wagg0 (upper wcomb0) (lower wcomb0) wagg1 (upper wcomb1) (lower wcomb1)
        ((1 / 25 : ℝ) : EReal) ((1 / 10 : ℝ) : EReal) b
      = rH0p x0 x1 x2 wagg0 wagg1 wcomb0 wcomb1 b := by
  funext o
  unfold kH0p rH0p
  rw [sum_split]
  refine congrArg₂ (· + ·) ?_ ?_
  · refine Finset.sum_congr rfl fun f _ => ?_
    unfold rCat1 upper
    rw [dif_pos (show (⟨f.val, _⟩ : Fin 384).val < 256 from f.isLt)]
  · refine Finset.sum_congr rfl fun a _ => ?_
    rw [kAgg1_flat]
    unfold rCat1 lower
    rw [dif_neg (show ¬ (⟨256 + a.val, _⟩ : Fin 384).val < 256 from by simp)]
    congr 2
    exact Fin.ext (by simp)

/-- The flattened reading of the result is the multi-axis one. -/
theorem kOut_eq_rOut (b : Fin 1024) (l : Fin 50) :
    kOut x0 (flat1 x1) (flat2 x2) wagg0 (upper wcomb0) (lower wcomb0) wagg1 (upper wcomb1) (lower wcomb1) wcls
        ((1 / 25 : ℝ) : EReal) ((1 / 10 : ℝ) : EReal) b l
      = rOut x0 x1 x2 wagg0 wagg1 wcomb0 wcomb1 wcls b l := by
  unfold kOut rOut
  rw [kH0p_flat]

end Join

end Cert.Spec

end
-- ==== Proof.ChunkValue.lean ====
/-
  One tail chunk, fed the right rows, is the flattened reading of the specification on its 128 roots.

  Chunk k works on the roots 128·k, …, 128·k + 127 and on their 1280 one-hop rows 1280·k, …, 1280·k + 1279.  Its
  inputs are the roots' features, the one-hop rows' features, the one-hop rows' two-hop means, the weights, and the
  0/1 matrix whose row p marks the ten one-hop rows r with r / 10 = p.  The product with that matrix keeps, for root
  p, exactly the rows 10·p, …, 10·p + 9 of the chunk, which are the rows 10·(128·k + p) + n of the whole flattened
  array, since 1280·k + (10·p + n) = 10·(128·k + p) + n; times 1/10 this is the mean over the root's neighbours.
  Every other stage is the flattened reading's own formula with the chunk's entries in place of the arrays'.
-/
import proofs.«122449_g16870631539387_cont_7to1_909_9_alg».proof.Proof.BodyValue
import proofs.«122449_g16870631539387_cont_7to1_909_9_alg».proof.Proof.Spec
import proofs.«122449_g16870631539387_cont_7to1_909_9_alg».proof.Proof.SpecJoin

set_option synthInstance.maxSize 4096

noncomputable section

open Cert.KernelIdeal Idealize.ShloMosaic Idealize.ShloMosaic.ValueIdx
open scoped BigOperators

namespace Cert.KernelIdeal.ChunkValue

open Cert.KernelIdeal.BodyValue

/-- Chunk k's output at its root p and class l is the flattened reading's result at root 128·k + p, when the chunk's
    inputs are the arrays' rows of that chunk, the two-hop means are the flattened reading's, and the 0/1 matrix marks
    r / 10 = p. -/
theorem chunk_kOut (k : Fin 8)
    (x0c : Vec Ideal S128x256 .f32) (x1c : Vec Ideal S1280x256 .f32) (a0c : Vec Ideal S1280x128 .bf16)
    (w0s : Vec Ideal S256x256 .bf16) (w0a : Vec Ideal S128x256 .bf16) (wagg1 : Vec Ideal S256x128 .bf16)
    (s2 : Vec Ideal S128x1280 .bf16) (w1s : Vec Ideal S256x256 .f32) (w1a : Vec Ideal S128x256 .f32)
    (wcls : Vec Ideal S256x50 .f32)
    (X0 : Fin 1024 → Fin 256 → EReal) (X1r : Fin 10240 → Fin 256 → EReal) (X2r : Fin 256000 → Fin 256 → EReal)
    (Wagg0 : Fin 256 → Fin 128 → EReal) (W0s : Fin 256 → Fin 256 → EReal) (W0a : Fin 128 → Fin 256 → EReal)
    (Wagg1 : Fin 256 → Fin 128 → EReal) (W1s : Fin 256 → Fin 256 → EReal) (W1a : Fin 128 → Fin 256 → EReal)
    (Wcls : Fin 256 → Fin 50 → EReal)
    (h0 : ∀ (p : Fin 128) (f : Fin 256),
      x0c (ix2 p f) = X0 ⟨128 * k.val + p.val, by have := k.isLt; have := p.isLt; omega⟩ f)
    (h1 : ∀ (r : Fin 1280) (f : Fin 256),
      x1c (ix2 r f) = X1r ⟨1280 * k.val + r.val, by have := k.isLt; have := r.isLt; omega⟩ f)
    (ha : ∀ (r : Fin 1280) (a : Fin 128),
      a0c (ix2 r a) = Cert.Spec.kAgg0 X2r Wagg0 (((1 / 25 : ℝ)) : EReal)
        ⟨1280 * k.val + r.val, by have := k.isLt; have := r.isLt; omega⟩ a)
    (hs2 : ∀ (p : Fin 128) (r : Fin 1280), s2 (ix2 p r) = if r.val / 10 = p.val then 1 else 0)
    (hw0s : ∀ f o, w0s (ix2 f o) = W0s f o) (hw0a : ∀ a o, w0a (ix2 a o) = W0a a o)
    (hwagg1 : ∀ o a, wagg1 (ix2 o a) = Wagg1 o a)
    (hw1s : ∀ f o, w1s (ix2 f o) = W1s f o) (hw1a : ∀ a o, w1a (ix2 a o) = W1a a o)
    (hwcls : ∀ o l, wcls (ix2 o l) = Wcls o l)
    (p : Fin 128) (l : Fin 50) :
    chunk x0c x1c a0c w0s w0a wagg1 s2 w1s w1a wcls (ix2 p l)
      = Cert.Spec.kOut X0 X1r X2r Wagg0 W0s W0a Wagg1 W1s W1a Wcls (((1 / 25 : ℝ)) : EReal) (((1 / 10 : ℝ)) : EReal)
          ⟨128 * k.val + p.val, by have := k.isLt; have := p.isLt; omega⟩ l := by
  have hk := k.isLt
  have hp := p.isLt
  rw [chunk_apply]
  unfold Cert.Spec.kOut
  -- the classifier's sum and the two normalisations are the same functions of the root's row
  refine congrArg₂ max (Finset.sum_congr rfl fun o _ => congrArg₂ (· * ·)
    (congrFun (congrArg Cert.Spec.l2n (congrArg Cert.Spec.l2n ?_)) o) (hwcls o l)) rfl
  funext o
  unfold Cert.Spec.kH0p
  refine congrArg₂ (· + ·) (Finset.sum_congr rfl fun f _ => by rw [h0, hw1s])
    (Finset.sum_congr rfl fun a _ => congrArg₂ (· * ·) ?_ (hw1a a o))
  -- the mean over the root's ten neighbours
  unfold Cert.Spec.kAgg1
  refine congrArg (· * (((1 / 10 : ℝ)) : EReal)) ?_
  calc _ = ∑ r : Fin 1280, (if r.val / 10 = p.val then (1 : EReal) else 0)
            * Cert.Spec.kG1 X1r X2r Wagg0 W0s W0a Wagg1 (((1 / 25 : ℝ)) : EReal)
                ⟨1280 * k.val + r.val, by have := r.isLt; omega⟩ a :=
        Finset.sum_congr rfl fun r _ => congrArg₂ (· * ·) (hs2 p r) (by
          -- a one-hop row of the chunk: relu(h1 · Wagg1) of the flattened array's row 1280·k + r
          unfold Cert.Spec.kG1 Cert.Spec.kH1
          refine congrArg₂ max (Finset.sum_congr rfl fun o' _ => congrArg₂ (· * ·)
            (congrFun (congrArg Cert.Spec.l2n ?_) o') (hwagg1 o' a)) rfl
          funext o''
          unfold Cert.Spec.kH1p
          simp only [h1, ha, hw0s, hw0a])
    _ = ∑ n : Fin 10, Cert.Spec.kG1 X1r X2r Wagg0 W0s W0a Wagg1 (((1 / 25 : ℝ)) : EReal)
            ⟨1280 * k.val + (10 * p.val + n.val), by have := n.isLt; omega⟩ a :=
        Cert.Spec.group_sum10 (fun r : Fin 1280 => Cert.Spec.kG1 X1r X2r Wagg0 W0s W0a Wagg1 (((1 / 25 : ℝ)) : EReal)
          ⟨1280 * k.val + r.val, by have := r.isLt; omega⟩ a) p
    _ = _ := Finset.sum_congr rfl fun n _ => by
        -- 1280·k + (10·p + n) = 10·(128·k + p) + n
        refine congrArg (fun q => Cert.Spec.kG1 X1r X2r Wagg0 W0s W0a Wagg1 (((1 / 25 : ℝ)) : EReal) q a) (Fin.ext ?_)
        show 1280 * k.val + (10 * p.val + n.val) = 10 * (128 * k.val + p.val) + n.val
        omega

end Cert.KernelIdeal.ChunkValue

end
-- ==== Proof.ScratchValue.lean ====
/-
  The scratch, once every step has written its slice, is the flattened reading's agg0, row by row.

  Step t reads rows 8000·t … 8000·t + 7999 of the flattened two-hop array; every other operand's block is its whole
  array at every step. Row q of the scratch is row q % 320 of step q / 320's slice: the membership row of group q % 320
  against relu(x2 · Wagg0) of the step's rows, times 1/25. The membership row keeps the 25 rows 25·(q % 320) + j of
  the step, which are rows 25·q + j of the array.
-/
import proofs.«122449_g16870631539387_cont_7to1_909_9_alg».proof.Proof.BodyScratch
import proofs.«122449_g16870631539387_cont_7to1_909_9_alg».proof.Proof.BodyValue
import proofs.«122449_g16870631539387_cont_7to1_909_9_alg».proof.Proof.Spec
import proofs.«122449_g16870631539387_cont_7to1_909_9_alg».proof.Proof.SpecJoin
import proofs.«122449_g16870631539387_cont_7to1_909_9_alg».proof.Proof.Gen.KernelIdeal.Frame

set_option maxRecDepth 16384

noncomputable section

open Cert.KernelIdeal Cert.KernelIdeal.Gen Idealize.ShloMosaic Idealize.ShloMosaic.ValueIdx
open Idealize.ShloMosaic.TcCoe
open scoped BigOperators

namespace Cert.KernelIdeal.ScratchValue

variable (m : (ℓ : Loc nD τ sig) → Buf (Elt Ideal) ℓ) (c : Dev nD)

/-! ## Each window's block, read off its array -/

/-- The index maps over the grid: window 2 moves one block of rows per step, every other input window stays at its
    one block. -/
theorem idx_facts : ∀ t : Fin cfg0.N,
    (win0_2.index t (0 : Fin 2) = t.val ∧ win0_2.index t (1 : Fin 2) = 0)
    ∧ (win0_0.index t (0 : Fin 2) = 0 ∧ win0_0.index t (1 : Fin 2) = 0)
    ∧ (win0_1.index t (0 : Fin 2) = 0 ∧ win0_1.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- There are 32 steps. -/
theorem step_lt (t : Fin cfg0.N) : t.val < 32 := by
  have h := t.isLt
  have e : cfg0.N = 32 := N_0
  omega

/-- Step t's block of the two-hop rows is rows 8000·t … 8000·t + 7999 of the flattened array. -/
theorem iblk2_apply (t : Fin cfg0.N) (r : Fin 8000) (f : Fin 256) :
    (iblk m c 2 t : Vec Ideal S8000x256 .f32) (ix2 r f)
      = (V m c main_v6 : S256000x256.Idx → EReal)
          (ix2 ⟨8000 * t.val + r.val, by have := step_lt t; have := r.isLt; omega⟩ f) := by
  have hi := (idx_facts t).1
  unfold iblk
  rw [View.read_apply]
  show V m c main_v6 _ = V m c main_v6 _
  congr 1
  funext a
  apply Fin.ext
  match a with
  | ⟨0, _⟩ => show win0_2.index t (0 : Fin 2) * 8000 + 1 * r.val = 8000 * t.val + r.val; rw [hi.1]; omega
  | ⟨1, _⟩ => show win0_2.index t (1 : Fin 2) * 256 + 1 * f.val = f.val; rw [hi.2]; omega

/-- Window 0's block is its whole array at every step. -/
theorem iblk0_apply (t : Fin cfg0.N) (y : S1024x256.Idx) :
    (iblk m c 0 t : Vec Ideal S1024x256 .f32) y = (V m c main_arg0 : S1024x256.Idx → EReal) y := by
  have hi := (idx_facts t).2.1
  unfold iblk
  rw [View.read_apply]
  show V m c main_arg0 _ = V m c main_arg0 _
  congr 1
  funext a
  apply Fin.ext
  match a with
  | ⟨0, _⟩ => show win0_0.index t (0 : Fin 2) * 1024 + 1 * (y 0).val = (y 0).val; rw [hi.1]; omega
  | ⟨1, _⟩ => show win0_0.index t (1 : Fin 2) * 256 + 1 * (y 1).val = (y 1).val; rw [hi.2]; omega

/-- Window 1's block is its whole array at every step. -/
theorem iblk1_apply (t : Fin cfg0.N) (y : S10240x256.Idx) :
    (iblk m c 1 t : Vec Ideal S10240x256 .f32) y = (V m c main_v7 : S10240x256.Idx → EReal) y := by
  have hi := (idx_facts t).2.2.1
  unfold iblk
  rw [View.read_apply]
  show V m c main_v7 _ = V m c main_v7 _
  congr 1
  funext a
  apply Fin.ext
  match a with
  | ⟨0, _⟩ => show win0_1.index t (0 : Fin 2) * 10240 + 1 * (y 0).val = (y 0).val; rw [hi.1]; omega
  | ⟨1, _⟩ => show win0_1.index t (1 : Fin 2) * 256 + 1 * (y 1).val = (y 1).val; rw [hi.2]; omega

/-- Window 3's block is its whole array at every step. -/
theorem iblk3_apply (t : Fin cfg0.N) (y : S320x8000.Idx) :
    (iblk m c 3 t : Vec Ideal S320x8000 .bf16) y = (V m c main_v16 : S320x8000.Idx → EReal) y := by
  have hi := (idx_facts t).2.2.2.1
  unfold iblk
  rw [View.read_apply]
  show V m c main_v16 _ = V m c main_v16 _
  congr 1
  funext a
  apply Fin.ext
  match a with
  | ⟨0, _⟩ => show win0_3.index t (0 : Fin 2) * 320 + 1 * (y 0).val = (y 0).val; rw [hi.1]; omega
  | ⟨1, _⟩ => show win0_3.index t (1 : Fin 2) * 8000 + 1 * (y 1).val = (y 1).val; rw [hi.2]; omega

/-- Window 4's block is its whole array at every step. -/
theorem iblk4_apply (t : Fin cfg0.N) (y : S128x1280.Idx) :
    (iblk m c 4 t : Vec Ideal S128x1280 .bf16) y = (V m c main_v25 : S128x1280.Idx → EReal) y := by
  have hi := (idx_facts t).2.2.2.2.1
  unfold iblk
  rw [View.read_apply]
  show V m c main_v25 _ = V m c main_v25 _
  congr 1
  funext a
  apply Fin.ext
  match a with
  | ⟨0, _⟩ => show win0_4.index t (0 : Fin 2) * 128 + 1 * (y 0).val = (y 0).val; rw [hi.1]; omega
  | ⟨1, _⟩ => show win0_4.index t (1 : Fin 2) * 1280 + 1 * (y 1).val = (y 1).val; rw [hi.2]; omega

/-- Window 5's block is its whole array at every step. -/
theorem iblk5_apply (t : Fin cfg0.N) (y : S256x128.Idx) :
    (iblk m c 5 t : Vec Ideal S256x128 .bf16) y = (V m c main_v26 : S256x128.Idx → EReal) y := by
  have hi := (idx_facts t).2.2.2.2.2.1
  unfold iblk
  rw [View.read_apply]
  show V m c main_v26 _ = V m c main_v26 _
  congr 1
  funext a
  apply Fin.ext
  match a with
  | ⟨0, _⟩ => show win0_5.index t (0 : Fin 2) * 256 + 1 * (y 0).val = (y 0).val; rw [hi.1]; omega
  | ⟨1, _⟩ => show win0_5.index t (1 : Fin 2) * 128 + 1 * (y 1).val = (y 1).val; rw [hi.2]; omega

/-- Window 6's block is its whole array at every step. -/
theorem iblk6_apply (t : Fin cfg0.N) (y : S256x256.Idx) :
    (iblk m c 6 t : Vec Ideal S256x256 .bf16) y = (V m c main_v1 : S256x256.Idx → EReal) y := by
  have hi := (idx_facts t).2.2.2.2.2.2.1
  unfold iblk
  rw [View.read_apply]
  show V m c main_v1 _ = V m c main_v1 _
  congr 1
  funext a
  apply Fin.ext
  match a with
  | ⟨0, _⟩ => show win0_6.index t (0 : Fin 2) * 256 + 1 * (y 0).val = (y 0).val; rw [hi.1]; omega
  | ⟨1, _⟩ => show win0_6.index t (1 : Fin 2) * 256 + 1 * (y 1).val = (y 1).val; rw [hi.2]; omega

/-- Window 7's block is its whole array at every step. -/
theorem iblk7_apply (t : Fin cfg0.N) (y : S128x256.Idx) :
    (iblk m c 7 t : Vec Ideal S128x256 .bf16) y = (V m c main_v3 : S128x256.Idx → EReal) y := by
  have hi := (idx_facts t).2.2.2.2.2.2.2.1
  unfold iblk
  rw [View.read_apply]
  show V m c main_v3 _ = V m c main_v3 _
  congr 1
  funext a
  apply Fin.ext
  match a with
  | ⟨0, _⟩ => show win0_7.index t (0 : Fin 2) * 128 + 1 * (y 0).val = (y 0).val; rw [hi.1]; omega
  | ⟨1, _⟩ => show win0_7.index t (1 : Fin 2) * 256 + 1 * (y 1).val = (y 1).val; rw [hi.2]; omega

/-- Window 8's block is its whole array at every step. -/
theorem iblk8_apply (t : Fin cfg0.N) (y : S256x128.Idx) :
    (iblk m c 8 t : Vec Ideal S256x128 .bf16) y = (V m c main_v27 : S256x128.Idx → EReal) y := by
  have hi := (idx_facts t).2.2.2.2.2.2.2.2.1
  unfold iblk
  rw [View.read_apply]
  show V m c main_v27 _ = V m c main_v27 _
  congr 1
  funext a
  apply Fin.ext
  match a with
  | ⟨0, _⟩ => show win0_8.index t (0 : Fin 2) * 256 + 1 * (y 0).val = (y 0).val; rw [hi.1]; omega
  | ⟨1, _⟩ => show win0_8.index t (1 : Fin 2) * 128 + 1 * (y 1).val = (y 1).val; rw [hi.2]; omega

/-- Window 9's block is its whole array at every step. -/
theorem iblk9_apply (t : Fin cfg0.N) (y : S256x256.Idx) :
    (iblk m c 9 t : Vec Ideal S256x256 .f32) y = (V m c main_v4 : S256x256.Idx → EReal) y := by
  have hi := (idx_facts t).2.2.2.2.2.2.2.2.2.1
  unfold iblk
  rw [View.read_apply]
  show V m c main_v4 _ = V m c main_v4 _
  congr 1
  funext a
  apply Fin.ext
  match a with
  | ⟨0, _⟩ => show win0_9.index t (0 : Fin 2) * 256 + 1 * (y 0).val = (y 0).val; rw [hi.1]; omega
  | ⟨1, _⟩ => show win0_9.index t (1 : Fin 2) * 256 + 1 * (y 1).val = (y 1).val; rw [hi.2]; omega

/-- Window 10's block is its whole array at every step. -/
theorem iblk10_apply (t : Fin cfg0.N) (y : S128x256.Idx) :
    (iblk m c 10 t : Vec Ideal S128x256 .f32) y = (V m c main_v5 : S128x256.Idx → EReal) y := by
  have hi := (idx_facts t).2.2.2.2.2.2.2.2.2.2.1
  unfold iblk
  rw [View.read_apply]
  show V m c main_v5 _ = V m c main_v5 _
  congr 1
  funext a
  apply Fin.ext
  match a with
  | ⟨0, _⟩ => show win0_10.index t (0 : Fin 2) * 128 + 1 * (y 0).val = (y 0).val; rw [hi.1]; omega
  | ⟨1, _⟩ => show win0_10.index t (1 : Fin 2) * 256 + 1 * (y 1).val = (y 1).val; rw [hi.2]; omega

/-- Window 11's block is its whole array at every step. -/
theorem iblk11_apply (t : Fin cfg0.N) (y : S256x50.Idx) :
    (iblk m c 11 t : Vec Ideal S256x50 .f32) y = (V m c main_arg7 : S256x50.Idx → EReal) y := by
  have hi := (idx_facts t).2.2.2.2.2.2.2.2.2.2.2
  unfold iblk
  rw [View.read_apply]
  show V m c main_arg7 _ = V m c main_arg7 _
  congr 1
  funext a
  apply Fin.ext
  match a with
  | ⟨0, _⟩ => show win0_11.index t (0 : Fin 2) * 256 + 1 * (y 0).val = (y 0).val; rw [hi.1]; omega
  | ⟨1, _⟩ => show win0_11.index t (1 : Fin 2) * 50 + 1 * (y 1).val = (y 1).val; rw [hi.2]; omega

/-! The same as equations between functions. -/

theorem iblk0_eq (t : Fin cfg0.N) : (iblk m c 0 t : Vec Ideal S1024x256 .f32) = (V m c main_arg0 : S1024x256.Idx → EReal) :=
  funext (iblk0_apply m c t)

theorem iblk1_eq (t : Fin cfg0.N) : (iblk m c 1 t : Vec Ideal S10240x256 .f32) = (V m c main_v7 : S10240x256.Idx → EReal) :=
  funext (iblk1_apply m c t)

theorem iblk3_eq (t : Fin cfg0.N) : (iblk m c 3 t : Vec Ideal S320x8000 .bf16) = (V m c main_v16 : S320x8000.Idx → EReal) :=
  funext (iblk3_apply m c t)

theorem iblk4_eq (t : Fin cfg0.N) : (iblk m c 4 t : Vec Ideal S128x1280 .bf16) = (V m c main_v25 : S128x1280.Idx → EReal) :=
  funext (iblk4_apply m c t)

theorem iblk5_eq (t : Fin cfg0.N) : (iblk m c 5 t : Vec Ideal S256x128 .bf16) = (V m c main_v26 : S256x128.Idx → EReal) :=
  funext (iblk5_apply m c t)

theorem iblk6_eq (t : Fin cfg0.N) : (iblk m c 6 t : Vec Ideal S256x256 .bf16) = (V m c main_v1 : S256x256.Idx → EReal) :=
  funext (iblk6_apply m c t)

theorem iblk7_eq (t : Fin cfg0.N) : (iblk m c 7 t : Vec Ideal S128x256 .bf16) = (V m c main_v3 : S128x256.Idx → EReal) :=
  funext (iblk7_apply m c t)

theorem iblk8_eq (t : Fin cfg0.N) : (iblk m c 8 t : Vec Ideal S256x128 .bf16) = (V m c main_v27 : S256x128.Idx → EReal) :=
  funext (iblk8_apply m c t)

theorem iblk9_eq (t : Fin cfg0.N) : (iblk m c 9 t : Vec Ideal S256x256 .f32) = (V m c main_v4 : S256x256.Idx → EReal) :=
  funext (iblk9_apply m c t)

theorem iblk10_eq (t : Fin cfg0.N) : (iblk m c 10 t : Vec Ideal S128x256 .f32) = (V m c main_v5 : S128x256.Idx → EReal) :=
  funext (iblk10_apply m c t)

theorem iblk11_eq (t : Fin cfg0.N) : (iblk m c 11 t : Vec Ideal S256x50 .f32) = (V m c main_arg7 : S256x50.Idx → EReal) :=
  funext (iblk11_apply m c t)

/-! ## A step's slice over the arrays -/

/-- A slice whose operands are rows 8000·t … of X, the weights W and the membership of r in group r / 25: row g is the mean
    of relu(X · W) over rows 25·(320·t + g) + j of X. -/
theorem slice_row (v0 : Vec Ideal S8000x256 .f32) (v3 : Vec Ideal S256x128 .bf16) (v8 : Vec Ideal S320x8000 .bf16)
    (X : Fin 256000 → Fin 256 → EReal) (W : Fin 256 → Fin 128 → EReal) (t : ℕ) (ht : t < 32)
    (h0 : ∀ (r : Fin 8000) (f : Fin 256), v0 (ix2 r f) = X ⟨8000 * t + r.val, by have := r.isLt; omega⟩ f)
    (h3 : ∀ (f : Fin 256) (a : Fin 128), v3 (ix2 f a) = W f a)
    (h8 : ∀ (g : Fin 320) (r : Fin 8000), v8 (ix2 g r) = if r.val / 25 = g.val then 1 else 0)
    (g : Fin 320) (a : Fin 128) :
    k0_pay1 (F := Ideal) v0 v3 v8 (ix2 g a)
      = (∑ j : Fin 25, max (∑ f : Fin 256, X ⟨25 * (320 * t + g.val) + j.val, by have := g.isLt; have := j.isLt; omega⟩ f * W f a) 0)
          * ((1 / 25 : ℝ) : EReal) := by
  rw [BodyValue.slice_apply]
  simp only [h0, h3, h8]
  rw [Cert.Spec.group_sum25 (fun r => max (∑ f : Fin 256, X ⟨8000 * t + r.val, by have := r.isLt; omega⟩ f * W f a) 0) g]
  refine congrArg (· * _) (Finset.sum_congr rfl fun j _ => ?_)
  have key : ∀ R R' : Fin 256000, R = R' → max (∑ f : Fin 256, X R f * W f a) 0 = max (∑ f : Fin 256, X R' f * W f a) 0 :=
    fun _ _ h => h ▸ rfl
  exact key _ _ (Fin.ext (by show 8000 * t + (25 * g.val + j.val) = 25 * (320 * t + g.val) + j.val; omega))

/-- The flattened reading's agg0 at row q = 320·(q / 320) + q % 320. -/
theorem kAgg0_rows (X : Fin 256000 → Fin 256 → EReal) (W : Fin 256 → Fin 128 → EReal) (c25 : EReal) (q : Fin 10240) (a : Fin 128) :
    (∑ j : Fin 25, max (∑ f : Fin 256,
        X ⟨25 * (320 * (q.val / 320) + q.val % 320) + j.val, by have := q.isLt; have := j.isLt; omega⟩ f * W f a) 0) * c25
      = Cert.Spec.kAgg0 X W c25 q a := by
  unfold Cert.Spec.kAgg0 Cert.Spec.kT
  refine congrArg (· * c25) (Finset.sum_congr rfl fun j _ => ?_)
  have key : ∀ R R' : Fin 256000, R = R' → max (∑ f : Fin 256, X R f * W f a) 0 = max (∑ f : Fin 256, X R' f * W f a) 0 :=
    fun _ _ h => h ▸ rfl
  exact key _ _ (Fin.ext (by show 25 * (320 * (q.val / 320) + q.val % 320) + j.val = 25 * q.val + j.val; omega))

/-! ## The scratch is agg0 -/

/-- Row q of the complete scratch is the mean over rows 25·q … 25·q + 24 of relu(x2 · Wagg0), given that the membership
    matrix is the indicator of r / 25 = g. -/
theorem aggFull_apply
    (hS1 : ∀ (g : Fin 320) (r : Fin 8000),
      (V m c main_v16 : S320x8000.Idx → EReal) (ix2 g r) = if r.val / 25 = g.val then (1 : EReal) else 0)
    (q : Fin 10240) (a : Fin 128) :
    Cert.KernelIdeal.Body.aggFull (F := Ideal) m c (ix2 q a)
      = Cert.Spec.kAgg0 (fun R f => (V m c main_v6 : S256000x256.Idx → EReal) (ix2 R f))
          (fun f a => (V m c main_v26 : S256x128.Idx → EReal) (ix2 f a)) (((1 / 25 : ℝ)) : EReal) q a := by
  have hq := q.isLt
  unfold Cert.KernelIdeal.Body.aggFull
  refine (slice_row _ _ _ (fun R f => (V m c main_v6 : S256000x256.Idx → EReal) (ix2 R f))
    (fun f a => (V m c main_v26 : S256x128.Idx → EReal) (ix2 f a)) (q.val / 320) (by omega) ?_ ?_ ?_ _ _).trans ?_
  · intro r f
    exact iblk2_apply m c _ r f
  · intro f a
    exact iblk5_apply m c _ (ix2 f a)
  · intro g r
    exact (iblk3_apply m c _ (ix2 g r)).trans (hS1 g r)
  · exact kAgg0_rows (fun R f => (V m c main_v6 : S256000x256.Idx → EReal) (ix2 R f))
      (fun f a => (V m c main_v26 : S256x128.Idx → EReal) (ix2 f a)) _ q a

end Cert.KernelIdeal.ScratchValue

end
-- ==== Proof.OutValue.lean ====
/-
  The result block after the run is the flattened reading of the specification.

  The last step's tail stores eight pieces into the [1024, 50] result block, piece k being rows 128·k … 128·k + 127.
  Piece k's payload is the chunk function of rows 128·k … of x0, rows 1280·k … of x1 and of the scratch as it stands
  after the step's own slice is stored, and of the whole weight and membership blocks.  The pieces are tiles that the
  row axis keeps apart, so entry (128·k + p, l) of the block reads piece k's payload at (p, l).  A load of rows
  o … o + n − 1 of a buffer holding X reads X at row o + r.  At the last step the scratch already holds its final
  values on the rows of the 31 earlier steps and the step's own slice completes it, so the rows read are the final
  scratch's, which are the flattened reading's two-hop means; the other blocks are the arrays themselves.  With these
  the chunk is the flattened reading's result on its 128 roots.
-/
import proofs.«122449_g16870631539387_cont_7to1_909_9_alg».proof.Proof.BodyData
import proofs.«122449_g16870631539387_cont_7to1_909_9_alg».proof.Proof.BodyValue
import proofs.«122449_g16870631539387_cont_7to1_909_9_alg».proof.Proof.ChunkValue
import proofs.«122449_g16870631539387_cont_7to1_909_9_alg».proof.Proof.ScratchValue
import Idealize.ShloMosaic.Lib.WritesUnit

set_option maxRecDepth 16384
set_option synthInstance.maxSize 4096

noncomputable section

namespace Cert.KernelIdeal.OutValue

open Cert.KernelIdeal Cert.KernelIdeal.Gen Cert.KernelIdeal.Body Cert.KernelIdeal.BodyValue
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open scoped BigOperators

/-! ## A load of whole rows -/

/-- A load of rows o … o + n − 1 (every column) of a buffer holding X reads X at row o + r. -/
theorem ld_rows_apply {Val : EltTy → Type} {e : EltTy} {A B n : ℕ} (X : (⟨2, ![A, B]⟩ : Shape).Idx → Val e) (o : ℕ)
    (inb : ∀ a : Fin 2, (![o, 0] : Fin 2 → ℕ) a + (![n, B] : Fin 2 → ℕ) a ≤ (⟨2, ![A, B]⟩ : Shape).size a)
    (r : Fin n) (f : Fin B) (h : o + r.val < A) :
    View.ld X (Rect.unit (s := ⟨2, ![A, B]⟩) ![o, 0] ![n, B] inb) (ix2 r f) = X (ix2 ⟨o + r.val, h⟩ f) := by
  show X _ = X _
  congr 1
  funext a
  apply Fin.ext
  match a with
  | ⟨0, _⟩ => show o + 1 * r.val = o + r.val; omega
  | ⟨1, _⟩ => show 0 + 1 * f.val = f.val; omega

/-! ## The eight pieces of the last step -/

theorem inb_x0 (k : Fin 8) :
    ∀ a : Fin 2, (![128 * k.val, 0] : Fin 2 → ℕ) a + (![128, 256] : Fin 2 → ℕ) a ≤ S1024x256.size a :=
  Fin.forall_fin_two.mpr ⟨by show 128 * k.val + 128 ≤ 1024; have := k.isLt; omega, by show 0 + 256 ≤ 256; omega⟩

theorem inb_x1 (k : Fin 8) :
    ∀ a : Fin 2, (![1280 * k.val, 0] : Fin 2 → ℕ) a + (![1280, 256] : Fin 2 → ℕ) a ≤ S10240x256.size a :=
  Fin.forall_fin_two.mpr ⟨by show 1280 * k.val + 1280 ≤ 10240; have := k.isLt; omega, by show 0 + 256 ≤ 256; omega⟩

theorem inb_sc (k : Fin 8) :
    ∀ a : Fin 2, (![1280 * k.val, 0] : Fin 2 → ℕ) a + (![1280, 128] : Fin 2 → ℕ) a ≤ S10240x128.size a :=
  Fin.forall_fin_two.mpr ⟨by show 1280 * k.val + 1280 ≤ 10240; have := k.isLt; omega, by show 0 + 128 ≤ 128; omega⟩

theorem inb_out (k : Fin 8) :
    ∀ a : Fin S1024x50.rank, (![128 * k.val, 0] : Fin 2 → ℕ) a + (![128, 50] : Fin 2 → ℕ) a ≤ S1024x50.size a :=
  Fin.forall_fin_two.mpr ⟨by show 128 * k.val + 128 ≤ 1024; have := k.isLt; omega, by show 0 + 50 ≤ 50; omega⟩

/-- Piece k's payload: the chunk function of rows 128·k … of x0, rows 1280·k … of x1 and of the scratch contents S,
    and of the whole weight and membership blocks. -/
def chunkAt (x0 : Vec Ideal S1024x256 .f32) (x1 : Vec Ideal S10240x256 .f32) (S : Vec Ideal S10240x128 .bf16)
    (x4 : Vec Ideal S128x1280 .bf16) (x6 : Vec Ideal S256x256 .bf16) (x7 : Vec Ideal S128x256 .bf16)
    (x8 : Vec Ideal S256x128 .bf16) (x9 : Vec Ideal S256x256 .f32) (x10 : Vec Ideal S128x256 .f32)
    (x11 : Vec Ideal S256x50 .f32) (k : Fin 8) : (⟨S1024x50.rank, ![128, 50]⟩ : Shape).Idx → Elt Ideal .f32 :=
  chunk (View.ld x0 (Rect.unit (s := S1024x256) ![128 * k.val, 0] ![128, 256] (inb_x0 k)))
    (View.ld x1 (Rect.unit (s := S10240x256) ![1280 * k.val, 0] ![1280, 256] (inb_x1 k)))
    (View.ld S (Rect.unit (s := S10240x128) ![1280 * k.val, 0] ![1280, 128] (inb_sc k)))
    x6 x7 x8 x4 x9 x10 x11

set_option maxHeartbeats 2000000 in
/-- The eight pieces the last step stores into the result block are the tiles of 128 rows at rows 128·k, tile k
    holding the chunk function of the chunk's rows; the scratch rows are read after the step's own slice is stored. -/
theorem pieces_eq (c : Dev nD) (i : grid0.Coords) (arg1 : Memref sig .tc .vmem S1024x256 .f32) (harg1 : arg1.IsWhole) (arg2 : Memref sig .tc .vmem S10240x256 .f32) (harg2 : arg2.IsWhole) (arg3 : Memref sig .tc .vmem S8000x256 .f32) (harg3 : arg3.IsWhole) (arg4 : Memref sig .tc .vmem S320x8000 .bf16) (harg4 : arg4.IsWhole) (arg5 : Memref sig .tc .vmem S128x1280 .bf16) (harg5 : arg5.IsWhole) (arg6 : Memref sig .tc .vmem S256x128 .bf16) (harg6 : arg6.IsWhole) (arg7 : Memref sig .tc .vmem S256x256 .bf16) (harg7 : arg7.IsWhole) (arg8 : Memref sig .tc .vmem S128x256 .bf16) (harg8 : arg8.IsWhole) (arg9 : Memref sig .tc .vmem S256x128 .bf16) (harg9 : arg9.IsWhole) (arg10 : Memref sig .tc .vmem S256x256 .f32) (harg10 : arg10.IsWhole) (arg11 : Memref sig .tc .vmem S128x256 .f32) (harg11 : arg11.IsWhole) (arg12 : Memref sig .tc .vmem S256x50 .f32) (harg12 : arg12.IsWhole) (arg13 : Memref sig .tc .vmem S1024x50 .f32) (harg13 : arg13.IsWhole) (arg14 : Memref sig .tc .vmem S10240x128 .bf16) (harg14 : arg14.IsWhole) (hc0 : lastStep i)
    (x0 : Vec Ideal S1024x256 .f32) (x1 : Vec Ideal S10240x256 .f32) (x2 : Vec Ideal S8000x256 .f32) (x3 : Vec Ideal S320x8000 .bf16) (x4 : Vec Ideal S128x1280 .bf16) (x5 : Vec Ideal S256x128 .bf16) (x6 : Vec Ideal S256x256 .bf16) (x7 : Vec Ideal S128x256 .bf16) (x8 : Vec Ideal S256x128 .bf16) (x9 : Vec Ideal S256x256 .f32) (x10 : Vec Ideal S128x256 .f32) (x11 : Vec Ideal S256x50 .f32) (xs : Vec Ideal S10240x128 .bf16) :
    (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs).1
      = View.tilePieces (s := S1024x50) (Val := Elt Ideal) (e := .f32) ![128, 50] (fun k : Fin 8 => ![128 * k.val, 0]) inb_out
          (chunkAt x0 x1 (arg14.view.read (Elt Ideal) (arg14.view.writes (Elt Ideal) (harg14.unread xs)
            [slicePiece i (k0_pay1 x2 x5 x3)])) x4 x6 x7 x8 x9 x10 x11) 8 (Nat.le_refl 8) := by
  unfold runB; dsimp only
  sl_unfold_run_names
  simp only [View.readAt_eq_ld, harg1.read_unread, harg2.read_unread, harg3.read_unread, harg4.read_unread,
    harg5.read_unread, harg6.read_unread, harg7.read_unread, harg8.read_unread, harg9.read_unread,
    harg10.read_unread, harg11.read_unread, harg12.read_unread,
    View.ld_unit_zero (S := S8000x256) hz, View.ld_unit_zero (S := S256x128) hz, View.ld_unit_zero (S := S320x8000) hz,
    View.ld_unit_zero (S := S256x256) hz, View.ld_unit_zero (S := S128x256) hz, View.ld_unit_zero (S := S128x1280) hz,
    View.ld_unit_zero (S := S256x50) hz,
    chunk0_eq, chunk1_eq, chunk2_eq, chunk3_eq, chunk4_eq, chunk5_eq, chunk6_eq, chunk7_eq]
  rfl

/-- Entry (128·k + p, l) of a block into which the eight tiles were stored is tile k's payload at (p, l): on the row
    axis the index misses every other tile. -/
theorem read_tiles (P : Fin 8 → (⟨S1024x50.rank, ![128, 50]⟩ : Shape).Idx → Elt Ideal .f32) (k : Fin 8) (p : Fin 128)
    (l : Fin 50) :
    VO.read (Elt Ideal) (VO.writes (Elt Ideal) VO.junk
        (View.tilePieces (s := S1024x50) (Val := Elt Ideal) (e := .f32) ![128, 50] (fun k : Fin 8 => ![128 * k.val, 0])
          inb_out P 8 (Nat.le_refl 8)))
        (ix2 ⟨128 * k.val + p.val, by have := k.isLt; have := p.isLt; omega⟩ l)
      = P k (ix2 p l) :=
  View.read_tilePieces VO VO.junk ![128, 50] (fun k : Fin 8 => ![128 * k.val, 0]) inb_out P 8 (Nat.le_refl 8) _ k k.isLt
    (ix2 p l) (Fin.forall_fin_two.mpr ⟨rfl, by show l.val = 0 + l.val; omega⟩) (0 : Fin 2) (fun k' hk' => by
      have hne : k'.val ≠ k.val := fun h => hk' (Fin.ext h)
      have hp := p.isLt
      show 128 * k.val + p.val < 128 * k'.val ∨ 128 * k'.val + 128 ≤ 128 * k.val + p.val
      omega)

/-! ## The result block, entry by entry -/

section Final

variable (m : (ℓ : Loc nD τ sig) → Buf (Elt Ideal) ℓ) (c : Dev nD)

/-- The scratch as the last step's tail reads it: the complete scratch with the step's own slice stored over it. -/
abbrev scLast : Vec Ideal S10240x128 .bf16 :=
  scM.view.read (Elt Ideal) (scM.view.writes (Elt Ideal) ((Memref.isWhole_whole cc0_scratch0).unread (aggFull m c))
    [slicePiece (grid0.coords tLast) (k0_pay1 (iblk m c 2 tLast) (iblk m c 5 tLast) (iblk m c 3 tLast))])

/-- Storing step 31's slice over the complete scratch changes nothing: every row is a row of one of the 32 steps. -/
theorem scLast_apply (y : S10240x128.Idx) : scLast m c y = aggFull m c y := by
  have h := agrees_step m c tLast (aggFull m c) (fun y _ => rfl) y
  have h0 := idx2_lt0 y
  exact h (by show (y 0).val < 320 * (31 + 1); omega)

/-- Entry (b, l) of the result block is the flattened reading's result, given the blocks the last step finds in its
    buffers (each input's block is its array; the scratch's final rows are the flattened reading's two-hop means) and
    the second membership matrix. -/
theorem outFinal_apply_of
    (hb0 : ∀ y : S1024x256.Idx, (iblk m c 0 tLast : Vec Ideal S1024x256 .f32) y = (V m c main_arg0 : S1024x256.Idx → EReal) y)
    (hb1 : ∀ y : S10240x256.Idx, (iblk m c 1 tLast : Vec Ideal S10240x256 .f32) y = (V m c main_v7 : S10240x256.Idx → EReal) y)
    (hb4 : ∀ y : S128x1280.Idx, (iblk m c 4 tLast : Vec Ideal S128x1280 .bf16) y = (V m c main_v25 : S128x1280.Idx → EReal) y)
    (hb6 : ∀ y : S256x256.Idx, (iblk m c 6 tLast : Vec Ideal S256x256 .bf16) y = (V m c main_v1 : S256x256.Idx → EReal) y)
    (hb7 : ∀ y : S128x256.Idx, (iblk m c 7 tLast : Vec Ideal S128x256 .bf16) y = (V m c main_v3 : S128x256.Idx → EReal) y)
    (hb8 : ∀ y : S256x128.Idx, (iblk m c 8 tLast : Vec Ideal S256x128 .bf16) y = (V m c main_v27 : S256x128.Idx → EReal) y)
    (hb9 : ∀ y : S256x256.Idx, (iblk m c 9 tLast : Vec Ideal S256x256 .f32) y = (V m c main_v4 : S256x256.Idx → EReal) y)
    (hb10 : ∀ y : S128x256.Idx, (iblk m c 10 tLast : Vec Ideal S128x256 .f32) y = (V m c main_v5 : S128x256.Idx → EReal) y)
    (hb11 : ∀ y : S256x50.Idx, (iblk m c 11 tLast : Vec Ideal S256x50 .f32) y = (V m c main_arg7 : S256x50.Idx → EReal) y)
    (hagg : ∀ (q : Fin 10240) (a : Fin 128), aggFull (F := Ideal) m c (ix2 q a)
      = Cert.Spec.kAgg0 (fun R f => (V m c main_v6 : S256000x256.Idx → EReal) (ix2 R f))
          (fun f a => (V m c main_v26 : S256x128.Idx → EReal) (ix2 f a)) (((1 / 25 : ℝ)) : EReal) q a)
    (hS2 : ∀ (p : Fin 128) (r : Fin 1280),
      (V m c main_v25 : S128x1280.Idx → EReal) (ix2 p r) = if r.val / 10 = p.val then (1 : EReal) else 0)
    (b : Fin 1024) (l : Fin 50) :
    outFinal (F := Ideal) m c (ix2 b l)
      = Cert.Spec.kOut (fun b f => (V m c main_arg0 : S1024x256.Idx → EReal) (ix2 b f))
          (fun q f => (V m c main_v7 : S10240x256.Idx → EReal) (ix2 q f))
          (fun R f => (V m c main_v6 : S256000x256.Idx → EReal) (ix2 R f))
          (fun f a => (V m c main_v26 : S256x128.Idx → EReal) (ix2 f a))
          (fun f o => (V m c main_v1 : S256x256.Idx → EReal) (ix2 f o))
          (fun a o => (V m c main_v3 : S128x256.Idx → EReal) (ix2 a o))
          (fun o a => (V m c main_v27 : S256x128.Idx → EReal) (ix2 o a))
          (fun f o => (V m c main_v4 : S256x256.Idx → EReal) (ix2 f o))
          (fun a o => (V m c main_v5 : S128x256.Idx → EReal) (ix2 a o))
          (fun o l => (V m c main_arg7 : S256x50.Idx → EReal) (ix2 o l))
          (((1 / 25 : ℝ)) : EReal) (((1 / 10 : ℝ)) : EReal) b l := by
  obtain ⟨k, p, rfl⟩ : ∃ (k : Fin 8) (p : Fin 128),
      b = ⟨128 * k.val + p.val, by have := k.isLt; have := p.isLt; omega⟩ :=
    ⟨⟨b.val / 128, by have := b.isLt; omega⟩, ⟨b.val % 128, Nat.mod_lt _ (by norm_num)⟩,
      Fin.ext (by show b.val = 128 * (b.val / 128) + b.val % 128; omega)⟩
  have hk := k.isLt
  unfold outFinal
  rw [pieces_eq, read_tiles]
  unfold chunkAt
  refine Cert.KernelIdeal.ChunkValue.chunk_kOut k _ _ _ _ _ _ _ _ _ _ _ _ _ _ _ _ _ _ _ _ ?_ ?_ ?_ ?_ ?_ ?_ ?_ ?_ ?_ ?_ p l
  · intro p f
    exact (ld_rows_apply _ _ _ p f (by have := p.isLt; omega)).trans (hb0 _)
  · intro r f
    exact (ld_rows_apply _ _ _ r f (by have := r.isLt; omega)).trans (hb1 _)
  · intro r a
    exact (ld_rows_apply _ _ _ r a (by have := r.isLt; omega)).trans ((scLast_apply m c _).trans (hagg _ a))
  · intro p r
    exact (hb4 _).trans (hS2 p r)
  · intro f o; exact hb6 _
  · intro a o; exact hb7 _
  · intro o a; exact hb8 _
  · intro f o; exact hb9 _
  · intro a o; exact hb10 _
  · intro o l; exact hb11 _

/-- Entry (b, l) of the result block is the flattened reading's result of the arrays the region finds, given that the
    two membership matrices are the indicators of r / 25 = g and of r / 10 = p. -/
theorem outFinal_apply
    (hS1 : ∀ (g : Fin 320) (r : Fin 8000),
      (V m c main_v16 : S320x8000.Idx → EReal) (ix2 g r) = if r.val / 25 = g.val then (1 : EReal) else 0)
    (hS2 : ∀ (p : Fin 128) (r : Fin 1280),
      (V m c main_v25 : S128x1280.Idx → EReal) (ix2 p r) = if r.val / 10 = p.val then (1 : EReal) else 0)
    (b : Fin 1024) (l : Fin 50) :
    outFinal (F := Ideal) m c (ix2 b l)
      = Cert.Spec.kOut (fun b f => (V m c main_arg0 : S1024x256.Idx → EReal) (ix2 b f))
          (fun q f => (V m c main_v7 : S10240x256.Idx → EReal) (ix2 q f))
          (fun R f => (V m c main_v6 : S256000x256.Idx → EReal) (ix2 R f))
          (fun f a => (V m c main_v26 : S256x128.Idx → EReal) (ix2 f a))
          (fun f o => (V m c main_v1 : S256x256.Idx → EReal) (ix2 f o))
          (fun a o => (V m c main_v3 : S128x256.Idx → EReal) (ix2 a o))
          (fun o a => (V m c main_v27 : S256x128.Idx → EReal) (ix2 o a))
          (fun f o => (V m c main_v4 : S256x256.Idx → EReal) (ix2 f o))
          (fun a o => (V m c main_v5 : S128x256.Idx → EReal) (ix2 a o))
          (fun o l => (V m c main_arg7 : S256x50.Idx → EReal) (ix2 o l))
          (((1 / 25 : ℝ)) : EReal) (((1 / 10 : ℝ)) : EReal) b l :=
  outFinal_apply_of m c (Cert.KernelIdeal.ScratchValue.iblk0_apply m c tLast)
    (Cert.KernelIdeal.ScratchValue.iblk1_apply m c tLast) (Cert.KernelIdeal.ScratchValue.iblk4_apply m c tLast)
    (Cert.KernelIdeal.ScratchValue.iblk6_apply m c tLast) (Cert.KernelIdeal.ScratchValue.iblk7_apply m c tLast)
    (Cert.KernelIdeal.ScratchValue.iblk8_apply m c tLast) (Cert.KernelIdeal.ScratchValue.iblk9_apply m c tLast)
    (Cert.KernelIdeal.ScratchValue.iblk10_apply m c tLast) (Cert.KernelIdeal.ScratchValue.iblk11_apply m c tLast)
    (Cert.KernelIdeal.ScratchValue.aggFull_apply m c hS1) hS2 b l

end Final

end Cert.KernelIdeal.OutValue

end
-- ==== Proof.HostArrays.lean ====
/-
  The arrays the region finds, read entry by entry: what the operations before the region computed from the
  launched arguments.

  * the one-hop and two-hop features, flattened to rows q = 10·b + n and R = 250·b + 25·n + j;
  * the two aggregation weights, unchanged (a narrower format is the identity on extended reals);
  * the two combining weights, cut into their rows 0 to 255 and 256 to 383;
  * the two selector matrices, entry (g, r) being 1 where ⌊r / 25⌋ = g (resp. ⌊r / 10⌋ = g) and 0 elsewhere.
-/
import proofs.«122449_g16870631539387_cont_7to1_909_9_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostArrays

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-! ## The reshaped feature arrays -/

/-- The one-hop features as the region finds them: the launched array under a change of shape. -/
theorem v7_term : (V m c main_v7 : S10240x256.Idx → EReal)
    = shapeCast S10240x256 (m ((c : Thread nD τ).loc main_arg1) : S1024x10x256.Idx → EReal) shapeCasts_S1024x10x256_S10240x256 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results <;> rfl

/-- Row q = 10·b + n of the flattened one-hop features is node (b, n). -/
theorem v7_apply (q : Fin 10240) (f : Fin 256) :
    (V m c main_v7 : S10240x256.Idx → EReal) (ix2 q f)
      = (m ((c : Thread nD τ).loc main_arg1) : S1024x10x256.Idx → EReal)
          (ix3 ⟨q.val / 10, by have := q.isLt; omega⟩ ⟨q.val % 10, Nat.mod_lt _ (by decide)⟩ f) := by
  refine (congrFun (v7_term m c) _).trans ?_
  refine shapeCast_apply (s := S1024x10x256) (t := S10240x256) _ _ _ _ ?_
  rw [Shape.rowMajor_val_two, Shape.rowMajor_val_three]
  show (q.val / 10 * 10 + q.val % 10) * 256 + f.val = q.val * 256 + f.val
  omega

/-- The two-hop features as the region finds them: the launched array under a change of shape. -/
theorem v6_term : (V m c main_v6 : S256000x256.Idx → EReal)
    = shapeCast S256000x256 (m ((c : Thread nD τ).loc main_arg2) : S1024x10x25x256.Idx → EReal) shapeCasts_S1024x10x25x256_S256000x256 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results <;> rfl

/-- Row R = 250·b + 25·n + j of the flattened two-hop features is node (b, n, j). -/
theorem v6_apply (R : Fin 256000) (f : Fin 256) :
    (V m c main_v6 : S256000x256.Idx → EReal) (ix2 R f)
      = (m ((c : Thread nD τ).loc main_arg2) : S1024x10x25x256.Idx → EReal)
          (ix4 ⟨R.val / 250, by have := R.isLt; omega⟩ ⟨R.val / 25 % 10, Nat.mod_lt _ (by decide)⟩
            ⟨R.val % 25, Nat.mod_lt _ (by decide)⟩ f) := by
  refine (congrFun (v6_term m c) _).trans ?_
  refine shapeCast_apply (s := S1024x10x25x256) (t := S256000x256) _ _ _ _ ?_
  rw [Shape.rowMajor_val_two, Shape.rowMajor_val_four]
  show ((R.val / 250 * 10 + R.val / 25 % 10) * 25 + R.val % 25) * 256 + f.val = R.val * 256 + f.val
  omega

/-! ## The weights: narrowed formats are the identity on extended reals, row blocks are slices -/

theorem v26_term : (V m c main_v26 : FVec Ideal S256x128 .bf16)
    = (truncf .bf16 (m ((c : Thread nD τ).loc main_arg3) : FVec Ideal S256x128 .f32) bitsLt_bf16_f32 : FVec Ideal S256x128 .bf16) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results <;> rfl

/-- The first aggregation weight reaches the region unchanged. -/
theorem v26_apply (f : Fin 256) (a : Fin 128) :
    (V m c main_v26 : S256x128.Idx → EReal) (ix2 f a) = (m ((c : Thread nD τ).loc main_arg3) : S256x128.Idx → EReal) (ix2 f a) :=
  (congrFun (v26_term m c) _).trans (truncf_apply _ _ _)

theorem v27_term : (V m c main_v27 : FVec Ideal S256x128 .bf16)
    = (truncf .bf16 (m ((c : Thread nD τ).loc main_arg4) : FVec Ideal S256x128 .f32) bitsLt_bf16_f32 : FVec Ideal S256x128 .bf16) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results <;> rfl

/-- The second aggregation weight reaches the region unchanged. -/
theorem v27_apply (o : Fin 256) (a : Fin 128) :
    (V m c main_v27 : S256x128.Idx → EReal) (ix2 o a) = (m ((c : Thread nD τ).loc main_arg4) : S256x128.Idx → EReal) (ix2 o a) :=
  (congrFun (v27_term m c) _).trans (truncf_apply _ _ _)

theorem v1_term : (V m c main_v1 : FVec Ideal S256x256 .bf16)
    = (truncf .bf16 (extractStridedSlice S256x256 ![0, 0] (m ((c : Thread nD τ).loc main_arg5) : FVec Ideal S384x256 .f32)
        slices_S384x256_S256x256_0_0 : FVec Ideal S256x256 .f32) bitsLt_bf16_f32 : FVec Ideal S256x256 .bf16) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results <;> rfl

/-- Rows 0 to 255 of the first combining weight. -/
theorem v1_apply (f : Fin 256) (o : Fin 256) :
    (V m c main_v1 : S256x256.Idx → EReal) (ix2 f o)
      = (m ((c : Thread nD τ).loc main_arg5) : S384x256.Idx → EReal) (ix2 ⟨f.val, by have := f.isLt; omega⟩ o) := by
  refine (congrFun (v1_term m c) _).trans ((truncf_apply (φ := .f32) (ψ := .bf16) _ bitsLt_bf16_f32 _).trans ?_)
  refine extractStridedSlice_apply (s := S384x256) (t := S256x256) _ _ _ _ _ fun a => ?_
  match a with
  | ⟨0, _⟩ => show f.val = 0 + f.val; omega
  | ⟨1, _⟩ => show o.val = 0 + o.val; omega

theorem v3_term : (V m c main_v3 : FVec Ideal S128x256 .bf16)
    = (truncf .bf16 (extractStridedSlice S128x256 ![256, 0] (m ((c : Thread nD τ).loc main_arg5) : FVec Ideal S384x256 .f32)
        slices_S384x256_S128x256_256_0 : FVec Ideal S128x256 .f32) bitsLt_bf16_f32 : FVec Ideal S128x256 .bf16) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results <;> rfl

/-- Rows 256 to 383 of the first combining weight. -/
theorem v3_apply (a : Fin 128) (o : Fin 256) :
    (V m c main_v3 : S128x256.Idx → EReal) (ix2 a o)
      = (m ((c : Thread nD τ).loc main_arg5) : S384x256.Idx → EReal) (ix2 ⟨256 + a.val, by have := a.isLt; omega⟩ o) := by
  refine (congrFun (v3_term m c) _).trans ((truncf_apply (φ := .f32) (ψ := .bf16) _ bitsLt_bf16_f32 _).trans ?_)
  refine extractStridedSlice_apply (s := S384x256) (t := S128x256) _ _ _ _ _ fun b => ?_
  match b with
  | ⟨0, _⟩ => show 256 + a.val = 256 + a.val; rfl
  | ⟨1, _⟩ => show o.val = 0 + o.val; omega

theorem v4_term : (V m c main_v4 : FVec Ideal S256x256 .f32)
    = (extractStridedSlice S256x256 ![0, 0] (m ((c : Thread nD τ).loc main_arg6) : FVec Ideal S384x256 .f32)
        slices_S384x256_S256x256_0_0 : FVec Ideal S256x256 .f32) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results <;> rfl

/-- Rows 0 to 255 of the second combining weight. -/
theorem v4_apply (f : Fin 256) (o : Fin 256) :
    (V m c main_v4 : S256x256.Idx → EReal) (ix2 f o)
      = (m ((c : Thread nD τ).loc main_arg6) : S384x256.Idx → EReal) (ix2 ⟨f.val, by have := f.isLt; omega⟩ o) := by
  refine (congrFun (v4_term m c) _).trans ?_
  refine extractStridedSlice_apply (s := S384x256) (t := S256x256) _ _ _ _ _ fun a => ?_
  match a with
  | ⟨0, _⟩ => show f.val = 0 + f.val; omega
  | ⟨1, _⟩ => show o.val = 0 + o.val; omega

theorem v5_term : (V m c main_v5 : FVec Ideal S128x256 .f32)
    = (extractStridedSlice S128x256 ![256, 0] (m ((c : Thread nD τ).loc main_arg6) : FVec Ideal S384x256 .f32)
        slices_S384x256_S128x256_256_0 : FVec Ideal S128x256 .f32) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results <;> rfl

/-- Rows 256 to 383 of the second combining weight. -/
theorem v5_apply (a : Fin 128) (o : Fin 256) :
    (V m c main_v5 : S128x256.Idx → EReal) (ix2 a o)
      = (m ((c : Thread nD τ).loc main_arg6) : S384x256.Idx → EReal) (ix2 ⟨256 + a.val, by have := a.isLt; omega⟩ o) := by
  refine (congrFun (v5_term m c) _).trans ?_
  refine extractStridedSlice_apply (s := S384x256) (t := S128x256) _ _ _ _ _ fun b => ?_
  match b with
  | ⟨0, _⟩ => show 256 + a.val = 256 + a.val; rfl
  | ⟨1, _⟩ => show o.val = 0 + o.val; omega

/-! ## The two selector matrices

Each is built from a row of column numbers divided, rounding toward −∞, by the group size, compared with a column
of group numbers, the one-bit answers then read as numbers. The division is composed from the division rounded
toward zero, the operands' signs and the remainder; on the non-negative column numbers met here it is the
quotient of the numbers. -/

/-- The sign of a word read as a two's-complement integer: 0, −1 or 1. -/
def sgn (x : BitVec 32) : BitVec 32 := if x = 0 then 0 else if x.msb then -1 else 1

/-- Division rounded toward −∞, composed from the division rounded toward zero: one less where the operands' signs
    differ and the remainder is not zero. -/
def fdiv (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

/-- A word below 2³¹ has a clear sign bit. -/
theorem msb_ofNat_small {r : Nat} (h : r < 2 ^ 31) : (BitVec.ofNat 32 r).msb = false := by
  rw [BitVec.msb_eq_false_iff_two_mul_lt, BitVec.toNat_ofNat, Nat.mod_eq_of_lt (by omega)]
  omega

/-- The signed quotient of two words below 2³¹ is the quotient of the numbers. -/
theorem sdiv_small {r k : Nat} (hr : r < 2 ^ 31) (hk : k < 2 ^ 31) :
    (BitVec.ofNat 32 r).sdiv (BitVec.ofNat 32 k) = BitVec.ofNat 32 (r / k) := by
  rw [BitVec.sdiv_eq, msb_ofNat_small hr, msb_ofNat_small hk]
  show BitVec.udiv (BitVec.ofNat 32 r) (BitVec.ofNat 32 k) = _
  rw [BitVec.udiv_eq, BitVec.udiv_def, BitVec.toNat_ofNat, BitVec.toNat_ofNat, Nat.mod_eq_of_lt (by omega), Nat.mod_eq_of_lt (by omega)]

/-- Away from a zero divisor and from −1 the host's signed division is the signed quotient. -/
theorem divsi_host_of (x d : BitVec 32) (hd0 : d ≠ 0) (hd : d.msb = false) : IntOp.divsi .host x d = x.sdiv d := by
  unfold IntOp.divsi
  rw [if_neg]
  unfold IntOp.SDivCorner
  rintro (h | ⟨_, h⟩)
  · exact hd0 h
  · rw [h] at hd; revert hd; decide

/-- For a positive dividend and a positive divisor the signs agree and the correction is not taken. -/
theorem fdiv_pos (x d : BitVec 32) (hx0 : x ≠ 0) (hx : x.msb = false) (hd0 : d ≠ 0) (hd : d.msb = false) :
    fdiv x d = IntOp.divsi .host x d := by
  have hs : sgn x = 1 := by unfold sgn; rw [if_neg hx0, hx]; rfl
  have hsd : sgn d = 1 := by unfold sgn; rw [if_neg hd0, hd]; rfl
  have h1 : IntOp.cmpi .ne (1 : BitVec 32) 1 = 0#1 := by decide
  have h2 : ∀ b : BitVec 1, IntOp.andi 0#1 b = 0#1 := by decide
  unfold fdiv
  rw [hs, hsd, h1, h2]
  exact if_neg (by decide)

/-- Flooring division of a number below 2³¹ by a positive literal below 2³¹, on words. -/
theorem fdiv_ofNat {r k : Nat} (hr : r < 2 ^ 31) (hk0 : 0 < k) (hk : k < 2 ^ 31)
    (h0 : fdiv 0#32 (BitVec.ofNat 32 k) = 0#32) :
    fdiv (BitVec.ofNat 32 r) (BitVec.ofNat 32 k) = BitVec.ofNat 32 (r / k) := by
  have hd0 : BitVec.ofNat 32 k ≠ 0 := by
    intro e
    have e' := congrArg BitVec.toNat e
    rw [BitVec.toNat_ofNat, Nat.mod_eq_of_lt (by omega)] at e'
    simp at e'; omega
  rcases Nat.eq_zero_or_pos r with rfl | hr0
  · rw [Nat.zero_div]; exact h0
  · have hx0 : BitVec.ofNat 32 r ≠ 0 := by
      intro e
      have e' := congrArg BitVec.toNat e
      rw [BitVec.toNat_ofNat, Nat.mod_eq_of_lt (by omega)] at e'
      simp at e'; omega
    rw [fdiv_pos _ _ hx0 (msb_ofNat_small hr) hd0 (msb_ofNat_small hk), divsi_host_of _ _ hd0 (msb_ofNat_small hk),
      sdiv_small hr hk]

theorem fdiv25 (r : Nat) (hr : r < 8000) : fdiv (BitVec.ofNat 32 r) 25#32 = BitVec.ofNat 32 (r / 25) :=
  fdiv_ofNat (k := 25) (by omega) (by decide) (by decide) (by decide)
theorem fdiv10 (r : Nat) (hr : r < 1280) : fdiv (BitVec.ofNat 32 r) 10#32 = BitVec.ofNat 32 (r / 10) :=
  fdiv_ofNat (k := 10) (by omega) (by decide) (by decide) (by decide)

theorem cmpi_eq_ofNat {a b : Nat} (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; simp
  · have hne : BitVec.ofNat 32 a ≠ BitVec.ofNat 32 b := by
      intro e
      have e' := congrArg BitVec.toNat e
      simp only [BitVec.toNat_ofNat] at e'
      rw [Nat.mod_eq_of_lt ha, Nat.mod_eq_of_lt hb] at e'
      exact h e'
    rw [if_neg h, beq_eq_false_iff_ne.mpr hne]; rfl

theorem uitofp_one : (FloatOps.uitofp (F := Ideal) .bf16 (1#1 : BitVec 1) : EReal) = 1 := by
  show (((1#1 : BitVec 1).toNat : ℝ) : EReal) = 1
  simp
theorem uitofp_zero : (FloatOps.uitofp (F := Ideal) .bf16 (0#1 : BitVec 1) : EReal) = 0 := by
  show (((0#1 : BitVec 1).toNat : ℝ) : EReal) = 0
  simp

/-- Entry (g, r) of the first selector, down to operations on the two words. -/
theorem v16_raw (g : Fin 320) (r : Fin 8000) :
    (V m c main_v16 : S320x8000.Idx → EReal) (ix2 g r)
      = FloatOps.uitofp (F := Ideal) .bf16
          (IntOp.cmpi .eq (fdiv (BitVec.ofNat 32 r.val) 25#32) (BitVec.ofNat 32 g.val)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  -- with the divisor a variable both sides are the same composition of word operations, read at the index
  generalize (25#32 : BitVec 32) = d
  exact rfl

/-- Entry (g, r) of the first selector: 1 where row r of the 8000 lies in group g of 25, else 0. -/
theorem v16_apply (g : Fin 320) (r : Fin 8000) :
    (V m c main_v16 : S320x8000.Idx → EReal) (ix2 g r) = if r.val / 25 = g.val then (1 : EReal) else 0 := by
  refine (v16_raw m c g r).trans ?_
  rw [fdiv25 r.val r.isLt, cmpi_eq_ofNat (by have := r.isLt; omega) (by have := g.isLt; omega)]
  split_ifs
  · exact uitofp_one
  · exact uitofp_zero

/-- Entry (p, r) of the second selector, down to operations on the two words. -/
theorem v25_raw (p : Fin 128) (r : Fin 1280) :
    (V m c main_v25 : S128x1280.Idx → EReal) (ix2 p r)
      = FloatOps.uitofp (F := Ideal) .bf16
          (IntOp.cmpi .eq (fdiv (BitVec.ofNat 32 r.val) 10#32) (BitVec.ofNat 32 p.val)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  -- with the divisor a variable both sides are the same composition of word operations, read at the index
  generalize (10#32 : BitVec 32) = d
  exact rfl

/-- Entry (p, r) of the second selector: 1 where row r of the 1280 lies in group p of 10, else 0. -/
theorem v25_apply (p : Fin 128) (r : Fin 1280) :
    (V m c main_v25 : S128x1280.Idx → EReal) (ix2 p r) = if r.val / 10 = p.val then (1 : EReal) else 0 := by
  refine (v25_raw m c p r).trans ?_
  rw [fdiv10 r.val r.isLt, cmpi_eq_ofNat (by have := r.isLt; omega) (by have := p.isLt; omega)]
  split_ifs
  · exact uitofp_one
  · exact uitofp_zero

end Cert.KernelIdeal.HostArrays
end
-- ==== Proof.RefValue.lean ====
/-
  The reference program computes the network of the specification, in its multi-axis reading.

  The reference is a straight-line host program of 59 operations.  Read index by index, each of its stages is one
  line of the specification: a contraction is a finite sum of products, a float sum is its initial value (the zero
  word) plus a finite sum, relu is the maximum with the zero word, a mean is a sum divided by the count's word, a
  concatenation along the feature axis picks the operand by the joined coordinate, and a row normalisation multiplies
  by the reciprocal square root of the row's squared norm floored at the word of 1e-12.  The lemmas below follow the
  program in order, one per stage of the specification, each stated at an index built from literal coordinates; the
  last one is the program's result, and `run_spec` restates the program's run with it.
-/
import proofs.«122449_g16870631539387_cont_7to1_909_9_alg».proof.Proof.Gen.ReferenceIdeal.Read
import proofs.«122449_g16870631539387_cont_7to1_909_9_alg».proof.Proof.Spec
import proofs.«122449_g16870631539387_cont_7to1_909_9_alg».proof.Defs
import proofs.«122449_g16870631539387_cont_7to1_909_9_alg».proof.Proof.Gen.Pre_finite_inputs

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-- the reference's result, as Spec.rOut of its argument arrays -/
def out (A0 : S1024x256.Idx → EReal) (A1 : S1024x10x256.Idx → EReal) (A2 : S1024x10x25x256.Idx → EReal)
    (A3 A4 : S256x128.Idx → EReal) (A5 A6 : S384x256.Idx → EReal) (A7 : S256x50.Idx → EReal) : S1024x50.Idx → EReal :=
  fun i => Cert.Spec.rOut (fun b f => A0 (ix2 b f)) (fun b n f => A1 (ix3 b n f)) (fun b n j f => A2 (ix4 b n j f))
    (fun f a => A3 (ix2 f a)) (fun o a => A4 (ix2 o a)) (fun c o => A5 (ix2 c o)) (fun c o => A6 (ix2 c o))
    (fun o l => A7 (ix2 o l)) (i 0) (i 1)

section Stages

variable (x0 : S1024x256.Idx → EReal) (x1 : S1024x10x256.Idx → EReal) (x2 : S1024x10x25x256.Idx → EReal)
  (x3 x4 : S256x128.Idx → EReal) (x5 x6 : S384x256.Idx → EReal) (x7 : S256x50.Idx → EReal)

/-! The argument arrays as the curried functions the specification takes. -/
local notation "X0" => (fun (b : Fin 1024) (f : Fin 256) => x0 (ix2 b f))
local notation "X1" => (fun (b : Fin 1024) (n : Fin 10) (f : Fin 256) => x1 (ix3 b n f))
local notation "X2" => (fun (b : Fin 1024) (n : Fin 10) (j : Fin 25) (f : Fin 256) => x2 (ix4 b n j f))
local notation "W3" => (fun (f : Fin 256) (a : Fin 128) => x3 (ix2 f a))
local notation "W4" => (fun (o : Fin 256) (a : Fin 128) => x4 (ix2 o a))
local notation "W5" => (fun (c : Fin 384) (o : Fin 256) => x5 (ix2 c o))
local notation "W6" => (fun (c : Fin 384) (o : Fin 256) => x6 (ix2 c o))
local notation "W7" => (fun (o : Fin 256) (l : Fin 50) => x7 (ix2 o l))

/-! ## Layer 0: the two-hop aggregate -/

/-- relu(x2 · Wagg0) at a two-hop node: the contraction over the 256 features, then the maximum with zero. -/
theorem t_eq (b : Fin 1024) (n : Fin 10) (j : Fin 25) (a : Fin 128) :
    val_main_v1 (F := Ideal) x2 x3 (ix4 b n j a) = Cert.Spec.rT X2 W3 b n j a := by
  have hl : ∀ k : Fin 256, lidx_main_v0 (ix4 b n j a) k = ix4 b n j k := fun k => funext fun d => by
    match d with | ⟨0, _⟩ => rfl | ⟨1, _⟩ => rfl | ⟨2, _⟩ => rfl | ⟨3, _⟩ => rfl
  have hr : ∀ k : Fin 256, ridx_main_v0 (ix4 b n j a) k = ix2 k a := fun k => funext fun d => by
    match d with | ⟨0, _⟩ => rfl | ⟨1, _⟩ => rfl
  rw [val_main_v1_apply, val_main_v0_apply, val_main_call0_v0_apply, val_main_call0_cst_apply]
  simp only [hl, hr, Ideal.maximumf_def, Ideal.ofBits_def, Ideal.ofBits_zero_f32]
  rfl

/-- The sum of those over the 25 two-hop neighbours, divided by the word of 25. -/
theorem agg0_eq (b : Fin 1024) (n : Fin 10) (a : Fin 128) :
    val_main_v4 (F := Ideal) x2 x3 (ix3 b n a) = Cert.Spec.rAgg0 X2 W3 b n a := by
  have hi : ∀ k : Fin 25, idx_main_v2 (ix3 b n a) k = ix4 b n k a := fun k => funext fun d => by
    match d with | ⟨0, _⟩ => rfl | ⟨1, _⟩ => rfl | ⟨2, _⟩ => rfl | ⟨3, _⟩ => rfl
  rw [val_main_v4_apply, val_main_v2_apply, val_main_cst_apply, val_main_v3_apply, val_main_cst_0_apply]
  simp only [hi, t_eq, Ideal.hostDivf_def, Ideal.ofBits_def, Ideal.ofBits_zero_f32, zero_add]
  rfl

/-- [x1, agg0] along the feature axis: a joined column below 256 reads x1, one from 256 on reads the aggregate. -/
theorem cat0_eq (b : Fin 1024) (n : Fin 10) (c : Fin 384) :
    val_main_v5 (F := Ideal) x1 x2 x3 (ix3 b n c) = Cert.Spec.rCat0 X1 X2 W3 b n c := by
  unfold val_main_v5 Cert.Spec.rCat0
  by_cases h : c.val < 256
  · rw [dif_pos h]
    exact concatenate_pair_apply_left 2 x1 (val_main_v4 (F := Ideal) x2 x3)
      concatenates_S1024x10x256_S1024x10x128_S1024x10x384_d2 (ix3 b n c) rfl (ix3 b n ⟨c.val, h⟩) (fun d => by
        match d with | ⟨0, _⟩ => rfl | ⟨1, _⟩ => rfl | ⟨2, _⟩ => rfl)
  · rw [dif_neg h]
    have hc : c.val - 256 < 128 := by have := c.isLt; omega
    refine (concatenate_pair_apply_right 2 x1 (val_main_v4 (F := Ideal) x2 x3)
      concatenates_S1024x10x256_S1024x10x128_S1024x10x384_d2 (ix3 b n c) rfl rfl (ix3 b n ⟨c.val - 256, hc⟩) (fun d hd => by
        match d with | ⟨0, _⟩ => rfl | ⟨1, _⟩ => rfl | ⟨2, _⟩ => exact absurd rfl hd) ?_).trans (agg0_eq x2 x3 b n _)
    show c.val - 256 + 256 = c.val
    omega

/-! ## Layer 0: the one-hop hidden state -/

/-- relu([x1, agg0] · Wcomb0): one sum over the 384 joined columns, then the maximum with zero. -/
theorem h1p_eq (b : Fin 1024) (n : Fin 10) (o : Fin 256) :
    val_main_v7 (F := Ideal) x1 x2 x3 x5 (ix3 b n o) = Cert.Spec.rH1p X1 X2 W3 W5 b n o := by
  have hl : ∀ k : Fin 384, lidx_main_v6 (ix3 b n o) k = ix3 b n k := fun k => funext fun d => by
    match d with | ⟨0, _⟩ => rfl | ⟨1, _⟩ => rfl | ⟨2, _⟩ => rfl
  have hr : ∀ k : Fin 384, ridx_main_v6 (ix3 b n o) k = ix2 k o := fun k => funext fun d => by
    match d with | ⟨0, _⟩ => rfl | ⟨1, _⟩ => rfl
  rw [val_main_v7_apply, val_main_v6_apply, val_main_call1_v0_apply, val_main_call1_cst_apply]
  simp only [hl, hr, cat0_eq, Ideal.maximumf_def, Ideal.ofBits_def, Ideal.ofBits_zero_f32]
  rfl

/-- Its row normalisation: the row's squared norm is summed over the 256 columns, floored at the word of 1e-12, and
    the entry is multiplied by the reciprocal square root, the same factor along the row. -/
theorem h1_eq (b : Fin 1024) (n : Fin 10) (o : Fin 256) :
    val_main_v15 (F := Ideal) x1 x2 x3 x5 (ix3 b n o) = Cert.Spec.rH1 X1 X2 W3 W5 b n o := by
  have hi : ∀ k : Fin 256, idx_main_v9 (idx_main_v10 (idx_main_v14 (ix3 b n o))) k = ix3 b n k := fun k => funext fun d => by
    match d with | ⟨0, _⟩ => rfl | ⟨1, _⟩ => rfl | ⟨2, _⟩ => rfl
  rw [val_main_v15_apply, val_main_v14_apply, val_main_v13_apply, val_main_v12_apply, val_main_v10_apply,
    val_main_v9_apply, val_main_cst_1_apply, val_main_v11_apply, val_main_cst_2_apply]
  simp only [val_main_v8_apply, hi, h1p_eq, Ideal.mulf_def, Ideal.maximumf_def, Ideal.hostUnary_rsqrt_def,
    Ideal.ofBits_def, Ideal.ofBits_zero_f32, zero_add]
  rfl

/-! ## Layer 1: the one-hop aggregate -/

/-- relu(h1 · Wagg1) at a one-hop node. -/
theorem g1_eq (b : Fin 1024) (n : Fin 10) (a : Fin 128) :
    val_main_v17 (F := Ideal) x1 x2 x3 x4 x5 (ix3 b n a) = Cert.Spec.rG1 X1 X2 W3 W4 W5 b n a := by
  have hl : ∀ k : Fin 256, lidx_main_v16 (ix3 b n a) k = ix3 b n k := fun k => funext fun d => by
    match d with | ⟨0, _⟩ => rfl | ⟨1, _⟩ => rfl | ⟨2, _⟩ => rfl
  have hr : ∀ k : Fin 256, ridx_main_v16 (ix3 b n a) k = ix2 k a := fun k => funext fun d => by
    match d with | ⟨0, _⟩ => rfl | ⟨1, _⟩ => rfl
  rw [val_main_v17_apply, val_main_v16_apply, val_main_call2_v0_apply, val_main_call2_cst_apply]
  simp only [hl, hr, h1_eq, Ideal.maximumf_def, Ideal.ofBits_def, Ideal.ofBits_zero_f32]
  rfl

/-- The sum of those over the 10 one-hop neighbours, divided by the word of 10. -/
theorem agg1_eq (b : Fin 1024) (a : Fin 128) :
    val_main_v20 (F := Ideal) x1 x2 x3 x4 x5 (ix2 b a) = Cert.Spec.rAgg1 X1 X2 W3 W4 W5 b a := by
  have hi : ∀ k : Fin 10, idx_main_v18 (ix2 b a) k = ix3 b k a := fun k => funext fun d => by
    match d with | ⟨0, _⟩ => rfl | ⟨1, _⟩ => rfl | ⟨2, _⟩ => rfl
  rw [val_main_v20_apply, val_main_v18_apply, val_main_cst_3_apply, val_main_v19_apply, val_main_cst_4_apply]
  simp only [hi, g1_eq, Ideal.hostDivf_def, Ideal.ofBits_def, Ideal.ofBits_zero_f32, zero_add]
  rfl

/-- [x0, agg1] along the feature axis. -/
theorem cat1_eq (b : Fin 1024) (c : Fin 384) :
    val_main_v21 (F := Ideal) x0 x1 x2 x3 x4 x5 (ix2 b c) = Cert.Spec.rCat1 X0 X1 X2 W3 W4 W5 b c := by
  unfold val_main_v21 Cert.Spec.rCat1
  by_cases h : c.val < 256
  · rw [dif_pos h]
    exact concatenate_pair_apply_left 1 x0 (val_main_v20 (F := Ideal) x1 x2 x3 x4 x5)
      concatenates_S1024x256_S1024x128_S1024x384_d1 (ix2 b c) rfl (ix2 b ⟨c.val, h⟩) (fun d => by
        match d with | ⟨0, _⟩ => rfl | ⟨1, _⟩ => rfl)
  · rw [dif_neg h]
    have hc : c.val - 256 < 128 := by have := c.isLt; omega
    refine (concatenate_pair_apply_right 1 x0 (val_main_v20 (F := Ideal) x1 x2 x3 x4 x5)
      concatenates_S1024x256_S1024x128_S1024x384_d1 (ix2 b c) rfl rfl (ix2 b ⟨c.val - 256, hc⟩) (fun d hd => by
        match d with | ⟨0, _⟩ => rfl | ⟨1, _⟩ => exact absurd rfl hd) ?_).trans (agg1_eq x1 x2 x3 x4 x5 b _)
    show c.val - 256 + 256 = c.val
    omega

/-! ## Layer 1: the root's hidden state and the classifier -/

/-- [x0, agg1] · Wcomb1: one sum over the 384 joined columns (no relu here). -/
theorem h0p_eq (b : Fin 1024) (o : Fin 256) :
    val_main_v22 (F := Ideal) x0 x1 x2 x3 x4 x5 x6 (ix2 b o) = Cert.Spec.rH0p X0 X1 X2 W3 W4 W5 W6 b o := by
  have hl : ∀ k : Fin 384, lidx_main_v22 (ix2 b o) k = ix2 b k := fun k => funext fun d => by
    match d with | ⟨0, _⟩ => rfl | ⟨1, _⟩ => rfl
  have hr : ∀ k : Fin 384, ridx_main_v22 (ix2 b o) k = ix2 k o := fun k => funext fun d => by
    match d with | ⟨0, _⟩ => rfl | ⟨1, _⟩ => rfl
  rw [val_main_v22_apply]
  simp only [hl, hr, cat1_eq]
  rfl

/-- The first row normalisation of the root's state. -/
theorem h0n_eq (b : Fin 1024) (o : Fin 256) :
    val_main_v30 (F := Ideal) x0 x1 x2 x3 x4 x5 x6 (ix2 b o)
      = Cert.Spec.l2n (Cert.Spec.rH0p X0 X1 X2 W3 W4 W5 W6 b) o := by
  have hi : ∀ k : Fin 256, idx_main_v24 (idx_main_v25 (idx_main_v29 (ix2 b o))) k = ix2 b k := fun k => funext fun d => by
    match d with | ⟨0, _⟩ => rfl | ⟨1, _⟩ => rfl
  rw [val_main_v30_apply, val_main_v29_apply, val_main_v28_apply, val_main_v27_apply, val_main_v25_apply,
    val_main_v24_apply, val_main_cst_5_apply, val_main_v26_apply, val_main_cst_6_apply]
  simp only [val_main_v23_apply, hi, h0p_eq, Ideal.mulf_def, Ideal.maximumf_def, Ideal.hostUnary_rsqrt_def,
    Ideal.ofBits_def, Ideal.ofBits_zero_f32, zero_add]
  rfl

/-- The second row normalisation, of the already normalised row. -/
theorem h0_eq (b : Fin 1024) (o : Fin 256) :
    val_main_v38 (F := Ideal) x0 x1 x2 x3 x4 x5 x6 (ix2 b o)
      = Cert.Spec.l2n (Cert.Spec.l2n (Cert.Spec.rH0p X0 X1 X2 W3 W4 W5 W6 b)) o := by
  have hi : ∀ k : Fin 256, idx_main_v32 (idx_main_v33 (idx_main_v37 (ix2 b o))) k = ix2 b k := fun k => funext fun d => by
    match d with | ⟨0, _⟩ => rfl | ⟨1, _⟩ => rfl
  rw [val_main_v38_apply, val_main_v37_apply, val_main_v36_apply, val_main_v35_apply, val_main_v33_apply,
    val_main_v32_apply, val_main_cst_7_apply, val_main_v34_apply, val_main_cst_8_apply]
  simp only [val_main_v31_apply, hi, h0n_eq, Ideal.mulf_def, Ideal.maximumf_def, Ideal.hostUnary_rsqrt_def,
    Ideal.ofBits_def, Ideal.ofBits_zero_f32, zero_add]
  rfl

/-- relu(h0 · Wcls): the program's result at a root and a class. -/
theorem out_eq (b : Fin 1024) (l : Fin 50) :
    val_main_v40 (F := Ideal) x0 x1 x2 x3 x4 x5 x6 x7 (ix2 b l) = Cert.Spec.rOut X0 X1 X2 W3 W4 W5 W6 W7 b l := by
  have hl : ∀ k : Fin 256, lidx_main_v39 (ix2 b l) k = ix2 b k := fun k => funext fun d => by
    match d with | ⟨0, _⟩ => rfl | ⟨1, _⟩ => rfl
  have hr : ∀ k : Fin 256, ridx_main_v39 (ix2 b l) k = ix2 k l := fun k => funext fun d => by
    match d with | ⟨0, _⟩ => rfl | ⟨1, _⟩ => rfl
  rw [val_main_v40_apply, val_main_v39_apply, val_main_call3_v0_apply, val_main_call3_cst_apply]
  simp only [hl, hr, h0_eq, Ideal.maximumf_def, Ideal.ofBits_def, Ideal.ofBits_zero_f32]
  rfl

/-- The program's result array is the specification's multi-axis reading of the argument arrays. -/
theorem val_eq_out : val_main_v40 (F := Ideal) x0 x1 x2 x3 x4 x5 x6 x7 = out x0 x1 x2 x3 x4 x5 x6 x7 := by
  funext i
  obtain ⟨b, l, rfl⟩ : ∃ (b : Fin 1024) (l : Fin 50), i = ix2 b l := ⟨i 0, i 1, eq_ix2 i⟩
  exact out_eq x0 x1 x2 x3 x4 x5 x6 x7 b l

end Stages

/-! ## The run -/

/-- On every device, from any memory with zero counters, every weakly fair execution of the reference terminates with
    its result buffer holding the specification's multi-axis reading of the eight argument arrays, and the arguments
    unchanged. -/
theorem run_spec (m : (ℓ : Loc nD τ sig) → Buf (Elt Ideal) ℓ) (ρ : Dev nD → PrngReg) :
    θ_run Cert.ReferenceIdeal.defs (onTc (τ := τ) (main (F := Ideal))) ⟨m, fun _ => 0, ρ⟩ (fun r => ∀ c : Dev nD,
      r.2.mem ((c.tc : Thread nD τ).loc main_v40)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run Cert.ReferenceIdeal.defs _ _).mono
    (fun _ h c => ⟨(h c).1.trans ((val_main_v40_eq (F := Ideal) m c).trans (val_eq_out _ _ _ _ _ _ _ _)), (h c).2⟩)
    (Cert.ReferenceIdeal.Value.run (F := Ideal) m ρ)

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.Join.lean ====
/- The two programs compute one function. The kernel's result array is the flattened reading of the network on the arrays
   the region finds: the one- and two-hop features as row-major rows, the combiner weights as their upper and lower row
   blocks, the two means as sums times 1/25 and 1/10. The reference's result is the multi-axis reading on the launched arrays,
   with the means as quotients by 25 and 10 and the combiners over the concatenated columns. The two readings agree on every
   extended real: a quotient by a nonzero real is the product with its reciprocal, a sum over 384 columns is the sum over the
   first 256 plus the sum over the last 128, and the rows of a reshaped array are the original entries. -/
import proofs.«122449_g16870631539387_cont_7to1_909_9_alg».proof.Proof.KernelValue
import proofs.«122449_g16870631539387_cont_7to1_909_9_alg».proof.Proof.OutValue
import proofs.«122449_g16870631539387_cont_7to1_909_9_alg».proof.Proof.HostArrays
import proofs.«122449_g16870631539387_cont_7to1_909_9_alg».proof.Proof.SpecJoin
import proofs.«122449_g16870631539387_cont_7to1_909_9_alg».proof.Proof.RefValue

noncomputable section

namespace Cert.KernelIdeal.Join

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The kernel's result array is the reference's function of the launched argument arrays. -/
theorem outFinal_eq :
    (Body.outFinal (F := Ideal) m c : S1024x50.Idx → EReal)
      = Cert.ReferenceIdeal.RefValue.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨b, l, rfl⟩ : ∃ (b : Fin 1024) (l : Fin 50), i = ix2 b l := ⟨i 0, i 1, eq_ix2 i⟩
  rw [OutValue.outFinal_apply m c (HostArrays.v16_apply m c) (HostArrays.v25_apply m c)]
  show _ = Cert.Spec.rOut _ _ _ _ _ _ _ _ b l
  rw [← Cert.Spec.kOut_eq_rOut]
  have e0 : (fun (b : Fin 1024) (f : Fin 256) => (V m c main_arg0 : S1024x256.Idx → EReal) (ix2 b f))
      = fun b f => ((m ((c : Thread nD τ).loc main_arg0)) : S1024x256.Idx → EReal) (ix2 b f) := by rw [V_main_arg0]
  have e1 : (fun (q : Fin 10240) (f : Fin 256) => (V m c main_v7 : S10240x256.Idx → EReal) (ix2 q f))
      = Cert.Spec.flat1 (fun b n f => ((m ((c : Thread nD τ).loc main_arg1)) : S1024x10x256.Idx → EReal) (ix3 b n f)) := by
    funext q f; rw [HostArrays.v7_apply]; rfl
  have e2 : (fun (R : Fin 256000) (f : Fin 256) => (V m c main_v6 : S256000x256.Idx → EReal) (ix2 R f))
      = Cert.Spec.flat2 (fun b n j f => ((m ((c : Thread nD τ).loc main_arg2)) : S1024x10x25x256.Idx → EReal) (ix4 b n j f)) := by
    funext R f; rw [HostArrays.v6_apply]; rfl
  have e3 : (fun (f : Fin 256) (a : Fin 128) => (V m c main_v26 : S256x128.Idx → EReal) (ix2 f a))
      = fun f a => ((m ((c : Thread nD τ).loc main_arg3)) : S256x128.Idx → EReal) (ix2 f a) := by
    funext f a; rw [HostArrays.v26_apply]
  have e4 : (fun (o : Fin 256) (a : Fin 128) => (V m c main_v27 : S256x128.Idx → EReal) (ix2 o a))
      = fun o a => ((m ((c : Thread nD τ).loc main_arg4)) : S256x128.Idx → EReal) (ix2 o a) := by
    funext o a; rw [HostArrays.v27_apply]
  have e5u : (fun (f : Fin 256) (o : Fin 256) => (V m c main_v1 : S256x256.Idx → EReal) (ix2 f o))
      = Cert.Spec.upper (fun c' o => ((m ((c : Thread nD τ).loc main_arg5)) : S384x256.Idx → EReal) (ix2 c' o)) := by
    funext f o; rw [HostArrays.v1_apply]; rfl
  have e5l : (fun (a : Fin 128) (o : Fin 256) => (V m c main_v3 : S128x256.Idx → EReal) (ix2 a o))
      = Cert.Spec.lower (fun c' o => ((m ((c : Thread nD τ).loc main_arg5)) : S384x256.Idx → EReal) (ix2 c' o)) := by
    funext a o; rw [HostArrays.v3_apply]; rfl
  have e6u : (fun (f : Fin 256) (o : Fin 256) => (V m c main_v4 : S256x256.Idx → EReal) (ix2 f o))
      = Cert.Spec.upper (fun c' o => ((m ((c : Thread nD τ).loc main_arg6)) : S384x256.Idx → EReal) (ix2 c' o)) := by
    funext f o; rw [HostArrays.v4_apply]; rfl
  have e6l : (fun (a : Fin 128) (o : Fin 256) => (V m c main_v5 : S128x256.Idx → EReal) (ix2 a o))
      = Cert.Spec.lower (fun c' o => ((m ((c : Thread nD τ).loc main_arg6)) : S384x256.Idx → EReal) (ix2 c' o)) := by
    funext a o; rw [HostArrays.v5_apply]; rfl
  have e7 : (fun (o : Fin 256) (l : Fin 50) => (V m c main_arg7 : S256x50.Idx → EReal) (ix2 o l))
      = fun o l => ((m ((c : Thread nD τ).loc main_arg7)) : S256x50.Idx → EReal) (ix2 o l) := by rw [V_main_arg7]
  rw [e0, e1, e2, e3, e4, e5u, e5l, e6u, e6l, e7]

end Cert.KernelIdeal.Join

end
-- ==== Proof.KBodyShared.lean ====
/- The kernel body's control over the grid of 32 steps: the tail branch is taken at the last step only; the twelve input
   blocks are live at every step; the result block is idle, and not written back, at every step but the last. The staging
   buffers a step is called with, and the scratch carried between steps, by name. -/
import proofs.«122449_g16870631539387_cont_7to1_909_9_alg».proof.Proof.Gen.Kernel.Frame
import proofs.«122449_g16870631539387_cont_7to1_909_9_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tail's branch condition, from the grid coordinate. -/
abbrev lastStep (i : grid0.Coords) : Prop := k0_cond1 i = 1#1
/-- It holds at step 31 only. -/
theorem lastStep_iff : ∀ t : Fin cfg0.N, lastStep (grid0.coords t) ↔ t.val % 32 = 31 :=
  (by decide +kernel : ∀ t : Fin grid0.N, lastStep (grid0.coords t) ↔ t.val % 32 = 31)

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
theorem live_8 : ∀ t : Fin cfg0.N, cfg0.idle 8 (grid0.coords t) = false := by decide +kernel
theorem live_9 : ∀ t : Fin cfg0.N, cfg0.idle 9 (grid0.coords t) = false := by decide +kernel
theorem live_10 : ∀ t : Fin cfg0.N, cfg0.idle 10 (grid0.coords t) = false := by decide +kernel
theorem live_11 : ∀ t : Fin cfg0.N, cfg0.idle 11 (grid0.coords t) = false := by decide +kernel
/-- Before the last step the result block is idle and is not written back. -/
theorem out_idle : ∀ t : Fin cfg0.N, ¬lastStep (grid0.coords t) → cfg0.idle 12 (grid0.coords t) = true := by decide +kernel
theorem out_noFlush : ∀ t : Fin cfg0.N, ¬lastStep (grid0.coords t) → (cfg0.win 12).flush t = false := by decide +kernel
/-- At the last step it is live. -/
theorem out_live : ∀ t : Fin cfg0.N, lastStep (grid0.coords t) → cfg0.idle 12 (grid0.coords t) = false := by decide +kernel

abbrev ms_0 (t : Fin cfg0.N) : Memref sig .tc .vmem S1024x256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S10240x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S8000x256 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S320x8000 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S128x1280 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S256x128 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S256x256 .bf16 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S128x256 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S256x128 .bf16 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S256x256 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S128x256 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S256x50 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S1024x50 .f32 := win0_12.stage (cfg0.slots t 12)
abbrev hs_12 (t : Fin cfg0.N) : (ms_12 t).IsWhole := hstage0_12 ((cfg0.slots t 12).cast nbuf0_12)
/-- The scratch carried between steps: 10240 rows of 128, one row per one-hop node. -/
abbrev scM : Memref sig .tc .vmem S10240x128 .bf16 := Memref.whole cc0_scratch0
/-- One staging buffer of the result block, through which its contents are stated. -/
abbrev VO : View sig .tc .vmem S1024x50 .f32 := (Memref.whole cc0_stg12_0 : Memref sig .tc .vmem S1024x50 .f32).view

/-- What the launch hands the region and takes back: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.KBodyRunA.lean ====
/- A step before the last. The body reads the step's 8000 two-hop rows, forms relu(x2 · Wagg0), sums each group of 25 rows
   through the 0/1 membership matrix, scales by 1/25, and stores the 320 resulting rows into the step's slice of the scratch;
   the tail is skipped. The twelve input blocks and the result block are left as they were; the scratch is what it was with
   that one slice written over it. -/
import proofs.«122449_g16870631539387_cont_7to1_909_9_alg».proof.Proof.KBodyShared
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The piece a step before the last writes into the scratch, with the body's run: from the inputs at their blocks, the
    result buffer at any contents `xi` and the scratch at any contents `xs`, the body ends with the inputs and the result
    buffer untouched and the scratch at `xs` with the piece written. -/
noncomputable def runA (c : Dev nD) (i : grid0.Coords) (arg1 : Memref sig .tc .vmem S1024x256 .f32) (harg1 : arg1.IsWhole) (arg2 : Memref sig .tc .vmem S10240x256 .f32) (harg2 : arg2.IsWhole) (arg3 : Memref sig .tc .vmem S8000x256 .f32) (harg3 : arg3.IsWhole) (arg4 : Memref sig .tc .vmem S320x8000 .bf16) (harg4 : arg4.IsWhole) (arg5 : Memref sig .tc .vmem S128x1280 .bf16) (harg5 : arg5.IsWhole) (arg6 : Memref sig .tc .vmem S256x128 .bf16) (harg6 : arg6.IsWhole) (arg7 : Memref sig .tc .vmem S256x256 .bf16) (harg7 : arg7.IsWhole) (arg8 : Memref sig .tc .vmem S128x256 .bf16) (harg8 : arg8.IsWhole) (arg9 : Memref sig .tc .vmem S256x128 .bf16) (harg9 : arg9.IsWhole) (arg10 : Memref sig .tc .vmem S256x256 .f32) (harg10 : arg10.IsWhole) (arg11 : Memref sig .tc .vmem S128x256 .f32) (harg11 : arg11.IsWhole) (arg12 : Memref sig .tc .vmem S256x50 .f32) (harg12 : arg12.IsWhole) (arg13 : Memref sig .tc .vmem S1024x50 .f32) (harg13 : arg13.IsWhole) (arg14 : Memref sig .tc .vmem S10240x128 .bf16) (harg14 : arg14.IsWhole) (hc0 : ¬lastStep i)
    (x0 : Vec F S1024x256 .f32) (x1 : Vec F S10240x256 .f32) (x2 : Vec F S8000x256 .f32) (x3 : Vec F S320x8000 .bf16) (x4 : Vec F S128x1280 .bf16) (x5 : Vec F S256x128 .bf16) (x6 : Vec F S256x256 .bf16) (x7 : Vec F S128x256 .bf16) (x8 : Vec F S256x128 .bf16) (x9 : Vec F S256x256 .f32) (x10 : Vec F S128x256 .f32) (x11 : Vec F S256x50 .f32) :
    { LS : List (View.Piece (Elt F) S10240x128 .bf16) //
      ∀ (xi : Vec F S1024x50 .f32) (xs : Vec F S10240x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi ∗ owns (c : Thread nD τ) arg14 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi ∗ (arg14.view.loc (c : Thread nD τ) ↦[arg14.view.set]{fullShare} arg14.view.writes (Elt F) (harg14.unread xs) LS)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun xi xs E K => ?run⟩
  case run =>
    simp only [cc0__fused_eq_skeleton]; unfold cc0__fused_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    iexact HS

end Cert.Kernel.Body

end
-- ==== Proof.KBodyScratch.lean ====
/- The scratch, row by row. Row q of the scratch belongs to step q / 320, which writes it as row q % 320 of its slice:
   relu(x2 · Wagg0) of the step's 8000 rows, summed in groups of 25 and scaled by 1/25. A scratch that already holds these
   values on the rows of steps before t holds them on the rows of steps up to t once step t's slice is written over it. -/
import proofs.«122449_g16870631539387_cont_7to1_909_9_alg».proof.Proof.KBodyRunA
import Idealize.ShloMosaic.Lib.Pipeline.FrameBody
import Idealize.ShloMosaic.Lib.ValueIdx
import Idealize.ShloMosaic.Lib.WritesUnit
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- A step's slice starts at row 320 · t. -/
theorem off_eq : ∀ t : Fin cfg0.N, k0_off1 (grid0.coords t) = ![320 * t.val, 0] :=
  (by decide +kernel : ∀ t : Fin grid0.N, k0_off1 (grid0.coords t) = ![320 * t.val, 0])

/-- The last step. -/
abbrev tLast : Fin cfg0.N := ⟨31, by rw [show cfg0.N = 32 from N_0]; decide⟩

/-- The step that writes row `y 0` of the scratch. -/
def stepOf (y : S10240x128.Idx) : Fin cfg0.N :=
  ⟨(y 0).val / 320, by rw [show cfg0.N = 32 from N_0]; have := idx2_lt0 y; omega⟩

/-- What the scratch holds once every step has run. -/
def aggFull (c : Dev nD) : Vec F S10240x128 .bf16 := fun y =>
  k0_pay1 (iblk m c 2 (stepOf y)) (iblk m c 5 (stepOf y)) (iblk m c 3 (stepOf y))
    (ix2 ⟨(y 0).val % 320, Nat.mod_lt _ (by decide)⟩ ⟨(y 1).val, idx2_lt1 y⟩)

/-- The scratch holds its final values on the rows of the first `n` steps. -/
def Agrees (c : Dev nD) (n : ℕ) (xs : Vec F S10240x128 .bf16) : Prop :=
  ∀ y : S10240x128.Idx, (y 0).val < 320 * n → xs y = aggFull m c y

/-- The slice a step writes, as a piece of the scratch. -/
abbrev slicePiece (i : grid0.Coords) (w : Vec F S320x128 .bf16) : View.Piece (Elt F) S10240x128 .bf16 :=
  ⟨Rect.unit (s := S10240x128) (k0_off1 i) S320x128.size (k0_off1_inb i), w⟩

/-- Writing step t's slice extends the agreement by one step. -/
theorem agrees_step (c : Dev nD) (t : Fin cfg0.N) (xs : Vec F S10240x128 .bf16) (h : Agrees m c t.val xs) :
    Agrees m c (t.val + 1) (scM.view.read (Elt F) (scM.view.writes (Elt F) ((Memref.isWhole_whole cc0_scratch0).unread xs)
      [slicePiece (grid0.coords t) (k0_pay1 (iblk m c 2 t) (iblk m c 5 t) (iblk m c 3 t))])) := by
  intro y hy
  have h0 := idx2_lt0 y
  have h1 := idx2_lt1 y
  by_cases hrow : 320 * t.val ≤ (y 0).val
  · rw [View.read_writes_cons_rows_of_mem scM.view _ (k0_off1_inb (grid0.coords t)) _ [] y
      (ix2 ⟨(y 0).val - 320 * t.val, by omega⟩ ⟨(y 1).val, h1⟩) (off_eq t) (by show (y 0).val = 320 * t.val + ((y 0).val - 320 * t.val); omega) rfl]
    have hs : stepOf y = t := Fin.ext (by show (y 0).val / 320 = t.val; omega)
    unfold aggFull
    rw [hs]
    exact congrArg _ (congrArg (fun k => ix2 k (⟨(y 1).val, h1⟩ : Fin 128)) (Fin.ext (by show (y 0).val - 320 * t.val = (y 0).val % 320; omega)))
  · rw [View.read_writes_cons_rows_of_not_mem scM.view _ (k0_off1_inb (grid0.coords t)) _ [] y (off_eq t) rfl (Or.inl (by omega))]
    rw [View.writes_nil, (Memref.isWhole_whole cc0_scratch0).read_unread]
    exact h y (by omega)

end Cert.Kernel.Body

end
-- ==== Proof.KBodyRunB.lean ====
/- The last step. After storing its own slice of the scratch as at every step, the body runs the tail: for each of eight
   chunks of 128 root nodes it reads the chunk's 1280 one-hop rows of x1 and of the scratch (now complete), combines and
   normalises them, aggregates each root's 10 rows through the second membership matrix, scales by 1/10, combines with the
   roots' own features, normalises twice, applies the classifier and relu, and stores the 128 rows into the result block. -/
import proofs.«122449_g16870631539387_cont_7to1_909_9_alg».proof.Proof.KBodyShared
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the last step writes into the result block and into the scratch, with the body's run: from the inputs at
    their blocks, the result buffer at anything and the scratch at `xs`, the body ends with the inputs untouched, the result
    buffer with its eight pieces written and the scratch at `xs` with the step's slice written. -/
noncomputable def runB (c : Dev nD) (i : grid0.Coords) (arg1 : Memref sig .tc .vmem S1024x256 .f32) (harg1 : arg1.IsWhole) (arg2 : Memref sig .tc .vmem S10240x256 .f32) (harg2 : arg2.IsWhole) (arg3 : Memref sig .tc .vmem S8000x256 .f32) (harg3 : arg3.IsWhole) (arg4 : Memref sig .tc .vmem S320x8000 .bf16) (harg4 : arg4.IsWhole) (arg5 : Memref sig .tc .vmem S128x1280 .bf16) (harg5 : arg5.IsWhole) (arg6 : Memref sig .tc .vmem S256x128 .bf16) (harg6 : arg6.IsWhole) (arg7 : Memref sig .tc .vmem S256x256 .bf16) (harg7 : arg7.IsWhole) (arg8 : Memref sig .tc .vmem S128x256 .bf16) (harg8 : arg8.IsWhole) (arg9 : Memref sig .tc .vmem S256x128 .bf16) (harg9 : arg9.IsWhole) (arg10 : Memref sig .tc .vmem S256x256 .f32) (harg10 : arg10.IsWhole) (arg11 : Memref sig .tc .vmem S128x256 .f32) (harg11 : arg11.IsWhole) (arg12 : Memref sig .tc .vmem S256x50 .f32) (harg12 : arg12.IsWhole) (arg13 : Memref sig .tc .vmem S1024x50 .f32) (harg13 : arg13.IsWhole) (arg14 : Memref sig .tc .vmem S10240x128 .bf16) (harg14 : arg14.IsWhole) (hc0 : lastStep i)
    (x0 : Vec F S1024x256 .f32) (x1 : Vec F S10240x256 .f32) (x2 : Vec F S8000x256 .f32) (x3 : Vec F S320x8000 .bf16) (x4 : Vec F S128x1280 .bf16) (x5 : Vec F S256x128 .bf16) (x6 : Vec F S256x256 .bf16) (x7 : Vec F S128x256 .bf16) (x8 : Vec F S256x128 .bf16) (x9 : Vec F S256x256 .f32) (x10 : Vec F S128x256 .f32) (x11 : Vec F S256x50 .f32) (xs : Vec F S10240x128 .bf16) :
    Σ' (LO : List (View.Piece (Elt F) S1024x50 .f32)), { LS : List (View.Piece (Elt F) S10240x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f LO) ∗ (arg14.view.loc (c : Thread nD τ) ↦[arg14.view.set]{fullShare} arg14.view.writes (Elt F) (harg14.unread xs) LS)) -∗ K ⟨⟩))
          ⊢ wp frame (wpE (defs₀ (F := F)) Variants.none c none) E (cc0__fused i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__fused_eq_skeleton]; unfold cc0__fused_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    iexact HS

end Cert.Kernel.Body

end
-- ==== Proof.KBodyData.lean ====
/- The region's invariant and proof data. Between steps the scratch holds its final values on the rows of the steps already
   run (and anything on the others); each step extends this by its own slice. At the last step the scratch is therefore
   complete once the step's slice is stored, so what the tail reads from it — and hence the result block it writes — does
   not depend on what the scratch held before the first step. The result block after the run is what the last step's tail
   computes from the complete scratch. -/
import proofs.«122449_g16870631539387_cont_7to1_909_9_alg».proof.Proof.KBodyScratch
import proofs.«122449_g16870631539387_cont_7to1_909_9_alg».proof.Proof.KBodyRunB
import Idealize.ShloMosaic.Lib.Pipeline.FrameBody
import Idealize.ShloMosaic.Lib.ValueIdx
import Idealize.ShloMosaic.Lib.WritesUnit
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

theorem hz : (![0, 0] : Fin 2 → Nat) = fun _ => 0 := funext fun a => by fin_cases a <;> rfl

/-- The piece a step before the last stores: the step's slice, computed from the step's blocks. -/
theorem runA_piece (c : Dev nD) (i : grid0.Coords) (arg1 : Memref sig .tc .vmem S1024x256 .f32) (harg1 : arg1.IsWhole) (arg2 : Memref sig .tc .vmem S10240x256 .f32) (harg2 : arg2.IsWhole) (arg3 : Memref sig .tc .vmem S8000x256 .f32) (harg3 : arg3.IsWhole) (arg4 : Memref sig .tc .vmem S320x8000 .bf16) (harg4 : arg4.IsWhole) (arg5 : Memref sig .tc .vmem S128x1280 .bf16) (harg5 : arg5.IsWhole) (arg6 : Memref sig .tc .vmem S256x128 .bf16) (harg6 : arg6.IsWhole) (arg7 : Memref sig .tc .vmem S256x256 .bf16) (harg7 : arg7.IsWhole) (arg8 : Memref sig .tc .vmem S128x256 .bf16) (harg8 : arg8.IsWhole) (arg9 : Memref sig .tc .vmem S256x128 .bf16) (harg9 : arg9.IsWhole) (arg10 : Memref sig .tc .vmem S256x256 .f32) (harg10 : arg10.IsWhole) (arg11 : Memref sig .tc .vmem S128x256 .f32) (harg11 : arg11.IsWhole) (arg12 : Memref sig .tc .vmem S256x50 .f32) (harg12 : arg12.IsWhole) (arg13 : Memref sig .tc .vmem S1024x50 .f32) (harg13 : arg13.IsWhole) (arg14 : Memref sig .tc .vmem S10240x128 .bf16) (harg14 : arg14.IsWhole) (hc0 : ¬lastStep i)
    (x0 : Vec F S1024x256 .f32) (x1 : Vec F S10240x256 .f32) (x2 : Vec F S8000x256 .f32) (x3 : Vec F S320x8000 .bf16) (x4 : Vec F S128x1280 .bf16) (x5 : Vec F S256x128 .bf16) (x6 : Vec F S256x256 .bf16) (x7 : Vec F S128x256 .bf16) (x8 : Vec F S256x128 .bf16) (x9 : Vec F S256x256 .f32) (x10 : Vec F S128x256 .f32) (x11 : Vec F S256x50 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11).1 = [slicePiece i (k0_pay1 x2 x5 x3)] := by
  unfold runA; dsimp only
  simp only [View.readAt_eq_ld, harg3.read_unread, harg6.read_unread, harg4.read_unread,
    View.ld_unit_zero (S := S8000x256) hz, View.ld_unit_zero (S := S256x128) hz, View.ld_unit_zero (S := S320x8000) hz]

/-- The last step stores the same piece into the scratch. -/
theorem runB_slice (c : Dev nD) (i : grid0.Coords) (arg1 : Memref sig .tc .vmem S1024x256 .f32) (harg1 : arg1.IsWhole) (arg2 : Memref sig .tc .vmem S10240x256 .f32) (harg2 : arg2.IsWhole) (arg3 : Memref sig .tc .vmem S8000x256 .f32) (harg3 : arg3.IsWhole) (arg4 : Memref sig .tc .vmem S320x8000 .bf16) (harg4 : arg4.IsWhole) (arg5 : Memref sig .tc .vmem S128x1280 .bf16) (harg5 : arg5.IsWhole) (arg6 : Memref sig .tc .vmem S256x128 .bf16) (harg6 : arg6.IsWhole) (arg7 : Memref sig .tc .vmem S256x256 .bf16) (harg7 : arg7.IsWhole) (arg8 : Memref sig .tc .vmem S128x256 .bf16) (harg8 : arg8.IsWhole) (arg9 : Memref sig .tc .vmem S256x128 .bf16) (harg9 : arg9.IsWhole) (arg10 : Memref sig .tc .vmem S256x256 .f32) (harg10 : arg10.IsWhole) (arg11 : Memref sig .tc .vmem S128x256 .f32) (harg11 : arg11.IsWhole) (arg12 : Memref sig .tc .vmem S256x50 .f32) (harg12 : arg12.IsWhole) (arg13 : Memref sig .tc .vmem S1024x50 .f32) (harg13 : arg13.IsWhole) (arg14 : Memref sig .tc .vmem S10240x128 .bf16) (harg14 : arg14.IsWhole) (hc0 : lastStep i)
    (x0 : Vec F S1024x256 .f32) (x1 : Vec F S10240x256 .f32) (x2 : Vec F S8000x256 .f32) (x3 : Vec F S320x8000 .bf16) (x4 : Vec F S128x1280 .bf16) (x5 : Vec F S256x128 .bf16) (x6 : Vec F S256x256 .bf16) (x7 : Vec F S128x256 .bf16) (x8 : Vec F S256x128 .bf16) (x9 : Vec F S256x256 .f32) (x10 : Vec F S128x256 .f32) (x11 : Vec F S256x50 .f32) (xs : Vec F S10240x128 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs).2.1 = [slicePiece i (k0_pay1 x2 x5 x3)] := by
  unfold runB; dsimp only
  sl_unfold_run_names
  simp only [View.readAt_eq_ld, harg3.read_unread, harg6.read_unread, harg4.read_unread,
    View.ld_unit_zero (S := S8000x256) hz, View.ld_unit_zero (S := S256x128) hz, View.ld_unit_zero (S := S320x8000) hz]

set_option maxHeartbeats 1000000 in
/-- The result pieces of the last step depend on the scratch only through what it holds after the step's own store. -/
theorem runB_out_congr (c : Dev nD) (i : grid0.Coords) (arg1 : Memref sig .tc .vmem S1024x256 .f32) (harg1 : arg1.IsWhole) (arg2 : Memref sig .tc .vmem S10240x256 .f32) (harg2 : arg2.IsWhole) (arg3 : Memref sig .tc .vmem S8000x256 .f32) (harg3 : arg3.IsWhole) (arg4 : Memref sig .tc .vmem S320x8000 .bf16) (harg4 : arg4.IsWhole) (arg5 : Memref sig .tc .vmem S128x1280 .bf16) (harg5 : arg5.IsWhole) (arg6 : Memref sig .tc .vmem S256x128 .bf16) (harg6 : arg6.IsWhole) (arg7 : Memref sig .tc .vmem S256x256 .bf16) (harg7 : arg7.IsWhole) (arg8 : Memref sig .tc .vmem S128x256 .bf16) (harg8 : arg8.IsWhole) (arg9 : Memref sig .tc .vmem S256x128 .bf16) (harg9 : arg9.IsWhole) (arg10 : Memref sig .tc .vmem S256x256 .f32) (harg10 : arg10.IsWhole) (arg11 : Memref sig .tc .vmem S128x256 .f32) (harg11 : arg11.IsWhole) (arg12 : Memref sig .tc .vmem S256x50 .f32) (harg12 : arg12.IsWhole) (arg13 : Memref sig .tc .vmem S1024x50 .f32) (harg13 : arg13.IsWhole) (arg14 : Memref sig .tc .vmem S10240x128 .bf16) (harg14 : arg14.IsWhole) (hc0 : lastStep i)
    (x0 : Vec F S1024x256 .f32) (x1 : Vec F S10240x256 .f32) (x2 : Vec F S8000x256 .f32) (x3 : Vec F S320x8000 .bf16) (x4 : Vec F S128x1280 .bf16) (x5 : Vec F S256x128 .bf16) (x6 : Vec F S256x256 .bf16) (x7 : Vec F S128x256 .bf16) (x8 : Vec F S256x128 .bf16) (x9 : Vec F S256x256 .f32) (x10 : Vec F S128x256 .f32) (x11 : Vec F S256x50 .f32) (xs xs' : Vec F S10240x128 .bf16)
    (h : arg14.view.writes (Elt F) (harg14.unread xs) (runB c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs).2.1
       = arg14.view.writes (Elt F) (harg14.unread xs') (runB c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs').2.1) :
    (runB c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs).1 = (runB c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs').1 := by
  revert h
  unfold runB
  dsimp only
  sl_unfold_run_names
  intro h
  simp only [h]

/-- The eight result pieces tile the result block. -/
theorem runB_cover (c : Dev nD) (i : grid0.Coords) (arg1 : Memref sig .tc .vmem S1024x256 .f32) (harg1 : arg1.IsWhole) (arg2 : Memref sig .tc .vmem S10240x256 .f32) (harg2 : arg2.IsWhole) (arg3 : Memref sig .tc .vmem S8000x256 .f32) (harg3 : arg3.IsWhole) (arg4 : Memref sig .tc .vmem S320x8000 .bf16) (harg4 : arg4.IsWhole) (arg5 : Memref sig .tc .vmem S128x1280 .bf16) (harg5 : arg5.IsWhole) (arg6 : Memref sig .tc .vmem S256x128 .bf16) (harg6 : arg6.IsWhole) (arg7 : Memref sig .tc .vmem S256x256 .bf16) (harg7 : arg7.IsWhole) (arg8 : Memref sig .tc .vmem S128x256 .bf16) (harg8 : arg8.IsWhole) (arg9 : Memref sig .tc .vmem S256x128 .bf16) (harg9 : arg9.IsWhole) (arg10 : Memref sig .tc .vmem S256x256 .f32) (harg10 : arg10.IsWhole) (arg11 : Memref sig .tc .vmem S128x256 .f32) (harg11 : arg11.IsWhole) (arg12 : Memref sig .tc .vmem S256x50 .f32) (harg12 : arg12.IsWhole) (arg13 : Memref sig .tc .vmem S1024x50 .f32) (harg13 : arg13.IsWhole) (arg14 : Memref sig .tc .vmem S10240x128 .bf16) (harg14 : arg14.IsWhole) (hc0 : lastStep i)
    (x0 : Vec F S1024x256 .f32) (x1 : Vec F S10240x256 .f32) (x2 : Vec F S8000x256 .f32) (x3 : Vec F S320x8000 .bf16) (x4 : Vec F S128x1280 .bf16) (x5 : Vec F S256x128 .bf16) (x6 : Vec F S256x256 .bf16) (x7 : Vec F S128x256 .bf16) (x8 : Vec F S256x128 .bf16) (x9 : Vec F S256x256 .f32) (x10 : Vec F S128x256 .f32) (x11 : Vec F S256x50 .f32) (xs : Vec F S10240x128 .bf16) (y : S1024x50.Idx) :
    ∃ pc ∈ (runB c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs).1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs).1 S128x50.size (by sl_kernel_rfl) y

/-- The result block after the run: what the last step's tail computes from the complete scratch. -/
def outFinal (c : Dev nD) : Vec F S1024x50 .f32 :=
  VO.read (Elt F) (VO.writes (Elt F) VO.junk
    (runB c (grid0.coords tLast) (ms_0 tLast) (hs_0 tLast) (ms_1 tLast) (hs_1 tLast) (ms_2 tLast) (hs_2 tLast) (ms_3 tLast) (hs_3 tLast) (ms_4 tLast) (hs_4 tLast) (ms_5 tLast) (hs_5 tLast) (ms_6 tLast) (hs_6 tLast) (ms_7 tLast) (hs_7 tLast) (ms_8 tLast) (hs_8 tLast) (ms_9 tLast) (hs_9 tLast) (ms_10 tLast) (hs_10 tLast) (ms_11 tLast) (hs_11 tLast) (ms_12 tLast) (hs_12 tLast) scM (Memref.isWhole_whole _) ((lastStep_iff tLast).mpr rfl) (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) (iblk m c 11 tLast) (aggFull m c)).1)

/-- The invariant before step `n`: the scratch agrees with its final values on the first `n` steps' rows. -/
def PhiS (c : Dev nD) (n : ℕ) : sProp 𝕄 :=
  iprop(iprop(∃ xs, ⌜Agrees m c n xs⌝ ∗ owns (c : Thread nD τ) scM fullShare xs) ∗ (∃ r, prngReg c r))

/-- The proof data: the arrays as the region finds them; each input's buffer at its block after every step; the result
    block at `outFinal`; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outFinal m c
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = outFinal m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 1000000 in
/-- Two scratch contents that agree on the rows before step 31 are equal once step 31's slice is written over them. -/
theorem writes_last_eq (c : Dev nD) (w : Vec F S320x128 .bf16) (xs xs' : Vec F S10240x128 .bf16)
    (h : ∀ y : S10240x128.Idx, (y 0).val < 320 * 31 → xs y = xs' y) :
    scM.view.writes (Elt F) ((Memref.isWhole_whole cc0_scratch0).unread xs) [slicePiece (grid0.coords tLast) w]
      = scM.view.writes (Elt F) ((Memref.isWhole_whole cc0_scratch0).unread xs') [slicePiece (grid0.coords tLast) w] := by
  apply (Memref.isWhole_whole cc0_scratch0).read_bijective.1
  funext y
  have h0 := idx2_lt0 y
  have h1 := idx2_lt1 y
  by_cases hrow : 320 * 31 ≤ (y 0).val
  · rw [View.read_writes_cons_rows_of_mem scM.view _ (k0_off1_inb (grid0.coords tLast)) _ [] y
      (ix2 ⟨(y 0).val - 320 * 31, by omega⟩ ⟨(y 1).val, h1⟩) (off_eq tLast) (by show (y 0).val = 320 * 31 + ((y 0).val - 320 * 31); omega) rfl,
      View.read_writes_cons_rows_of_mem scM.view _ (k0_off1_inb (grid0.coords tLast)) _ [] y
      (ix2 ⟨(y 0).val - 320 * 31, by omega⟩ ⟨(y 1).val, h1⟩) (off_eq tLast) (by show (y 0).val = 320 * 31 + ((y 0).val - 320 * 31); omega) rfl]
  · rw [View.read_writes_cons_rows_of_not_mem scM.view _ (k0_off1_inb (grid0.coords tLast)) _ [] y (off_eq tLast) rfl (Or.inl (by show (y 0).val < 320 * 31; omega)),
      View.read_writes_cons_rows_of_not_mem scM.view _ (k0_off1_inb (grid0.coords tLast)) _ [] y (off_eq tLast) rfl (Or.inl (by show (y 0).val < 320 * 31; omega)),
      View.writes_nil, View.writes_nil, (Memref.isWhole_whole cc0_scratch0).read_unread, (Memref.isWhole_whole cc0_scratch0).read_unread]
    exact h y (by omega)

end Cert.Kernel.Body

end
-- ==== Proof.KBodyFrame.lean ====
/- Every step keeps the invariant: the body's run at a step before the last extends the scratch's agreement by the step's
   slice and leaves the result block alone; at the last step the scratch becomes complete and the tail writes the result
   block, whose contents are then the closed term of the proof data. From this the whole region runs: every weakly fair
   execution terminates with the argument arrays unchanged and the result array at that term. -/
import proofs.«122449_g16870631539387_cont_7to1_909_9_alg».proof.Proof.KBodyData
import Idealize.ShloMosaic.Lib.Pipeline.FrameBody
import Idealize.ShloMosaic.Lib.ValueIdx
import Idealize.ShloMosaic.Lib.WritesUnit
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

set_option maxHeartbeats 4000000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  have hN : t.val < 32 := lt_of_lt_of_eq t.isLt (show cfg0.N = 32 from N_0)
  by_cases h0 : t.val % 32 = 31
  · have hl : lastStep (grid0.coords t) := (lastStep_iff t).mpr h0
    obtain rfl : t = tLast := Fin.ext (by show t.val = 31; omega)
    rw [show (dats m 0 c).leavesExact 0 tLast = owns (c : Thread nD τ) (ms_0 tLast) fullShare ((dats m 0 c).after 0 tLast) from by
      unfold Dat.leavesExact; rw [live_0 tLast], after_0]
    rw [show (dats m 0 c).leavesExact 1 tLast = owns (c : Thread nD τ) (ms_1 tLast) fullShare ((dats m 0 c).after 1 tLast) from by
      unfold Dat.leavesExact; rw [live_1 tLast], after_1]
    rw [show (dats m 0 c).leavesExact 2 tLast = owns (c : Thread nD τ) (ms_2 tLast) fullShare ((dats m 0 c).after 2 tLast) from by
      unfold Dat.leavesExact; rw [live_2 tLast], after_2]
    rw [show (dats m 0 c).leavesExact 3 tLast = owns (c : Thread nD τ) (ms_3 tLast) fullShare ((dats m 0 c).after 3 tLast) from by
      unfold Dat.leavesExact; rw [live_3 tLast], after_3]
    rw [show (dats m 0 c).leavesExact 4 tLast = owns (c : Thread nD τ) (ms_4 tLast) fullShare ((dats m 0 c).after 4 tLast) from by
      unfold Dat.leavesExact; rw [live_4 tLast], after_4]
    rw [show (dats m 0 c).leavesExact 5 tLast = owns (c : Thread nD τ) (ms_5 tLast) fullShare ((dats m 0 c).after 5 tLast) from by
      unfold Dat.leavesExact; rw [live_5 tLast], after_5]
    rw [show (dats m 0 c).leavesExact 6 tLast = owns (c : Thread nD τ) (ms_6 tLast) fullShare ((dats m 0 c).after 6 tLast) from by
      unfold Dat.leavesExact; rw [live_6 tLast], after_6]
    rw [show (dats m 0 c).leavesExact 7 tLast = owns (c : Thread nD τ) (ms_7 tLast) fullShare ((dats m 0 c).after 7 tLast) from by
      unfold Dat.leavesExact; rw [live_7 tLast], after_7]
    rw [show (dats m 0 c).leavesExact 8 tLast = owns (c : Thread nD τ) (ms_8 tLast) fullShare ((dats m 0 c).after 8 tLast) from by
      unfold Dat.leavesExact; rw [live_8 tLast], after_8]
    rw [show (dats m 0 c).leavesExact 9 tLast = owns (c : Thread nD τ) (ms_9 tLast) fullShare ((dats m 0 c).after 9 tLast) from by
      unfold Dat.leavesExact; rw [live_9 tLast], after_9]
    rw [show (dats m 0 c).leavesExact 10 tLast = owns (c : Thread nD τ) (ms_10 tLast) fullShare ((dats m 0 c).after 10 tLast) from by
      unfold Dat.leavesExact; rw [live_10 tLast], after_10]
    rw [show (dats m 0 c).leavesExact 11 tLast = owns (c : Thread nD τ) (ms_11 tLast) fullShare ((dats m 0 c).after 11 tLast) from by
      unfold Dat.leavesExact; rw [live_11 tLast], after_11]
    rw [show (dats m 0 c).leavesExact 12 tLast = owns (c : Thread nD τ) (ms_12 tLast) fullShare ((dats m 0 c).after 12 tLast) from by
      unfold Dat.leavesExact; rw [out_live tLast hl], after_12]
    iintro ⟨⟨⟨%xs, %hAg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB c (grid0.coords tLast) _ _ _ _ _ _ _ _ _ _ _ _ _ _ _ _ _ _ _ _ _ _ _ _ _ _ _ _ hl (iblk m c 0 tLast) (iblk m c 1 tLast) (iblk m c 2 tLast) (iblk m c 3 tLast) (iblk m c 4 tLast) (iblk m c 5 tLast) (iblk m c 6 tLast) (iblk m c 7 tLast) (iblk m c 8 tLast) (iblk m c 9 tLast) (iblk m c 10 tLast) (iblk m c 11 tLast) xs).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS]; · iexact HS
    iintro ⟨H0, H1, H2, H3, H4, H5, H6, H7, H8, H9, H10, H11, ⟨%e12, H12⟩, HS⟩
    isplitl [HS Hg]
    · isplitl [HS]
      · iexists _
        isplitr
        swap
        · unfold owns; iexists _; isplitr
          swap; · iexact HS
          ipureintro; rfl
        ipureintro
        rw [runB_slice]
        exact agrees_step m c tLast xs hAg
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro
    refine (View.read_writes_of_cover _ _ VO VO.junk _ (runB_cover c _ _ _ _ _ _ _ _ _ _ _ _ _ _ _ _ _ _ _ _ _ _ _ _ _ _ _ _ _ hl _ _ _ _ _ _ _ _ _ _ _ _ xs)).trans ?_
    unfold outFinal
    refine congrArg (fun L => VO.read (Elt F) (VO.writes (Elt F) VO.junk L)) ?_
    refine runB_out_congr c _ _ _ _ _ _ _ _ _ _ _ _ _ _ _ _ _ _ _ _ _ _ _ _ _ _ _ _ _ hl _ _ _ _ _ _ _ _ _ _ _ _ xs (aggFull m c) ?_
    rw [runB_slice, runB_slice]
    exact writes_last_eq c _ xs (aggFull m c) (fun y hy => hAg y hy)
  · have hl : ¬lastStep (grid0.coords t) := fun h => h0 ((lastStep_iff t).mp h)
    rw [show (dats m 0 c).leavesExact 0 t = owns (c : Thread nD τ) (ms_0 t) fullShare ((dats m 0 c).after 0 t) from by
      unfold Dat.leavesExact; rw [live_0 t], after_0]
    rw [show (dats m 0 c).leavesExact 1 t = owns (c : Thread nD τ) (ms_1 t) fullShare ((dats m 0 c).after 1 t) from by
      unfold Dat.leavesExact; rw [live_1 t], after_1]
    rw [show (dats m 0 c).leavesExact 2 t = owns (c : Thread nD τ) (ms_2 t) fullShare ((dats m 0 c).after 2 t) from by
      unfold Dat.leavesExact; rw [live_2 t], after_2]
    rw [show (dats m 0 c).leavesExact 3 t = owns (c : Thread nD τ) (ms_3 t) fullShare ((dats m 0 c).after 3 t) from by
      unfold Dat.leavesExact; rw [live_3 t], after_3]
    rw [show (dats m 0 c).leavesExact 4 t = owns (c : Thread nD τ) (ms_4 t) fullShare ((dats m 0 c).after 4 t) from by
      unfold Dat.leavesExact; rw [live_4 t], after_4]
    rw [show (dats m 0 c).leavesExact 5 t = owns (c : Thread nD τ) (ms_5 t) fullShare ((dats m 0 c).after 5 t) from by
      unfold Dat.leavesExact; rw [live_5 t], after_5]
    rw [show (dats m 0 c).leavesExact 6 t = owns (c : Thread nD τ) (ms_6 t) fullShare ((dats m 0 c).after 6 t) from by
      unfold Dat.leavesExact; rw [live_6 t], after_6]
    rw [show (dats m 0 c).leavesExact 7 t = owns (c : Thread nD τ) (ms_7 t) fullShare ((dats m 0 c).after 7 t) from by
      unfold Dat.leavesExact; rw [live_7 t], after_7]
    rw [show (dats m 0 c).leavesExact 8 t = owns (c : Thread nD τ) (ms_8 t) fullShare ((dats m 0 c).after 8 t) from by
      unfold Dat.leavesExact; rw [live_8 t], after_8]
    rw [show (dats m 0 c).leavesExact 9 t = owns (c : Thread nD τ) (ms_9 t) fullShare ((dats m 0 c).after 9 t) from by
      unfold Dat.leavesExact; rw [live_9 t], after_9]
    rw [show (dats m 0 c).leavesExact 10 t = owns (c : Thread nD τ) (ms_10 t) fullShare ((dats m 0 c).after 10 t) from by
      unfold Dat.leavesExact; rw [live_10 t], after_10]
    rw [show (dats m 0 c).leavesExact 11 t = owns (c : Thread nD τ) (ms_11 t) fullShare ((dats m 0 c).after 11 t) from by
      unfold Dat.leavesExact; rw [live_11 t], after_11]
    rw [Dat.leavesExact_idle (dats m 0 c) 12 t (out_idle t hl) (out_noFlush t hl)]
    iintro ⟨⟨⟨%xs, %hAg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runA c (grid0.coords t) _ _ _ _ _ _ _ _ _ _ _ _ _ _ _ _ _ _ _ _ _ _ _ _ _ _ _ _ hl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2 _ xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS]; · iexact HS
    iintro ⟨H0, H1, H2, H3, H4, H5, H6, H7, H8, H9, H10, H11, H12, HS⟩
    isplitl [HS Hg]
    · isplitl [HS]
      · iexists _
        isplitr
        swap
        · unfold owns; iexists _; isplitr
          swap; · iexact HS
          ipureintro; rfl
        ipureintro
        rw [runA_piece]
        exact agrees_step m c t xs hAg
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12

/-- The library's body obligation, at every step. -/
theorem body_obligation (c : Dev nD) : BodyObligation (dats (F := F) m 0 c) (defs₀ (F := F)) Variants.none () Set.univ := fun t => by
  rw [bigSep_W0, bigSep_W0]
  exact sound_body m c t

/-- What the launch hands the region is the invariant before the first step: no row is claimed yet. -/
theorem hin (c : Dev nD) : Pipeline.ΦA spec0 c ⊢ (dats m 0 c).Φ 0 := by
  rw [show (dats m 0 c).Φ 0 = PhiS m c 0 from rfl, PhiA_eq]
  unfold PhiS
  iintro ⟨⟨%d, HS⟩, Hg⟩
  isplitl [HS]
  · iexists d
    isplitr
    · ipureintro; intro y hy; exact absurd hy (by omega)
    iexact HS
  iexact Hg

/-- After the last step the invariant gives the scratch back, its contents forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%xs, -, HS⟩, Hg⟩
  isplitl [HS]
  · iexists _; iexact HS
  iexact Hg

set_option backward.isDefEq.respectTransparency.types false in
/-- Every weakly fair execution of @main terminates, with every array of the pipeline at what the proof data compute and
    every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the run ends with the eight argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.lean ====
/- The certificate of a fused graph-network kernel against its array-level reference.

   The kernel streams the two-hop features through 32 steps; each step reduces its 8000 rows to 320 aggregated rows
   (relu of a product, a group sum through a 0/1 membership matrix, a scale by 1/25) and parks them in a scratch; the last
   step then runs the rest of the network over the complete scratch in eight chunks of 128 roots. The reference computes the
   same layers on whole arrays.

   * The frames (Proof/BodyRunA, BodyRunB, BodyData, BodyFrame, and their word-level copies): the body's run at a step,
     the invariant that the scratch holds its final rows for the steps already run, and the region's run.
   * The value of the kernel's result (Proof/FinalArray, OutValue, ScratchValue, BodyValue, ChunkValue, HostArrays): the
     result array is the flattened reading of the network (Proof/Spec) on the arrays the region finds.
   * The reference (Proof/RefValue) is the multi-axis reading, and the two readings agree (Proof/SpecJoin, Proof/Join).
   * The idealization's nine named reciprocals, 1/25 once and 1/10 eight times, each by its rule's statement. -/
import proofs.«122449_g16870631539387_cont_7to1_909_9_alg».proof.Defs
import proofs.«122449_g16870631539387_cont_7to1_909_9_alg».proof.Proof.Join
import proofs.«122449_g16870631539387_cont_7to1_909_9_alg».proof.Proof.KBodyFrame
import proofs.«122449_g16870631539387_cont_7to1_909_9_alg».proof.Proof.Gen.Kernel
import proofs.«122449_g16870631539387_cont_7to1_909_9_alg».proof.Proof.Gen.KernelIdeal
import proofs.«122449_g16870631539387_cont_7to1_909_9_alg».proof.Proof.Gen.ReferenceIdeal
import proofs.«122449_g16870631539387_cont_7to1_909_9_alg».proof.Proof.Gen.Pre_finite_inputs
import Idealize.ShloMosaic.Adequacy
import Idealize.ShloMosaic.Init

noncomputable section

namespace Cert.Proof

open Idealize.ShloMosaic Idealize.SL.Sem

theorem frame_p : Cert.frame_Kernel := fun m ρ _ => Cert.Kernel.Body.frame (F := Bits) m ρ
theorem frame_pi : Cert.frame_KernelIdeal := fun m ρ _ => Cert.KernelIdeal.Body.frame (F := Ideal) m ρ
theorem frame_ri : Cert.frame_ReferenceIdeal := Cert.ReferenceIdeal.RefValue.frame_ri

/-- The ledger's nine entries: the table gives "inv_25" the value 1/25 and "inv_10" the value 1/10, and each printed
    constant is that value at the ideal instance. -/
theorem preserves : Cert.preserves_Kernel_KernelIdeal :=
  ⟨IdealRules.named_const.statement Cert.KernelIdeal.κ "inv_25" .f32 0x3D23D70A#32 ((1 / 25 : ℝ) : EReal) rfl,
   IdealRules.named_const.statement Cert.KernelIdeal.κ "inv_10" .f32 0x3DCCCCCD#32 ((1 / 10 : ℝ) : EReal) rfl,
   IdealRules.named_const.statement Cert.KernelIdeal.κ "inv_10" .f32 0x3DCCCCCD#32 ((1 / 10 : ℝ) : EReal) rfl,
   IdealRules.named_const.statement Cert.KernelIdeal.κ "inv_10" .f32 0x3DCCCCCD#32 ((1 / 10 : ℝ) : EReal) rfl,
   IdealRules.named_const.statement Cert.KernelIdeal.κ "inv_10" .f32 0x3DCCCCCD#32 ((1 / 10 : ℝ) : EReal) rfl,
   IdealRules.named_const.statement Cert.KernelIdeal.κ "inv_10" .f32 0x3DCCCCCD#32 ((1 / 10 : ℝ) : EReal) rfl,
   IdealRules.named_const.statement Cert.KernelIdeal.κ "inv_10" .f32 0x3DCCCCCD#32 ((1 / 10 : ℝ) : EReal) rfl,
   IdealRules.named_const.statement Cert.KernelIdeal.κ "inv_10" .f32 0x3DCCCCCD#32 ((1 / 10 : ℝ) : EReal) rfl,
   IdealRules.named_const.statement Cert.KernelIdeal.κ "inv_10" .f32 0x3DCCCCCD#32 ((1 / 10 : ℝ) : EReal) rfl⟩

/-- Both idealized programs end with the result at the reference's function of the (agreeing) argument arrays. -/
theorem algebraic : Cert.algebraic_KernelIdeal_ReferenceIdeal := by
  intro m ρ m' ρ' _ hagree
  refine ⟨fun c => Cert.ReferenceIdeal.RefValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.KernelIdeal.Join.outFinal_eq m c), (h c).2⟩)
      (Cert.KernelIdeal.Body.run_value (F := Ideal) m ρ)
  · refine (θ_run Cert.ReferenceIdeal.defs _ _).mono (fun _ h c => ⟨(h c).1.trans ?_, (h c).2⟩)
      (Cert.ReferenceIdeal.RefValue.run_spec m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
